-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S214x768 : Shape := ⟨2, ![214, 768]⟩
abbrev S214 : Shape := ⟨1, ![214]⟩
abbrev S768x768 : Shape := ⟨2, ![768, 768]⟩
abbrev S768 : Shape := ⟨1, ![768]⟩
abbrev S2048x2048 : Shape := ⟨2, ![2048, 2048]⟩
abbrev S8x2048x2048 : Shape := ⟨3, ![8, 2048, 2048]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S214x768 : S_.BroadcastsInDim S214x768 (![] : Fin 0 → Fin S214x768.rank)
  reducesTo_S214x768_S_d0_1 : S214x768.ReducesTo [0, 1] S_
  bcast_S_S214 : S_.BroadcastsInDim S214 (![] : Fin 0 → Fin S214.rank)
  reducesTo_S214_S_d0 : S214.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S2048x2048 : S_.BroadcastsInDim S2048x2048 (![] : Fin 0 → Fin S2048x2048.rank)
  reducesTo_S2048x2048_S_d0_1 : S2048x2048.ReducesTo [0, 1] S_
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn_part3 {F : FTy → Type} [FloatOps F] (main_arg9 : FVec F S2048x2048 .f32) (main_v48 : IVec S_ 1) (main_v49 : FVec F S8x2048x2048 .f32) (main_v50 : FVec F S8x2048x2048 .f32) : IVec S_ 1 :=
  let main_v51 : IVec S8x2048x2048 1 := cmpf .olt main_v49 main_v50
  let main_c_19 : IVec S_ 1 := constantI S_ 1 1#1
  let main_v52 : IVec S_ 1 := (fun x v => Host.reduce IntOp.andi x v reducesTo_S8x2048x2048_S_d0_1_2 h_S_) main_v51 main_c_19
  let main_v53 : IVec S_ 1 := andi main_v48 main_v52
  let main_cst_20 : FVec F S_ .f32 := constant S_ .f32 0x00000000#32
  let main_v54 : FVec F S2048x2048 .f32 := broadcastInDim S2048x2048 ![] bcast_S_S2048x2048 main_cst_20
  let main_v55 : IVec S2048x2048 1 := cmpf .une main_arg9 main_v54
  let main_c_21 : IVec S_ 1 := constantI S_ 1 1#1
  let main_v56 : IVec S_ 1 := (fun x v => Host.reduce IntOp.andi x v reducesTo_S2048x2048_S_d0_1 h_S_) main_v55 main_c_21
  let main_v57 : IVec S_ 1 := andi main_v53 main_v56
  main_v57

def fn_part2 {F : FTy → Type} [FloatOps F] (main_arg7 : FVec F S768x768 .f32) (main_arg8 : FVec F S768 .f32) (main_arg9 : FVec F S2048x2048 .f32) (main_arg10 : FVec F S8x2048x2048 .f32) (main_v33 : IVec S_ 1) : IVec S_ 1 :=
  let main_v34 : FVec F S768x768 .f32 := Host.absf main_arg7
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S8x2048x2048 .f32 := Host.absf main_arg10
  let main_cst_18 : FVec F S_ .f32 := constant S_ .f32 0x7F800000#32
  let main_v50 : FVec F S8x2048x2048 .f32 := broadcastInDim S8x2048x2048 ![] bcast_S_S8x2048x2048 main_cst_18
  fn_part3 (F := F) main_arg9 main_v48 main_v49 main_v50

def fn_part1 {F : FTy → Type} [FloatOps F] (main_arg4 : FVec F S214 .f32) (main_arg5 : FVec F S214x768 .f32) (main_arg6 : FVec F S214 .f32) (main_arg7 : FVec F S768x768 .f32) (main_arg8 : FVec F S768 .f32) (main_arg9 : FVec F S2048x2048 .f32) (main_arg10 : FVec F S8x2048x2048 .f32) (main_v13 : IVec S_ 1) (main_v16 : IVec S214x768 1) : IVec S_ 1 :=
  let main_c_5 : IVec S_ 1 := constantI S_ 1 1#1
  let main_v17 : IVec S_ 1 := (fun x v => Host.reduce IntOp.andi x v reducesTo_S214x768_S_d0_1 h_S_) main_v16 main_c_5
  let main_v18 : IVec S_ 1 := andi main_v13 main_v17
  let main_v19 : FVec F S214 .f32 := Host.absf main_arg4
  let main_cst_6 : FVec F S_ .f32 := constant S_ .f32 0x7F800000#32
  let main_v20 : FVec F S214 .f32 := broadcastInDim S214 ![] bcast_S_S214 main_cst_6
  let main_v21 : IVec S214 1 := cmpf .olt main_v19 main_v20
  let main_c_7 : IVec S_ 1 := constantI S_ 1 1#1
  let main_v22 : IVec S_ 1 := (fun x v => Host.reduce IntOp.andi x v reducesTo_S214_S_d0 h_S_) main_v21 main_c_7
  let main_v23 : IVec S_ 1 := andi main_v18 main_v22
  let main_v24 : FVec F S214x768 .f32 := Host.absf main_arg5
  let main_cst_8 : FVec F S_ .f32 := constant S_ .f32 0x7F800000#32
  let main_v25 : FVec F S214x768 .f32 := broadcastInDim S214x768 ![] bcast_S_S214x768 main_cst_8
  let main_v26 : IVec S214x768 1 := cmpf .olt main_v24 main_v25
  let main_c_9 : IVec S_ 1 := constantI S_ 1 1#1
  let main_v27 : IVec S_ 1 := (fun x v => Host.reduce IntOp.andi x v reducesTo_S214x768_S_d0_1 h_S_) main_v26 main_c_9
  let main_v28 : IVec S_ 1 := andi main_v23 main_v27
  let main_v29 : FVec F S214 .f32 := Host.absf main_arg6
  let main_cst_10 : FVec F S_ .f32 := constant S_ .f32 0x7F800000#32
  let main_v30 : FVec F S214 .f32 := broadcastInDim S214 ![] bcast_S_S214 main_cst_10
  let main_v31 : IVec S214 1 := cmpf .olt main_v29 main_v30
  let main_c_11 : IVec S_ 1 := constantI S_ 1 1#1
  let main_v32 : IVec S_ 1 := (fun x v => Host.reduce IntOp.andi x v reducesTo_S214_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x2048x768 .f32) (main_arg1 : FVec F S8x2048x768 .f32) (main_arg2 : FVec F S8x2048x768 .f32) (main_arg3 : FVec F S214x768 .f32) (main_arg4 : FVec F S214 .f32) (main_arg5 : FVec F S214x768 .f32) (main_arg6 : FVec F S214 .f32) (main_arg7 : FVec F S768x768 .f32) (main_arg8 : FVec F S768 .f32) (main_arg9 : FVec F S2048x2048 .f32) (main_arg10 : FVec F S8x2048x2048 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S8x2048x768 .f32 := Host.absf main_arg1
  let main_cst_0 : FVec F S_ .f32 := constant S_ .f32 0x7F800000#32
  let main_v5 : FVec F S8x2048x768 .f32 := broadcastInDim S8x2048x768 ![] bcast_S_S8x2048x768 main_cst_0
  let main_v6 : IVec S8x2048x768 1 := cmpf .olt main_v4 main_v5
  let main_c_1 : IVec S_ 1 := constantI S_ 1 1#1
  let main_v7 : IVec S_ 1 := (fun x v => Host.reduce IntOp.andi x v reducesTo_S8x2048x768_S_d0_1_2 h_S_) main_v6 main_c_1
  let main_v8 : IVec S_ 1 := andi main_v3 main_v7
  let main_v9 : FVec F S8x2048x768 .f32 := Host.absf main_arg2
  let main_cst_2 : FVec F S_ .f32 := constant S_ .f32 0x7F800000#32
  let main_v10 : FVec F S8x2048x768 .f32 := broadcastInDim S8x2048x768 ![] bcast_S_S8x2048x768 main_cst_2
  let main_v11 : IVec S8x2048x768 1 := cmpf .olt main_v9 main_v10
  let main_c_3 : IVec S_ 1 := constantI S_ 1 1#1
  let main_v12 : IVec S_ 1 := (fun x v => Host.reduce IntOp.andi x v reducesTo_S8x2048x768_S_d0_1_2 h_S_) main_v11 main_c_3
  let main_v13 : IVec S_ 1 := andi main_v8 main_v12
  let main_v14 : FVec F S214x768 .f32 := Host.absf main_arg3
  let main_cst_4 : FVec F S_ .f32 := constant S_ .f32 0x7F800000#32
  let main_v15 : FVec F S214x768 .f32 := broadcastInDim S214x768 ![] bcast_S_S214x768 main_cst_4
  let main_v16 : IVec S214x768 1 := cmpf .olt main_v14 main_v15
  fn_part1 (F := F) main_arg4 main_arg5 main_arg6 main_arg7 main_arg8 main_arg9 main_arg10 main_v13 main_v16
-- ==== Kernel.lean ====
abbrev S8x2048x768 : Shape := ⟨3, ![8, 2048, 768]⟩
abbrev S214x768 : Shape := ⟨2, ![214, 768]⟩
abbrev S214 : Shape := ⟨1, ![214]⟩
abbrev S768x768 : Shape := ⟨2, ![768, 768]⟩
abbrev S768 : Shape := ⟨1, ![768]⟩
abbrev S2048x2048 : Shape := ⟨2, ![2048, 2048]⟩
abbrev S8x2048x2048 : Shape := ⟨3, ![8, 2048, 2048]⟩
abbrev S_ : Shape := ⟨0, ![]⟩
abbrev S256x768 : Shape := ⟨2, ![256, 768]⟩
abbrev S256 : Shape := ⟨1, ![256]⟩
abbrev S768x256 : Shape := ⟨2, ![768, 256]⟩
abbrev S1x256 : Shape := ⟨2, ![1, 256]⟩
abbrev S1x768 : Shape := ⟨2, ![1, 768]⟩
abbrev S8x2048x256 : Shape := ⟨3, ![8, 2048, 256]⟩
abbrev S1x256x768 : Shape := ⟨3, ![1, 256, 768]⟩
abbrev S1x256x256 : Shape := ⟨3, ![1, 256, 256]⟩
abbrev S256x256 : Shape := ⟨2, ![256, 256]⟩
abbrev S1x1024x256 : Shape := ⟨3, ![1, 1024, 256]⟩
abbrev S1x512x256 : Shape := ⟨3, ![1, 512, 256]⟩
abbrev S1x512x768 : Shape := ⟨3, ![1, 512, 768]⟩
abbrev S1024x512 : Shape := ⟨2, ![1024, 512]⟩
abbrev S1x1024x512 : Shape := ⟨3, ![1, 1024, 512]⟩
abbrev S1x1024x768 : Shape := ⟨3, ![1, 1024, 768]⟩
abbrev S1024x1 : Shape := ⟨2, ![1024, 1]⟩
abbrev S1024x768 : Shape := ⟨2, ![1024, 768]⟩
abbrev S1024x256 : Shape := ⟨2, ![1024, 256]⟩
abbrev S512x256 : Shape := ⟨2, ![512, 256]⟩
abbrev S512x768 : Shape := ⟨2, ![512, 768]⟩
abbrev S1024 : Shape := ⟨1, ![1024]⟩

abbrev nBuf : Space → Nat
  | .hbm => 33
  | .vmem => 33
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S8x2048x768, .f32⟩
  | .hbm, ⟨3, _⟩ => ⟨S214x768, .f32⟩
  | .hbm, ⟨4, _⟩ => ⟨S214, .f32⟩
  | .hbm, ⟨5, _⟩ => ⟨S214x768, .f32⟩
  | .hbm, ⟨6, _⟩ => ⟨S214, .f32⟩
  | .hbm, ⟨7, _⟩ => ⟨S768x768, .f32⟩
  | .hbm, ⟨8, _⟩ => ⟨S768, .f32⟩
  | .hbm, ⟨9, _⟩ => ⟨S2048x2048, .f32⟩
  | .hbm, ⟨10, _⟩ => ⟨S8x2048x2048, .f32⟩
  | .hbm, ⟨11, _⟩ => ⟨S_, .i32⟩
  | .hbm, ⟨12, _⟩ => ⟨S_, .f32⟩
  | .hbm, ⟨13, _⟩ => ⟨S256x768, .f32⟩
  | .hbm, ⟨14, _⟩ => ⟨S_, .i32⟩
  | .hbm, ⟨15, _⟩ => ⟨S_, .f32⟩
  | .hbm, ⟨16, _⟩ => ⟨S256x768, .f32⟩
  | .hbm, ⟨17, _⟩ => ⟨S_, .i32⟩
  | .hbm, ⟨18, _⟩ => ⟨S_, .f32⟩
  | .hbm, ⟨19, _⟩ => ⟨S256, .f32⟩
  | .hbm, ⟨20, _⟩ => ⟨S_, .i32⟩
  | .hbm, ⟨21, _⟩ => ⟨S_, .f32⟩
  | .hbm, ⟨22, _⟩ => ⟨S256, .f32⟩
  | .hbm, ⟨23, _⟩ => ⟨S768x256, .f32⟩
  | .hbm, ⟨24, _⟩ => ⟨S768x256, .f32⟩
  | .hbm, ⟨25, _⟩ => ⟨S768x768, .f32⟩
  | .hbm, ⟨26, _⟩ => ⟨S1x256, .f32⟩
  | .hbm, ⟨27, _⟩ => ⟨S1x256, .f32⟩
  | .hbm, ⟨28, _⟩ => ⟨S1x768, .f32⟩
  | .hbm, ⟨29, _⟩ => ⟨S8x2048x256, .bf16⟩
  | .hbm, ⟨30, _⟩ => ⟨S8x2048x256, .bf16⟩
  | .hbm, ⟨31, _⟩ => ⟨S8x2048x768, .bf16⟩
  | .hbm, ⟨32, _⟩ => ⟨S8x2048x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S768x256, .f32⟩
  | .local _ .vmem, ⟨7, _⟩ => ⟨S1x256, .f32⟩
  | .local _ .vmem, ⟨8, _⟩ => ⟨S768x256, .f32⟩
  | .local _ .vmem, ⟨9, _⟩ => ⟨S1x256, .f32⟩
  | .local _ .vmem, ⟨10, _⟩ => ⟨S768x768, .f32⟩
  | .local _ .vmem, ⟨11, _⟩ => ⟨S1x768, .f32⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x768, .bf16⟩
  | .local _ .vmem, ⟨17, _⟩ => ⟨S1x256x768, .bf16⟩
  | .local _ .vmem, ⟨18, _⟩ => ⟨S1x1024x256, .bf16⟩
  | .local _ .vmem, ⟨19, _⟩ => ⟨S1x1024x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x768, .bf16⟩
  | .local _ .vmem, ⟨23, _⟩ => ⟨S1x512x768, .bf16⟩
  | .local _ .vmem, ⟨24, _⟩ => ⟨S1024x512, .f32⟩
  | .local _ .vmem, ⟨25, _⟩ => ⟨S1024x512, .f32⟩
  | .local _ .vmem, ⟨26, _⟩ => ⟨S1x1024x512, .f32⟩
  | .local _ .vmem, ⟨27, _⟩ => ⟨S1x1024x512, .f32⟩
  | .local _ .vmem, ⟨28, _⟩ => ⟨S1x1024x768, .f32⟩
  | .local _ .vmem, ⟨29, _⟩ => ⟨S1x1024x768, .f32⟩
  | .local _ .vmem, ⟨30, _⟩ => ⟨S1024x1, .f32⟩
  | .local _ .vmem, ⟨31, _⟩ => ⟨S1024x1, .f32⟩
  | .local _ .vmem, ⟨32, _⟩ => ⟨S1024x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_c_1 : Ref sig .tc := ⟨.hbm, 17, rfl⟩
abbrev main_call2_v0 : Ref sig .tc := ⟨.hbm, 18, rfl⟩
abbrev main_v2 : Ref sig .tc := ⟨.hbm, 19, rfl⟩
abbrev main_c_2 : Ref sig .tc := ⟨.hbm, 20, rfl⟩
abbrev main_call3_v0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev main_v10_2 : Ref sig .tc := ⟨.hbm, 31, rfl⟩
abbrev main_v11 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v45 : BitVec 1 := Scalar.cmpi .eq arg2 c3_i32
  let v46 : BitVec 32 := Scalar.extui v45
  let c0_i32_31 : BitVec 32 := 0#32
  let v47 : BitVec 1 := Scalar.cmpi .ne v46 c0_i32_31
  v47

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x1024x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  pads_S214x768_S256x768_0420_000 : S214x768.Pads (![0, 0] : Fin 2 → Nat) ![42, 0] ![0, 0] S256x768
  h_S_ : 0 < S_.numel
  pads_S214_S256_0420 : S214.Pads (![0] : Fin 1 → Nat) ![42] ![0] S256
  transposes_S256x768_S768x256_1_0 : S256x768.Transposes [1, 0] S768x256
  transposes_S768x768_S768x768_1_0 : S768x768.Transposes [1, 0] S768x768
  shapeCasts_S256_S1x256 : S256.ShapeCasts S1x256
  shapeCasts_S768_S1x768 : S768.ShapeCasts S1x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  packedbf16_S1x256x256_S1x256x256_0_0_0 : (Rect.unit (s := S1x256x256) ![0, 0, 0] S1x256x256.size inb_S1x256x256_S1x256x256_0_0_0).PackedRows (EltTy.packing .bf16)
  shapeCasts_S256x768_S1x256x768 : S256x768.ShapeCasts S1x256x768
  packedbf16_S1x256x768_S1x256x768_0_0_0 : (Rect.unit (s := S1x256x768) ![0, 0, 0] S1x256x768.size inb_S1x256x768_S1x256x768_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  broadcasts_S1024x1_S1024x768 : S1024x1.Broadcasts S1024x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S1024x768_S1x1024x768 : S1024x768.ShapeCasts S1x1024x768
  dot_S256x768_S768x256_S256x256_1_0_0_1_n_n_wf : DotDims.WF S256x768 S768x256 S256x256 [1] [0] [0] [1] [] []
  dot_S256x768_S768x768_S256x768_1_0_0_1_n_n_wf : DotDims.WF S256x768 S768x768 S256x768 [1] [0] [0] [1] [] []
  dot_S1024x256_S512x256_S1024x512_1_1_0_0_n_n_wf : DotDims.WF S1024x256 S512x256 S1024x512 [1] [1] [0] [0] [] []
  dot_S1024x512_S512x768_S1024x768_1_0_0_1_n_n_wf : DotDims.WF S1024x512 S512x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S8x2048x768.size a
  hwx0_0 : ∀ i : grid0.Coords, EltTy.bits .f32 = 32 ∨ (Rect.block (s := S8x2048x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x768.size a ≤ S8x2048x768.size a
  hwx0_1 : ∀ i : grid0.Coords, EltTy.bits .f32 = 32 ∨ (Rect.block (s := S8x2048x768) S1x256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x768.size a ≤ S8x2048x768.size a
  hwx0_2 : ∀ i : grid0.Coords, EltTy.bits .f32 = 32 ∨ (Rect.block (s := S8x2048x768) S1x256x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .f32 = 32 ∨ (Rect.block (s := S768x256) S768x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x256.size a ≤ S768x256.size a
  hwx0_5 : ∀ i : grid0.Coords, EltTy.bits .f32 = 32 ∨ (Rect.block (s := S768x256) S768x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x768.size a ≤ S768x768.size a
  hwx0_7 : ∀ i : grid0.Coords, EltTy.bits .f32 = 32 ∨ (Rect.block (s := S768x768) S768x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x256.size a ≤ S8x2048x256.size a
  hwx0_9 : ∀ i : grid0.Coords, EltTy.bits .bf16 = 32 ∨ (Rect.block (s := S8x2048x256) S1x256x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x256.size a ≤ S8x2048x256.size a
  hwx0_10 : ∀ i : grid0.Coords, EltTy.bits .bf16 = 32 ∨ (Rect.block (s := S8x2048x256) S1x256x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x768.size a ≤ S8x2048x768.size a
  hwx0_11 : ∀ i : grid0.Coords, EltTy.bits .bf16 = 32 ∨ (Rect.block (s := S8x2048x768) S1x256x768.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x2048x256.size a
  hwx1_0 : ∀ i : grid1.Coords, EltTy.bits .bf16 = 32 ∨ (Rect.block (s := S8x2048x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x256.size a ≤ S8x2048x256.size a
  hwx1_1 : ∀ i : grid1.Coords, EltTy.bits .bf16 = 32 ∨ (Rect.block (s := S8x2048x256) S1x512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x768.size a ≤ S8x2048x768.size a
  hwx1_2 : ∀ i : grid1.Coords, EltTy.bits .bf16 = 32 ∨ (Rect.block (s := S8x2048x768) S1x512x768.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S2048x2048.size a
  hwx1_3 : ∀ i : grid1.Coords, EltTy.bits .f32 = 32 ∨ (Rect.block (s := S2048x2048) S1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x512.size a ≤ S8x2048x2048.size a
  hwx1_4 : ∀ i : grid1.Coords, EltTy.bits .f32 = 32 ∨ (Rect.block (s := S8x2048x2048) S1x1024x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x768.size a ≤ S8x2048x768.size a
  hwx1_5 : ∀ i : grid1.Coords, EltTy.bits .f32 = 32 ∨ (Rect.block (s := S8x2048x768) S1x1024x768.size (cc1_transform_5 i) (hinb1_5 i)).WholeWords (EltTy.packing .f32)

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S1024x512_S512x768_S1024x768_1_0_0_1_n_n : DotDims S1024x512 S512x768 S1024x768 where
  lhsContracting := [1]
  rhsContracting := [0]
  lhsNonContracting := [0]
  rhsNonContracting := [1]
  lhsBatch := []
  rhsBatch := []
  wf := dot_S1024x512_S512x768_S1024x768_1_0_0_1_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S768x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S768x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S1x256x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S1x256x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_2) S1x256x768.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v10_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S1x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_2) S1x512x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S1x1024x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x1024x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8x2048x768 : Shape := ⟨3, ![8, 2048, 768]⟩
abbrev S214x768 : Shape := ⟨2, ![214, 768]⟩
abbrev S214 : Shape := ⟨1, ![214]⟩
abbrev S768x768 : Shape := ⟨2, ![768, 768]⟩
abbrev S768 : Shape := ⟨1, ![768]⟩
abbrev S2048x2048 : Shape := ⟨2, ![2048, 2048]⟩
abbrev S8x2048x2048 : Shape := ⟨3, ![8, 2048, 2048]⟩
abbrev S8x2048x214 : Shape := ⟨3, ![8, 2048, 214]⟩
abbrev S1x1x214 : Shape := ⟨3, ![1, 1, 214]⟩
abbrev S1x1x768 : Shape := ⟨3, ![1, 1, 768]⟩
abbrev S1x2048x2048 : Shape := ⟨3, ![1, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S8x2048x768, .f32⟩
  | .hbm, ⟨3, _⟩ => ⟨S214x768, .f32⟩
  | .hbm, ⟨4, _⟩ => ⟨S214, .f32⟩
  | .hbm, ⟨5, _⟩ => ⟨S214x768, .f32⟩
  | .hbm, ⟨6, _⟩ => ⟨S214, .f32⟩
  | .hbm, ⟨7, _⟩ => ⟨S768x768, .f32⟩
  | .hbm, ⟨8, _⟩ => ⟨S768, .f32⟩
  | .hbm, ⟨9, _⟩ => ⟨S2048x2048, .f32⟩
  | .hbm, ⟨10, _⟩ => ⟨S8x2048x2048, .f32⟩
  | .hbm, ⟨11, _⟩ => ⟨S8x2048x214, .f32⟩
  | .hbm, ⟨12, _⟩ => ⟨S1x1x214, .f32⟩
  | .hbm, ⟨13, _⟩ => ⟨S8x2048x214, .f32⟩
  | .hbm, ⟨14, _⟩ => ⟨S8x2048x214, .f32⟩
  | .hbm, ⟨15, _⟩ => ⟨S8x2048x214, .f32⟩
  | .hbm, ⟨16, _⟩ => ⟨S1x1x214, .f32⟩
  | .hbm, ⟨17, _⟩ => ⟨S8x2048x214, .f32⟩
  | .hbm, ⟨18, _⟩ => ⟨S8x2048x214, .f32⟩
  | .hbm, ⟨19, _⟩ => ⟨S8x2048x768, .f32⟩
  | .hbm, ⟨20, _⟩ => ⟨S1x1x768, .f32⟩
  | .hbm, ⟨21, _⟩ => ⟨S8x2048x768, .f32⟩
  | .hbm, ⟨22, _⟩ => ⟨S8x2048x768, .f32⟩
  | .hbm, ⟨23, _⟩ => ⟨S8x2048x2048, .f32⟩
  | .hbm, ⟨24, _⟩ => ⟨S1x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S214_S1x1x214_2 : S214.BroadcastsInDim S1x1x214 (![2] : Fin 1 → Fin S1x1x214.rank)
  bcast_S1x1x214_S8x2048x214_0_1_2 : S1x1x214.BroadcastsInDim S8x2048x214 (![0, 1, 2] : Fin 3 → Fin S8x2048x214.rank)
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x768_S214x768_S8x2048x214_2_1_01_0_n_n_wf : DotDims.WF S8x2048x768 S214x768 S8x2048x214 [2] [1] [0, 1] [0] [] []
  dot_S8x2048x768_S768x768_S8x2048x768_2_1_01_0_n_n_wf : DotDims.WF S8x2048x768 S768x768 S8x2048x768 [2] [1] [0, 1] [0] [] []
  dot_S8x2048x214_S8x2048x214_S8x2048x2048_2_2_1_1_0_0_wf : DotDims.WF S8x2048x214 S8x2048x214 S8x2048x2048 [2] [2] [1] [1] [0] [0]
  dot_S8x2048x2048_S8x2048x768_S8x2048x768_2_1_1_2_0_0_wf : DotDims.WF S8x2048x2048 S8x2048x768 S8x2048x768 [2] [1] [1] [2] [0] [0]

variable [Facts₀]

def dot_S8x2048x768_S214x768_S8x2048x214_2_1_01_0_n_n : DotDims S8x2048x768 S214x768 S8x2048x214 where
  lhsContracting := [2]
  rhsContracting := [1]
  lhsNonContracting := [0, 1]
  rhsNonContracting := [0]
  lhsBatch := []
  rhsBatch := []
  wf := dot_S8x2048x768_S214x768_S8x2048x214_2_1_01_0_n_n_wf
def dot_S8x2048x768_S768x768_S8x2048x768_2_1_01_0_n_n : DotDims S8x2048x768 S768x768 S8x2048x768 where
  lhsContracting := [2]
  rhsContracting := [1]
  lhsNonContracting := [0, 1]
  rhsNonContracting := [0]
  lhsBatch := []
  rhsBatch := []
  wf := dot_S8x2048x768_S768x768_S8x2048x768_2_1_01_0_n_n_wf
def dot_S8x2048x214_S8x2048x214_S8x2048x2048_2_2_1_1_0_0 : DotDims S8x2048x214 S8x2048x214 S8x2048x2048 where
  lhsContracting := [2]
  rhsContracting := [2]
  lhsNonContracting := [1]
  rhsNonContracting := [1]
  lhsBatch := [0]
  rhsBatch := [0]
  wf := dot_S8x2048x214_S8x2048x214_S8x2048x2048_2_2_1_1_0_0_wf
def dot_S8x2048x2048_S8x2048x768_S8x2048x768_2_1_1_2_0_0 : DotDims S8x2048x2048 S8x2048x768 S8x2048x768 where
  lhsContracting := [2]
  rhsContracting := [1]
  lhsNonContracting := [1]
  rhsNonContracting := [2]
  lhsBatch := [0]
  rhsBatch := [0]
  wf := dot_S8x2048x2048_S8x2048x768_S8x2048x768_2_1_1_2_0_0_wf

class Facts : Prop extends Facts₀ where

variable [Facts]
-- ==== Proof.KernelR0.lean ====
import proofs.«154501_j39676907887142_2_alg».proof.Proof.Gen.Kernel.Launch
import proofs.«154501_j39676907887142_2_alg».proof.Proof.Gen.Kernel.Skeleton
import proofs.«154501_j39676907887142_2_alg».proof.Proof.Gen.Kernel.Points
import proofs.«154501_j39676907887142_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region (the three projections): one grid point computes, for a tile of 256 rows of one batch,
    the three products of the row tile with the transposed weights plus the bias row, and stores each whole.
    Everything here is stated at a parameter `V`, the contents of the unscoped buffers when the region is entered. -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether fetched there or carried over. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether fetched there or carried over. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether fetched there or carried over. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether fetched there or carried over. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether fetched there or carried over. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, whether fetched there or carried over. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, whether fetched there or carried over. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, whether fetched there or carried over. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, whether fetched there or carried over. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through: each the whole staging buffer -/

abbrev rA : Rect S1x256x768 := Rect.unit (s := S1x256x768) ![0, 0, 0] S1x256x768.size inb_S1x256x768_S1x256x768_0_0_0
abbrev rB : Rect S768x256 := Rect.unit (s := S768x256) ![0, 0] S768x256.size inb_S768x256_S768x256_0_0
abbrev rC : Rect S1x256 := Rect.unit (s := S1x256) ![0, 0] S1x256.size inb_S1x256_S1x256_0_0
abbrev rD : Rect S768x768 := Rect.unit (s := S768x768) ![0, 0] S768x768.size inb_S768x768_S768x768_0_0
abbrev rE : Rect S1x768 := Rect.unit (s := S1x768) ![0, 0] S1x768.size inb_S1x768_S1x768_0_0
abbrev rQ : Rect S1x256x256 := Rect.unit (s := S1x256x256) ![0, 0, 0] S1x256x256.size inb_S1x256x256_S1x256x256_0_0_0
abbrev rV : Rect S1x256x768 := Rect.unit (s := S1x256x768) ![0, 0, 0] S1x256x768.size inb_S1x256x768_S1x256x768_0_0_0

/-! ## What the body leaves in each output window's buffer -/

/-- The first output (the query projection of the tile): one whole store of the product of the first row tile with
    the first weight plus its bias. -/
def out0_9 (x0 : Vec F S1x256x768 .f32) (x3 : Vec F S768x256 .f32) (x4 : Vec F S1x256 .f32) : Vec F S1x256x256 .bf16 :=
  View.canon [⟨rQ, k0_pay1 (k0_pay6 (View.ld x0 rA) (View.ld x3 rB) (View.ld x4 rC))⟩]
/-- The second output (the key projection). -/
def out0_10 (x1 : Vec F S1x256x768 .f32) (x5 : Vec F S768x256 .f32) (x6 : Vec F S1x256 .f32) : Vec F S1x256x256 .bf16 :=
  View.canon [⟨rQ, k0_pay2 (k0_pay4 (View.ld x1 rA) (View.ld x5 rB) (View.ld x6 rC))⟩]
/-- The third output (the value projection). -/
def out0_11 (x2 : Vec F S1x256x768 .f32) (x7 : Vec F S768x768 .f32) (x8 : Vec F S1x768 .f32) : Vec F S1x256x768 .bf16 :=
  View.canon [⟨rV, k0_pay3 (k0_pay5 (View.ld x2 rA) (View.ld x7 rD) (View.ld x8 rE))⟩]

/-- One whole-buffer store covers the buffer. -/
theorem cover0_Q (p0 : Vec F S1x256x256 .bf16) (y : S1x256x256.Idx) :
    ∃ pc ∈ ([⟨rQ, p0⟩] : List (View.Piece (Elt F) S1x256x256 .bf16)), y ∈ pc.1.set :=
  View.cover_of_tiled [⟨rQ, p0⟩] S1x256x256.size (by rfl) y
theorem cover0_V (p0 : Vec F S1x256x768 .bf16) (y : S1x256x768.Idx) :
    ∃ pc ∈ ([⟨rV, p0⟩] : List (View.Piece (Elt F) S1x256x768 .bf16)), y ∈ pc.1.set :=
  View.cover_of_tiled [⟨rV, p0⟩] S1x256x768.size (by rfl) y

/-! ## The body's triple -/

set_option maxHeartbeats 4000000 in
/-- The body, on whole staging buffers holding the nine input blocks, runs to the end leaving the inputs as they were
    and each output buffer at the stored product. -/
theorem sound_kernel0 (c : Dev nD) (E : Set ℕ) (i : grid0.Coords) (arg2 : Memref sig .tc .vmem S1x256x768 .f32) (harg2 : arg2.IsWhole) (arg3 : Memref sig .tc .vmem S1x256x768 .f32) (harg3 : arg3.IsWhole) (arg4 : Memref sig .tc .vmem S1x256x768 .f32) (harg4 : arg4.IsWhole) (arg5 : Memref sig .tc .vmem S768x256 .f32) (harg5 : arg5.IsWhole) (arg6 : Memref sig .tc .vmem S1x256 .f32) (harg6 : arg6.IsWhole) (arg7 : Memref sig .tc .vmem S768x256 .f32) (harg7 : arg7.IsWhole) (arg8 : Memref sig .tc .vmem S1x256 .f32) (harg8 : arg8.IsWhole) (arg9 : Memref sig .tc .vmem S768x768 .f32) (harg9 : arg9.IsWhole) (arg10 : Memref sig .tc .vmem S1x768 .f32) (harg10 : arg10.IsWhole) (arg11 : Memref sig .tc .vmem S1x256x256 .bf16) (harg11 : arg11.IsWhole) (arg12 : Memref sig .tc .vmem S1x256x256 .bf16) (harg12 : arg12.IsWhole) (arg13 : Memref sig .tc .vmem S1x256x768 .bf16) (harg13 : arg13.IsWhole)
    (x0 : Vec F S1x256x768 .f32) (x1 : Vec F S1x256x768 .f32) (x2 : Vec F S1x256x768 .f32) (x3 : Vec F S768x256 .f32) (x4 : Vec F S1x256 .f32) (x5 : Vec F S768x256 .f32) (x6 : Vec F S1x256 .f32) (x7 : Vec F S768x768 .f32) (x8 : Vec F S1x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare (out0_9 x0 x3 x4) ∗ owns (c : Thread nD τ) arg12 fullShare (out0_10 x1 x5 x6)
            ∗ owns (c : Thread nD τ) arg13 fullShare (out0_11 x2 x7 x8)) -∗ K ⟨⟩))
      ⊢ wp frame (wpE (defs₀ (F := F)) Variants.none c none) E (cc0_qkv_kernel i arg2 harg2 arg3 harg3 arg4 harg4 arg5 harg5 arg6 harg6 arg7 harg7 arg8 harg8 arg9 harg9 arg10 harg10 arg11 harg11 arg12 harg12 arg13 harg13) K := by
  simp only [cc0_qkv_kernel_eq_skeleton]; unfold cc0_qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    unfold out0_9
    simp only [View.readAt_eq_ld]
    exact View.read_writes_eq_canon _ _ _ (cover0_Q _)
  isplitl [H10]
  · iexists _; isplitr
    swap; · iexact H10
    ipureintro
    unfold out0_10
    simp only [View.readAt_eq_ld]
    exact View.read_writes_eq_canon _ _ _ (cover0_Q _)
  iexists _; isplitr
  swap; · iexact H11
  ipureintro
  unfold out0_11
  simp only [View.readAt_eq_ld]
  exact View.read_writes_eq_canon _ _ _ (cover0_V _)

/-! ## The proof data of the first region's pipeline -/

/-- On core `c`: the arrays as the region finds them; after the body at point `t` each input buffer still holds its
    block and each output buffer holds its product of the point's input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 3 t) (iblk0 V c 4 t)
    | ⟨10, _⟩ => out0_10 (iblk0 V c 1 t) (iblk0 V c 5 t) (iblk0 V c 6 t)
    | ⟨11, _⟩ => out0_11 (iblk0 V c 2 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 3 t) (iblk0 V c 4 t) := by dsimp only [dat0]
theorem after0_10 (c : Dev nD) (t : Fin cfg0.N) : (dat0 V c).after 10 t = out0_10 (iblk0 V c 1 t) (iblk0 V c 5 t) (iblk0 V c 6 t) := by dsimp only [dat0]
theorem after0_11 (c : Dev nD) (t : Fin cfg0.N) : (dat0 V c).after 11 t = out0_11 (iblk0 V c 2 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation at a grid point -/

/-- What the body is handed at point `t`: the invariant, the core owing nothing, each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 2000000 in
/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand
end
-- ==== Proof.KernelRun.lean ====
import proofs.«154501_j39676907887142_2_alg».proof.Proof.Gen.Kernel.Launch
import proofs.«154501_j39676907887142_2_alg».proof.Proof.Gen.Kernel.Skeleton
import proofs.«154501_j39676907887142_2_alg».proof.Proof.Gen.Kernel.Points
import proofs.«154501_j39676907887142_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«154501_j39676907887142_2_alg».proof.Proof.KernelR0

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's host stretches and its two kernel regions in order, from the launch to the return.

  The contents of the unscoped buffers at the boundaries: after the nine host stretches (the padding, the transposes and
  the reshapes of the weights and biases) the first region is entered; it changes only its three result arrays; the second
  region is entered from that and changes only the program's result. -/

section Run

variable (m : (ℓ : Loc nD τ sig) → Buf (Elt F) ℓ) (ρ : Dev nD → PrngReg)

/-- What is assumed here of the second region's proof data (its own module supplies these): a family over the region's
    entry contents with full shares and nothing owed, its body obligation, and the invariant entered from and returned to
    the launch's. -/
structure R1Data where
  dat1 : ((c : Dev nD) → (b : Ref sig .tc) → Buf (Elt F) ((c : Thread nD τ).loc b)) → (c : Dev nD) → Dat τ (Elt F) Unit ℕ (UR sig nD τ) ℕ cfg1 c
  hA : ∀ V c w, (dat1 V c).A w = V c (Pipeline.arrRef spec1 w)
  hq : ∀ V c w, (dat1 V c).q w = fullShare
  howed : ∀ V c t, (dat1 V c).owed t = 0
  hrec : ∀ V c t, (dat1 V c).recorded t = Set.univ
  hbody : ∀ V c, BodyObligation (dat1 V c) (defs₀ (F := F)) Variants.none () Set.univ
  hin : ∀ V c, (Pipeline.ΦA spec1 c : sProp 𝕄) ⊢ (dat1 V c).Φ 0
  hout : ∀ V c, (dat1 V c).Φ (Fin.last cfg1.N) ⊢ (Pipeline.ΦA spec1 c : sProp 𝕄)

variable (D : R1Data (F := F))

/-- The buffers when the first region is entered, read at the TensorCore's references. -/
abbrev V9r : (c : Dev nD) → (b : Ref sig .tc) → Buf (Elt F) ((c : Thread nD τ).loc b) := fun c b => Gen.V9 m c b
/-- After the first region: its arrays at what its write-backs leave, every other buffer as entered. -/
def W10 (c : Dev nD) : Valuation τ sig (Elt F) :=
  Pipeline.withArrays spec0 c (Gen.V9 m c) fun w => (dat0 (V9r m) c).arrAt w cfg0.N
theorem W10_arr (c : Dev nD) (w : Fin cfg0.W) :
    W10 m c (Proc.devRef .tc (Pipeline.arrRef spec0 w)) = (dat0 (V9r m) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m c (Proc.devRef .tc b) = Gen.V9 m c (Proc.devRef .tc b) := by
  unfold W10; exact Pipeline.withArrays_of_ne spec0 c _ _ b hb
abbrev V10r : (c : Dev nD) → (b : Ref sig .tc) → Buf (Elt F) ((c : Thread nD τ).loc b) := fun c b => W10 m c b
theorem hF0 (c : Dev nD) (w : Fin cfg0.W) : (dat0 (V9r m) c).arrAt w cfg0.N = V10r m c (Pipeline.arrRef spec0 w) :=
  (W10_arr m c w).symm
theorem hrest0 (c : Dev nD) : ∀ b, b ∉ Finset.univ.image (Pipeline.arrRef spec0) → V10r m c b = V9r m c b :=
  fun b hb => W10_of_ne m c b fun w e => hb (Finset.mem_image.mpr ⟨w, Finset.mem_univ _, e⟩)

/-- After the second region. -/
def W11 (c : Dev nD) : Valuation τ sig (Elt F) :=
  Pipeline.withArrays spec1 c (W10 m c) fun w => (D.dat1 (V10r m) c).arrAt w cfg1.N
theorem W11_arr (c : Dev nD) (w : Fin cfg1.W) :
    W11 m D c (Proc.devRef .tc (Pipeline.arrRef spec1 w)) = (D.dat1 (V10r m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m D c (Proc.devRef .tc b) = W10 m c (Proc.devRef .tc b) := by
  unfold W11; exact Pipeline.withArrays_of_ne spec1 c _ _ b hb
abbrev V11r : (c : Dev nD) → (b : Ref sig .tc) → Buf (Elt F) ((c : Thread nD τ).loc b) := fun c b => W11 m D c b
theorem hF1 (c : Dev nD) (w : Fin cfg1.W) : (D.dat1 (V10r m) c).arrAt w cfg1.N = V11r m D c (Pipeline.arrRef spec1 w) :=
  (W11_arr m D c w).symm
theorem hrest1 (c : Dev nD) : ∀ b, b ∉ Finset.univ.image (Pipeline.arrRef spec1) → V11r m D c b = V10r m c b :=
  fun b hb => W11_of_ne m D c b fun w e => hb (Finset.mem_image.mpr ⟨w, Finset.mem_univ _, e⟩)

/-! ## The proof data family and what rides beside the buffers -/

/-- Both pipelines' proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (V9r m) c
  | ⟨1, _⟩ => fun c => D.dat1 (V10r m) c

abbrev 𝒱₀ : Variants := Variants.none
abbrev L : GSem nD τ sig → Finset Unit := fun _ => ∅
abbrev lv : GSem nD τ sig → Unit → ℕ := fun _ _ => 0
/-- Beside the buffers, through every item: the core's generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

set_option backward.isDefEq.respectTransparency.types false in
/-- The first region as an item of @main: entered with every unscoped buffer at the contents after the host stretches,
    left with its three result arrays at what its write-backs leave. -/
def reg0 : Pipeline.RegionSeg (pcfgs (F := F)) Gen.adm (pdats m D) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9r m) c).loose
  hwaits := Pipeline.hwaits_of_owed_zero _ _ _ _ L lv 0 fun _ _ => rfl
  pre c := iprop(StableHlo.held (c : Thread nD τ) (Pipeline.ucRefs τ sig) (Gen.V9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec0 c (V9r m c)
  hentry c := by
    rw [Pipeline.ownSems0_none]
    have hsplit := Pipeline.arrays_of_unscopedBufs (p := 0) (pcfgs (F := F)) Gen.adm (pdats m D) launch0.win launch0.arr_whole c
      ((pdats m D 0 c).share_full fun _ => rfl) (V9r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m D 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m D 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m D) ((pdats m D 0 c).share_full fun _ => rfl)
      (V9r m c) (V10r m c) ((pdats m D 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region as an item of @main: entered from what the first region left, left with the program's result at
    what its write-backs leave. Its invariant is entered from the launch's (the scratch buffers at anything) and gives
    it back. -/
def reg1 : Pipeline.RegionSeg (pcfgs (F := F)) Gen.adm (pdats m D) () defs₀ 𝒱₀ L lv 1 where
  win := launch1.win.to₀
  block_pos := launch1.block_pos
  stage_whole := launch1.stage_whole
  K := PEmpty
  osem k := k.elim
  ho := Pipeline.OwnSemFacts.none _
  hbody c := (D.hbody (V10r m) c).loose
  hwaits := Pipeline.hwaits_of_owed_zero _ _ _ _ L lv 1 fun c t => D.howed (V10r m) c t
  pre c := iprop(StableHlo.held (c : Thread nD τ) (Pipeline.ucRefs τ sig) (W10 m c) ∗ R c)
  post c := iprop(StableHlo.held (c : Thread nD τ) (Pipeline.ucRefs τ sig) (W11 m D c) ∗ R c)
  X c := iprop(∃ r, prngReg c r)
  Y c := iprop(∃ r, prngReg c r)
  Z c := Pipeline.unscopedRest (Ix := Unit) (Name := ℕ) (U := UR sig nD τ) (Lvl := ℕ) spec1 c (V10r m c)
  hentry c := by
    rw [Pipeline.ownSems0_none]
    have hsplit := Pipeline.arrays_of_unscopedBufs (p := 1) (pcfgs (F := F)) Gen.adm (pdats m D) launch1.win launch1.arr_whole c
      ((pdats m D 1 c).share_full fun w => D.hq (V10r m) c w) (V10r m c) fun w => D.hA (V10r m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m D 1 c).owed 0 = 0 from D.howed (V10r m) c 0]
      icases HO with ⟨%W, HO⟩; iexists W; isplitr; · ipureintro; exact fun x _ => Or.inl (by rw [show (pdats m D 1 c).recorded 0 = Set.univ from D.hrec (V10r m) c 0]; trivial)
      iexact HO
    isplitl [Hp]; · iexact Hp
    iexact Hrest
  hin c := by
    have h1 : (iprop((∃ r, prngReg c r) ∗ Pipeline.prefHeld (pcfgs (F := F) 1).pre c (fun _ => fullShare) (Gen.adm 1).1
        ∗ Pipeline.scopedRest (Pipeline.pin (pcfgs (F := F)) Gen.adm 1).spec c) : sProp 𝕄) ⊢ Pipeline.ΦA spec1 c := by
      unfold Pipeline.ΦA
      iintro ⟨Hp, -, Hr⟩
      isplitl [Hr]; · iexact Hr
      iexact Hp
    exact h1.trans (D.hin (V10r m) c)
  hout c := by
    have h1 : (Pipeline.ΦA spec1 c : sProp 𝕄) ⊢ iprop((∃ r, prngReg c r) ∗ BI.emp
        ∗ Pipeline.scopedRest (Pipeline.pin (pcfgs (F := F)) Gen.adm 1).spec c) := by
      unfold Pipeline.ΦA
      iintro ⟨Hr, Hp⟩
      isplitl [Hp]; · iexact Hp
      isplitr; · iempintro
      iexact Hr
    rw [Pipeline.ownSems0_none]
    exact (D.hout (V10r m) c).trans h1
  hexit c := by
    have hjoin := Pipeline.unscopedBufs_of_arrays (p := 1) (pcfgs (F := F)) Gen.adm (Ix := Unit) (Name := ℕ) (U := UR sig nD τ) (Lvl := ℕ)
      launch1.win launch1.arr_whole c (pdats m D) ((pdats m D 1 c).share_full fun w => D.hq (V10r m) c w)
      (V10r m c) (V11r m D c) ((pdats m D 1 c).arrAt · cfg1.N) (hF1 m D c) (hrest1 m D c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m D 1 c).owed (Fin.last (Pipeline.pin (pcfgs (F := F)) Gen.adm 1).N) = 0 from D.howed (V10r m) c _]
    icases HO with ⟨%W, -, HO⟩; iexists W; iexact HO

/-! ## The arguments end as launched: no host stretch writes one; a region reads it through an input window or not at all -/

theorem W11_main_arg0 (c : Dev nD) : W11 m D c (Proc.devRef .tc main_arg0) = m ((c : Thread nD τ).loc main_arg0) :=
  (W11_of_ne m D c main_arg0 (by decide)).trans <| (W10_arr m c 0).trans <| ((dat0 (V9r m) c).arrAt_in 0 rfl _).trans <| (A_eq0 (V9r m) c 0).trans <|
    (Gen.V9_of m c main_arg0 (by decide)).trans <| (Gen.V8_of m c main_arg0 (by decide)).trans <| (Gen.V7_of m c main_arg0 (by decide)).trans <| (Gen.V6_of m c main_arg0 (by decide)).trans <| (Gen.V5_of m c main_arg0 (by decide)).trans <| (Gen.V4_of m c main_arg0 (by decide)).trans <| (Gen.V3_of m c main_arg0 (by decide)).trans <| (Gen.V2_of m c main_arg0 (by decide)).trans <| (Gen.V1_of m c main_arg0 (by decide)).trans rfl
theorem W11_main_arg1 (c : Dev nD) : W11 m D c (Proc.devRef .tc main_arg1) = m ((c : Thread nD τ).loc main_arg1) :=
  (W11_of_ne m D c main_arg1 (by decide)).trans <| (W10_arr m c 1).trans <| ((dat0 (V9r m) c).arrAt_in 1 rfl _).trans <| (A_eq0 (V9r m) c 1).trans <|
    (Gen.V9_of m c main_arg1 (by decide)).trans <| (Gen.V8_of m c main_arg1 (by decide)).trans <| (Gen.V7_of m c main_arg1 (by decide)).trans <| (Gen.V6_of m c main_arg1 (by decide)).trans <| (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide)).trans rfl
theorem W11_main_arg2 (c : Dev nD) : W11 m D c (Proc.devRef .tc main_arg2) = m ((c : Thread nD τ).loc main_arg2) :=
  (W11_of_ne m D c main_arg2 (by decide)).trans <| (W10_arr m c 2).trans <| ((dat0 (V9r m) c).arrAt_in 2 rfl _).trans <| (A_eq0 (V9r m) c 2).trans <|
    (Gen.V9_of m c main_arg2 (by decide)).trans <| (Gen.V8_of m c main_arg2 (by decide)).trans <| (Gen.V7_of m c main_arg2 (by decide)).trans <| (Gen.V6_of m c main_arg2 (by decide)).trans <| (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl
theorem W11_main_arg3 (c : Dev nD) : W11 m D c (Proc.devRef .tc main_arg3) = m ((c : Thread nD τ).loc main_arg3) :=
  (W11_of_ne m D c main_arg3 (by decide)).trans <| (W10_of_ne m c main_arg3 (by decide)).trans <|
    (Gen.V9_of m c main_arg3 (by decide)).trans <| (Gen.V8_of m c main_arg3 (by decide)).trans <| (Gen.V7_of m c main_arg3 (by decide)).trans <| (Gen.V6_of m c main_arg3 (by decide)).trans <| (Gen.V5_of m c main_arg3 (by decide)).trans <| (Gen.V4_of m c main_arg3 (by decide)).trans <| (Gen.V3_of m c main_arg3 (by decide)).trans <| (Gen.V2_of m c main_arg3 (by decide)).trans <| (Gen.V1_of m c main_arg3 (by decide)).trans rfl
theorem W11_main_arg4 (c : Dev nD) : W11 m D c (Proc.devRef .tc main_arg4) = m ((c : Thread nD τ).loc main_arg4) :=
  (W11_of_ne m D c main_arg4 (by decide)).trans <| (W10_of_ne m c main_arg4 (by decide)).trans <|
    (Gen.V9_of m c main_arg4 (by decide)).trans <| (Gen.V8_of m c main_arg4 (by decide)).trans <| (Gen.V7_of m c main_arg4 (by decide)).trans <| (Gen.V6_of m c main_arg4 (by decide)).trans <| (Gen.V5_of m c main_arg4 (by decide)).trans <| (Gen.V4_of m c main_arg4 (by decide)).trans <| (Gen.V3_of m c main_arg4 (by decide)).trans <| (Gen.V2_of m c main_arg4 (by decide)).trans <| (Gen.V1_of m c main_arg4 (by decide)).trans rfl
theorem W11_main_arg5 (c : Dev nD) : W11 m D c (Proc.devRef .tc main_arg5) = m ((c : Thread nD τ).loc main_arg5) :=
  (W11_of_ne m D c main_arg5 (by decide)).trans <| (W10_of_ne m c main_arg5 (by decide)).trans <|
    (Gen.V9_of m c main_arg5 (by decide)).trans <| (Gen.V8_of m c main_arg5 (by decide)).trans <| (Gen.V7_of m c main_arg5 (by decide)).trans <| (Gen.V6_of m c main_arg5 (by decide)).trans <| (Gen.V5_of m c main_arg5 (by decide)).trans <| (Gen.V4_of m c main_arg5 (by decide)).trans <| (Gen.V3_of m c main_arg5 (by decide)).trans <| (Gen.V2_of m c main_arg5 (by decide)).trans <| (Gen.V1_of m c main_arg5 (by decide)).trans rfl
theorem W11_main_arg6 (c : Dev nD) : W11 m D c (Proc.devRef .tc main_arg6) = m ((c : Thread nD τ).loc main_arg6) :=
  (W11_of_ne m D c main_arg6 (by decide)).trans <| (W10_of_ne m c main_arg6 (by decide)).trans <|
    (Gen.V9_of m c main_arg6 (by decide)).trans <| (Gen.V8_of m c main_arg6 (by decide)).trans <| (Gen.V7_of m c main_arg6 (by decide)).trans <| (Gen.V6_of m c main_arg6 (by decide)).trans <| (Gen.V5_of m c main_arg6 (by decide)).trans <| (Gen.V4_of m c main_arg6 (by decide)).trans <| (Gen.V3_of m c main_arg6 (by decide)).trans <| (Gen.V2_of m c main_arg6 (by decide)).trans <| (Gen.V1_of m c main_arg6 (by decide)).trans rfl
theorem W11_main_arg7 (c : Dev nD) : W11 m D c (Proc.devRef .tc main_arg7) = m ((c : Thread nD τ).loc main_arg7) :=
  (W11_of_ne m D c main_arg7 (by decide)).trans <| (W10_of_ne m c main_arg7 (by decide)).trans <|
    (Gen.V9_of m c main_arg7 (by decide)).trans <| (Gen.V8_of m c main_arg7 (by decide)).trans <| (Gen.V7_of m c main_arg7 (by decide)).trans <| (Gen.V6_of m c main_arg7 (by decide)).trans <| (Gen.V5_of m c main_arg7 (by decide)).trans <| (Gen.V4_of m c main_arg7 (by decide)).trans <| (Gen.V3_of m c main_arg7 (by decide)).trans <| (Gen.V2_of m c main_arg7 (by decide)).trans <| (Gen.V1_of m c main_arg7 (by decide)).trans rfl
theorem W11_main_arg8 (c : Dev nD) : W11 m D c (Proc.devRef .tc main_arg8) = m ((c : Thread nD τ).loc main_arg8) :=
  (W11_of_ne m D c main_arg8 (by decide)).trans <| (W10_of_ne m c main_arg8 (by decide)).trans <|
    (Gen.V9_of m c main_arg8 (by decide)).trans <| (Gen.V8_of m c main_arg8 (by decide)).trans <| (Gen.V7_of m c main_arg8 (by decide)).trans <| (Gen.V6_of m c main_arg8 (by decide)).trans <| (Gen.V5_of m c main_arg8 (by decide)).trans <| (Gen.V4_of m c main_arg8 (by decide)).trans <| (Gen.V3_of m c main_arg8 (by decide)).trans <| (Gen.V2_of m c main_arg8 (by decide)).trans <| (Gen.V1_of m c main_arg8 (by decide)).trans rfl
theorem W11_main_arg9 (c : Dev nD) : W11 m D c (Proc.devRef .tc main_arg9) = m ((c : Thread nD τ).loc main_arg9) :=
  (W11_arr m D c 3).trans <| ((D.dat1 (V10r m) c).arrAt_in 3 rfl _).trans <| (D.hA (V10r m) c 3).trans <| (W10_of_ne m c main_arg9 (by decide)).trans <|
    (Gen.V9_of m c main_arg9 (by decide)).trans <| (Gen.V8_of m c main_arg9 (by decide)).trans <| (Gen.V7_of m c main_arg9 (by decide)).trans <| (Gen.V6_of m c main_arg9 (by decide)).trans <| (Gen.V5_of m c main_arg9 (by decide)).trans <| (Gen.V4_of m c main_arg9 (by decide)).trans <| (Gen.V3_of m c main_arg9 (by decide)).trans <| (Gen.V2_of m c main_arg9 (by decide)).trans <| (Gen.V1_of m c main_arg9 (by decide)).trans rfl
theorem W11_main_arg10 (c : Dev nD) : W11 m D c (Proc.devRef .tc main_arg10) = m ((c : Thread nD τ).loc main_arg10) :=
  (W11_arr m D c 4).trans <| ((D.dat1 (V10r m) c).arrAt_in 4 rfl _).trans <| (D.hA (V10r m) c 4).trans <| (W10_of_ne m c main_arg10 (by decide)).trans <|
    (Gen.V9_of m c main_arg10 (by decide)).trans <| (Gen.V8_of m c main_arg10 (by decide)).trans <| (Gen.V7_of m c main_arg10 (by decide)).trans <| (Gen.V6_of m c main_arg10 (by decide)).trans <| (Gen.V5_of m c main_arg10 (by decide)).trans <| (Gen.V4_of m c main_arg10 (by decide)).trans <| (Gen.V3_of m c main_arg10 (by decide)).trans <| (Gen.V2_of m c main_arg10 (by decide)).trans <| (Gen.V1_of m c main_arg10 (by decide)).trans rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, beside the core owing nothing. -/
abbrev Tₙ (c : Dev nD) : sProp 𝕄 := iprop(StableHlo.held (c : Thread nD τ) (Pipeline.ucRefs τ sig) (W11 m D c) ∗ ∃ r, prngReg c r)

set_option backward.isDefEq.respectTransparency.types false in
/-- THE RUN. From any memory with zero counters every weakly fair execution of @main terminates, nothing faulting, and
    in every final state the result buffer holds what the second region's write-backs leave and every argument array
    what it held at launch. -/
theorem run_main : θ_run defs (onTc (τ := τ) (main (F := F))) ⟨m, fun _ => 0, ρ⟩ (fun r => ∀ c : Dev nD,
      r.2.mem ((c.tc : Thread nD τ).loc main_v11) = W11 m D c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_dev (pcfgs (F := F)) Gen.adm (pdats m D) () cellOf_inj emb₁ defs₀ 𝒱₀ L lv m ρ main
    (Gen.segs m 𝒱₀ L lv E () (pdats m D) (reg0 m D) (reg1 m D))
    (fun c Q => by
      rewrite [main_chain c, Pipeline.Seg.run_eq_chain,
        show (Gen.segs m 𝒱₀ L lv E () (pdats m D) (reg0 m D) (reg1 m D) c).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m D)
    (hch := fun c => ⟨.rfl, .rfl, .rfl, .rfl, .rfl, .rfl, .rfl, .rfl, .rfl, .rfl, .rfl,
      (show (iprop(StableHlo.held (c : Thread nD τ) (Pipeline.ucRefs τ sig) (W11 m D c) ∗ R c) : sProp 𝕄)
          ⊢ iprop(Tₙ m D c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m D c b)
    (hfin := fun c s' => by
      iintro ⟨⟨Hh, -⟩, HSI⟩
      unfold StableHlo.held
      imodintro
      iapply (pointsTo_read_all (Pipeline.ucRefs τ sig) (fun b => (((c : Thread nD τ)).1, b)) (W11 m D c) s')
      isplitl [Hh] <;> iassumption)
    (hQ := fun s h c =>
      ⟨h c _ (mem_uc main_v11 (by decide)),
       (h c _ (mem_uc main_arg0 (by decide))).trans (W11_main_arg0 m D c),
       (h c _ (mem_uc main_arg1 (by decide))).trans (W11_main_arg1 m D c),
       (h c _ (mem_uc main_arg2 (by decide))).trans (W11_main_arg2 m D c),
       (h c _ (mem_uc main_arg3 (by decide))).trans (W11_main_arg3 m D c),
       (h c _ (mem_uc main_arg4 (by decide))).trans (W11_main_arg4 m D c),
       (h c _ (mem_uc main_arg5 (by decide))).trans (W11_main_arg5 m D c),
       (h c _ (mem_uc main_arg6 (by decide))).trans (W11_main_arg6 m D c),
       (h c _ (mem_uc main_arg7 (by decide))).trans (W11_main_arg7 m D c),
       (h c _ (mem_uc main_arg8 (by decide))).trans (W11_main_arg8 m D c),
       (h c _ (mem_uc main_arg9 (by decide))).trans (W11_main_arg9 m D c),
       (h c _ (mem_uc main_arg10 (by decide))).trans (W11_main_arg10 m D c)⟩)

end Run

end Cert.Kernel.Hand
end
-- ==== Proof.KernelR1Runs.lean ====
import proofs.«154501_j39676907887142_2_alg».proof.Proof.Gen.Kernel.Launch
import proofs.«154501_j39676907887142_2_alg».proof.Proof.Gen.Kernel.Skeleton
import proofs.«154501_j39676907887142_2_alg».proof.Proof.Gen.Kernel.Points
import proofs.«154501_j39676907887142_2_alg».proof.Proof.Gen.Kernel.Regions
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region (the attention sweep): what its per-case runs share.

The grid is 8 × 2 × 4; the last axis walks the four key/value tiles of one (batch, query tile) pair. Three buffers
of the kernel's own are carried from one point to the next: the running row maximum, the running row sum and the
unnormalised accumulator. They are reset at the first tile (last coordinate 0) and the output block is stored at
the last tile (last coordinate 3). Everything is stated at a parameter `V`: the contents of the unscoped buffers
when this region is entered. -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether fetched there or carried over
    from the point before (the block index has not moved then). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether fetched there or carried over
    from the point before (the block index has not moved then). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether fetched there or carried over
    from the point before (the block index has not moved then). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether fetched there or carried over
    from the point before (the block index has not moved then). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether fetched there or carried over
    from the point before (the block index has not moved then). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- The reset condition (the first conditional): the last grid coordinate is 0 — the scalar chain of the body
    over the coordinate. -/
abbrev cond1_0 (i : grid1.Coords) : Prop := (Scalar.cmpi .ne (Scalar.extui (Scalar.cmpi .eq (BitVec.ofNat 32 (i 2).val) 0#32)) 0#32) = 1#1
/-- It holds exactly at the points ≡ 0 (mod 4): decided over the 64 points. -/
theorem hcond1_0 : ∀ t : Fin cfg1.N, cond1_0 (grid1.coords t) ↔ t.val % 4 = 0 :=
  (by decide +kernel : ∀ t : Fin grid1.N, cond1_0 (grid1.coords t) ↔ t.val % 4 = 0)

/-- The final-store condition (the second conditional): the last grid coordinate is 3. -/
abbrev cond1_1 (i : grid1.Coords) : Prop := k1_cond2 i = 1#1
/-- It holds exactly at the points ≡ 3 (mod 4): decided over the 64 points. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Window 0 (an input) is never idle. -/
theorem liveAt1_0 : ∀ t : Fin cfg1.N, cfg1.idle 0 (grid1.coords t) = false := by decide +kernel
/-- Window 1 (an input) is never idle. -/
theorem liveAt1_1 : ∀ t : Fin cfg1.N, cfg1.idle 1 (grid1.coords t) = false := by decide +kernel
/-- Window 2 (an input) is never idle. -/
theorem liveAt1_2 : ∀ t : Fin cfg1.N, cfg1.idle 2 (grid1.coords t) = false := by decide +kernel
/-- Window 3 (an input) is never idle. -/
theorem liveAt1_3 : ∀ t : Fin cfg1.N, cfg1.idle 3 (grid1.coords t) = false := by decide +kernel
/-- Window 4 (an input) is never idle. -/
theorem liveAt1_4 : ∀ t : Fin cfg1.N, cfg1.idle 4 (grid1.coords t) = false := by decide +kernel
/-- At a reset point the output window is idle: nothing is stored into it, -/
theorem idleAt1_5_A : ∀ t : Fin cfg1.N, cond1_0 (grid1.coords t) → ¬cond1_1 (grid1.coords t) → cfg1.idle 5 (grid1.coords t) = true := by decide +kernel
/-- and its block is not written back there. -/
theorem noFlush1_5_A : ∀ t : Fin cfg1.N, cond1_0 (grid1.coords t) → ¬cond1_1 (grid1.coords t) → (cfg1.win 5).flush t = false := by decide +kernel
/-- At a middle point (neither reset nor final store) the output window is idle, -/
theorem idleAt1_5_B : ∀ t : Fin cfg1.N, ¬cond1_0 (grid1.coords t) → ¬cond1_1 (grid1.coords t) → cfg1.idle 5 (grid1.coords t) = true := by decide +kernel
/-- and its block is not written back there. -/
theorem noFlush1_5_B : ∀ t : Fin cfg1.N, ¬cond1_0 (grid1.coords t) → ¬cond1_1 (grid1.coords t) → (cfg1.win 5).flush t = false := by decide +kernel
/-- At a final-store point the output window is live: the body stores the whole block. -/
theorem liveAt1_5_C : ∀ t : Fin cfg1.N, ¬cond1_0 (grid1.coords t) → cond1_1 (grid1.coords t) → cfg1.idle 5 (grid1.coords t) = false := by decide +kernel

/-! ## The memrefs the body is called with -/

/-- One staging buffer of the output window, through which its contents are stated (the choice does not matter). -/
abbrev VO1_5 : View sig .tc .vmem S1x1024x768 .f32 := (Memref.whole cc1_stg5_0 : Memref sig .tc .vmem S1x1024x768 .f32).view
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x768 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x768 .f32 := win1_5.stage (cfg1.slots t 5)
abbrev hs1_5 (t : Fin cfg1.N) : (ms1_5 t).IsWhole := hstage1_5 ((cfg1.slots t 5).cast nbuf1_5)
/-- The carried buffers: the running row maximum, the running row sum, the unnormalised accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x768 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x768 .f32 := scM1_2.view

/-! ## The region invariant, opened -/

/-- The first region's eighteen staging buffers, each whole at some contents: this region never touches them. -/
def Stg0 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f))

/-- The region invariant as the first region's staging buffers, the three carried buffers each owned at some
    contents, and the generator register at some state. -/
theorem PhiA1_eq (c : Dev nD) :
    (Pipeline.ΦA spec1 c : sProp 𝕄)
      = iprop((Stg0 (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; unfold Stg0
  refine BI.equiv_iff.mp ⟨?_, ?_⟩
  · change (_ : sProp 𝕄) ⊢ _
    iintro ⟨⟨A0, A1, A2, A3, A4, A5, A6, A7, A8, A9, A10, A11, A12, A13, A14, A15, A16, A17, S0, S1, S2⟩, Hg⟩
    isplitr [Hg]
    · isplitr [S0 S1 S2]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [A11]; · iexact A11
        isplitl [A12]; · iexact A12
        isplitl [A13]; · iexact A13
        isplitl [A14]; · iexact A14
        isplitl [A15]; · iexact A15
        isplitl [A16]; · iexact A16
        iexact A17
      isplitl [S0]; · iexact S0
      isplitl [S1]; · iexact S1
      iexact S2
    iexact Hg
  · change (_ : sProp 𝕄) ⊢ _
    iintro ⟨⟨⟨A0, A1, A2, A3, A4, A5, A6, A7, A8, A9, A10, A11, A12, A13, A14, A15, A16, A17⟩, S0, S1, S2⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      isplitl [A15]; · iexact A15
      isplitl [A16]; · iexact A16
      isplitl [A17]; · iexact A17
      isplitl [S0]; · iexact S0
      isplitl [S1]; · iexact S1
      iexact S2
    iexact Hg

end Region1

end Cert.Kernel.Hand
end
-- ==== Proof.KernelR1RunA.lean ====
import proofs.«154501_j39676907887142_2_alg».proof.Proof.KernelR1Runs

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention sweep's body, case A of its two conditionals -/

section Region1

set_option maxHeartbeats 4000000 in
/-- A RESET POINT (last grid coordinate 0: the reset taken, the final store not). On whole staging buffers — the five
    inputs at their blocks, the output buffer at any contents handed back untouched, the three carried buffers at
    anything — the body runs to the end leaving the inputs as they were and each carried buffer with the pieces its
    stores wrote (first the reset value, then the first tile's update). The pieces are the witness the run finds. -/
noncomputable def kernelRun1_A (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) :
    Σ' (L5 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (xi5 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1_attn_kernel_eq_skeleton]; unfold cc1_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Region1

end Cert.Kernel.Hand
end
-- ==== Proof.KernelR1RunB.lean ====
import proofs.«154501_j39676907887142_2_alg».proof.Proof.KernelR1RunA

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention sweep's body, case B of its two conditionals -/

section Region1

set_option maxHeartbeats 4000000 in
/-- A MIDDLE POINT (last grid coordinate 1 or 2: neither conditional taken). On whole staging buffers — the five inputs
    at their blocks, the output buffer at any contents handed back untouched, the three carried buffers at what the
    point before left — the body runs to the end leaving the inputs as they were and each carried buffer with the
    pieces its stores wrote (this tile's update of the running maximum, sum and accumulator). -/
noncomputable def kernelRun1_B (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) :
    Σ' (L5 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (xi5 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1_attn_kernel_eq_skeleton]; unfold cc1_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Region1

end Cert.Kernel.Hand
end
-- ==== Proof.KernelR1RunC.lean ====
import proofs.«154501_j39676907887142_2_alg».proof.Proof.KernelR1RunB

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention sweep's body, case C of its two conditionals -/

section Region1

set_option maxHeartbeats 4000000 in
/-- A FINAL-STORE POINT (last grid coordinate 3: the reset not taken, the final store taken). On whole staging buffers —
    the five inputs at their blocks, the output buffer at anything, the three carried buffers at what the point before
    left — the body runs to the end leaving the inputs as they were, each carried buffer with the pieces its stores
    wrote, and the output buffer with the one piece of the normalised accumulator. -/
noncomputable def kernelRun1_C (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) :
    Σ' (L5 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_attn_kernel_eq_skeleton]; unfold cc1_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Region1

end Cert.Kernel.Hand
end
-- ==== Proof.KernelR1.lean ====
import proofs.«154501_j39676907887142_2_alg».proof.Proof.KernelR1RunC

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention sweep: what every point leaves, the proof data, the body obligation

Four consecutive points of the grid (one batch, one query tile, the four key/value tiles) form one sweep: the
first resets the running maximum to minus infinity and the running sum and accumulator to zero before updating them
with its tile, the next two update them, the last updates them and stores the accumulator divided by the sum into
the output block, which the pipeline then writes back. The output window is idle at the first three points. -/

section Region1
variable (V : (c : Dev nD) → (b : Ref sig .tc) → Buf (Elt F) ((c : Thread nD τ).loc b))

/-! ## What a reset point leaves -/

/-- What the output buffer holds after a reset point as far as the body is concerned: nothing is stored (a placeholder nothing consults — the window is idle there and not written back). -/
def out1_A_5 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) : Vec F S1x1024x768 .f32 :=
  VO1_5.read (Elt F) (VO1_5.writes (Elt F) VO1_5.junk (kernelRun1_A c i arg3 harg3 arg4 harg4 arg5 harg5 arg6 harg6 arg7 harg7 arg8 harg8 arg9 harg9 arg10 harg10 arg11 harg11 hc0 hc1 x0 x1 x2 x3 x4).1)

/-- The stores of a reset point into carried buffer 0 cover it. -/
theorem scover1_A_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.1 S1024x1.size (by sl_kernel_rfl) y

/-- What carried buffer 0 holds after a reset point: its pieces read back. -/
def sout1_A_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) : Vec F S1024x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3 x4).2.1)

/-- The stores of a reset point into carried buffer 1 cover it. -/
theorem scover1_A_1 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.1 S1024x1.size (by sl_kernel_rfl) y

/-- What carried buffer 1 holds after a reset point: its pieces read back. -/
def sout1_A_1 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3 x4).2.2.1)

/-- The stores of a reset point into carried buffer 2 cover it. -/
theorem scover1_A_2 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (y : S1024x768.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.2.1 S1024x768.size (by sl_kernel_rfl) y

/-- What carried buffer 2 holds after a reset point: its pieces read back. -/
def sout1_A_2 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) : Vec F S1024x768 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3 x4).2.2.2.1)

/-! ## What a middle point leaves -/

/-- What the output buffer holds after a middle point as far as the body is concerned: nothing is stored (a placeholder nothing consults — the window is idle there and not written back). -/
def out1_B_5 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1x1024x768 .f32 :=
  VO1_5.read (Elt F) (VO1_5.writes (Elt F) VO1_5.junk (kernelRun1_B c i arg3 harg3 arg4 harg4 arg5 harg5 arg6 harg6 arg7 harg7 arg8 harg8 arg9 harg9 arg10 harg10 arg11 harg11 hc0 hc1 x0 x1 x2 x3 x4 xs0 xs1 xs2).1)

/-- The stores of a middle point into carried buffer 0 cover it. -/
theorem scover1_B_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What carried buffer 0 holds after a middle point: its pieces read back. -/
def sout1_B_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 x4 xs0 xs1 xs2).2.1)

/-- The stores of a middle point into carried buffer 1 cover it. -/
theorem scover1_B_1 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What carried buffer 1 holds after a middle point: its pieces read back. -/
def sout1_B_1 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 x4 xs0 xs1 xs2).2.2.1)

/-- The stores of a middle point into carried buffer 2 cover it. -/
theorem scover1_B_2 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) (y : S1024x768.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1 S1024x768.size (by sl_kernel_rfl) y

/-- What carried buffer 2 holds after a middle point: its pieces read back. -/
def sout1_B_2 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1024x768 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1)

/-! ## What a final-store point leaves -/

/-- At a final-store point the one store into the output buffer covers it. -/
theorem cover1_C_5 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) (y : S1x1024x768.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).1 S1x1024x768.size (by sl_kernel_rfl) y

/-- What the output buffer holds after a final-store point: the stored block. -/
def out1_C_5 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1x1024x768 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 hc0 hc1 x0 x1 x2 x3 x4 xs0 xs1 xs2).1)

/-- The stores of a final-store point into carried buffer 0 cover it. -/
theorem scover1_C_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) (y : S1024x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What carried buffer 0 holds after a final-store point: its pieces read back. -/
def sout1_C_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 xs0 xs1 xs2).2.1)

/-- The stores of a final-store point into carried buffer 1 cover it. -/
theorem scover1_C_1 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) (y : S1024x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What carried buffer 1 holds after a final-store point: its pieces read back. -/
def sout1_C_1 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 x4 xs0 xs1 xs2).2.2.1)

/-- The stores of a final-store point into carried buffer 2 cover it. -/
theorem scover1_C_2 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) (y : S1024x768.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1 S1024x768.size (by sl_kernel_rfl) y

/-- What carried buffer 2 holds after a final-store point: its pieces read back. -/
def sout1_C_2 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1024x768 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1)

/-! ## What the output buffer and the carried buffers hold after each point -/

/-- THE SWEEP. After the body at position `n`: the output window's staging buffer, then the running maximum, the
    running sum and the accumulator. A reset point starts afresh from the point's input blocks; a middle or
    final-store point updates what the point before left in the three carried buffers. -/
def outsAt1 (c : Dev nD) : (n : ℕ) → n < cfg1.N → Vec F S1x1024x768 .f32 × Vec F S1024x1 .f32 × Vec F S1024x1 .f32 × Vec F S1024x768 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a reset point. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a middle point: over what the point before left. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a final-store point: over what the point before left. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- Before position `n`: at the region's entry the class's invariant (every scoped buffer that is no staging buffer
    of this region at anything); afterwards the first region's staging buffers still at anything, the three carried
    buffers at what the point before left, and the generator register at some state. -/
def PhiS1 (c : Dev nD) : (n : ℕ) → n ≤ cfg1.N → sProp 𝕄
  | 0, _ => Pipeline.ΦA spec1 c
  | n + 1, hn => iprop((Stg0 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((Stg0 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop((Stg0 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

/-- The proof data of this region on core `c`: the arrays as the region finds them; after the body each input's
    buffer at its block and the output's at `outsAt1`'s first component; the invariant `PhiS1`; full shares;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the closed forms of the two conditions say which
    case the point is in; that case's run applies. The invariant hands the body the three carried buffers at what the
    point before left (at anything at the region's first point, where the body resets them before reading) and takes
    them back at this point's contents, the stores of every case covering each of them; the first region's staging
    buffers and the generator register pass through untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HG, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HG HS0 HS1 HS2 Hg]
        · isplitr [Hg]
          swap; · iexact Hg
          isplitl [HG]; · iexact HG
          isplitl [HS0]
          · unfold owns; iexists _; isplitr
            swap; · iexact HS0
            ipureintro; exact View.read_writes_of_cover _ _ _ _ _ (scover1_A_0 _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 _ _ _ _ _ _ _ _ _ _ _ _ _ _ _ _ _ _ _ _ _ _ _ _ _ _ _)
          unfold owns; iexists _; isplitr
          swap; · iexact HS2
          ipureintro; exact View.read_writes_of_cover _ _ _ _ _ (scover1_A_2 _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HG, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [HG HS0 HS1 HS2 Hg]
        · isplitr [Hg]
          swap; · iexact Hg
          isplitl [HG]; · iexact HG
          isplitl [HS0]
          · unfold owns; iexists _; isplitr
            swap; · iexact HS0
            ipureintro; exact View.read_writes_of_cover _ _ _ _ _ (scover1_A_0 _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 _ _ _ _ _ _ _ _ _ _ _ _ _ _ _ _ _ _ _ _ _ _ _ _ _ _ _)
          unfold owns; iexists _; isplitr
          swap; · iexact HS2
          ipureintro; exact View.read_writes_of_cover _ _ _ _ _ (scover1_A_2 _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0 sout1_C_1 sout1_C_2; (try dsimp only)
      by_cases hz : t.val = 0
      · exfalso; omega
      · rw [PhiS1_castSucc V c t, PhiS1_pos V c _ _ hz]
        iintro ⟨⟨⟨HG, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [HG HS0 HS1 HS2 Hg]
        · isplitr [Hg]
          swap; · iexact Hg
          isplitl [HG]; · iexact HG
          isplitl [HS0]
          · unfold owns; iexists _; isplitr
            swap; · iexact HS0
            ipureintro; exact View.read_writes_of_cover _ _ _ _ _ (scover1_C_0 _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_C_2 _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 _ _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨HG, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HG HS0 HS1 HS2 Hg]
        · isplitr [Hg]
          swap; · iexact Hg
          isplitl [HG]; · iexact HG
          isplitl [HS0]
          · unfold owns; iexists _; isplitr
            swap; · iexact HS0
            ipureintro; exact View.read_writes_of_cover _ _ _ _ _ (scover1_B_0 _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_B_2 _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried buffers' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HG, HS0, HS1, HS2⟩, Hg⟩
  isplitr [Hg]
  swap; · iexact Hg
  isplitl [HG]; · iexact HG
  isplitl [HS0]; · iexists _; iexact HS0
  isplitl [HS1]; · iexists _; iexact HS1
  iexists _; iexact HS2

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Hand
end
-- ==== Proof.KernelFrame.lean ====
/-
  The kernel program's run with the second region's proof data supplied: from any launch memory every weakly fair
  execution terminates without a fault, the result buffer ends at what the second region's write-backs leave, and every
  argument array ends as launched.
-/
import proofs.«154501_j39676907887142_2_alg».proof.Proof.KernelRun
import proofs.«154501_j39676907887142_2_alg».proof.Proof.KernelR1

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat BodyObligation)

variable {F : FTy → Type} [FloatOps F]

/-- The second region's proof data, its body obligation and its invariant's two ends, as the run takes them. -/
def r1data : R1Data (F := F) where
  dat1 := fun V c => dat1 V c
  hA := fun V c w => A_eq1 V c w
  hq := fun _ _ _ => rfl
  howed := fun _ _ _ => rfl
  hrec := fun _ _ _ => rfl
  hbody := fun V c => body_obligation1 V c
  hin := fun V c => hin1 V c
  hout := fun V c => hout1 V c

/-- The result buffer after the run, on core `c`: the second region's result window's array after all 64 grid points. -/
theorem result_eq (m : (ℓ : Loc nD τ sig) → Buf (Elt F) ℓ) (c : Dev nD) :
    W11 m r1data c (Proc.devRef .tc main_v11) = (dat1 (V10r m) c).arrAt 5 cfg1.N :=
  W11_arr m r1data c 5

/-- The run. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v11) = (dat1 (V10r m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m c), (h c).2⟩) (run_main m ρ r1data)

/-- The frame: every argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run m ρ)

end Cert.Kernel.Hand
end
-- ==== Proof.KernelIdealR0.lean ====
import proofs.«154501_j39676907887142_2_alg».proof.Proof.Gen.KernelIdeal.Launch
import proofs.«154501_j39676907887142_2_alg».proof.Proof.Gen.KernelIdeal.Skeleton
import proofs.«154501_j39676907887142_2_alg».proof.Proof.Gen.KernelIdeal.Points
import proofs.«154501_j39676907887142_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region (the three projections): one grid point computes, for a tile of 256 rows of one batch,
    the three products of the row tile with the transposed weights plus the bias row, and stores each whole.
    Everything here is stated at a parameter `V`, the contents of the unscoped buffers when the region is entered. -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether fetched there or carried over. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether fetched there or carried over. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether fetched there or carried over. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether fetched there or carried over. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether fetched there or carried over. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, whether fetched there or carried over. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, whether fetched there or carried over. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, whether fetched there or carried over. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, whether fetched there or carried over. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through: each the whole staging buffer -/

abbrev rA : Rect S1x256x768 := Rect.unit (s := S1x256x768) ![0, 0, 0] S1x256x768.size inb_S1x256x768_S1x256x768_0_0_0
abbrev rB : Rect S768x256 := Rect.unit (s := S768x256) ![0, 0] S768x256.size inb_S768x256_S768x256_0_0
abbrev rC : Rect S1x256 := Rect.unit (s := S1x256) ![0, 0] S1x256.size inb_S1x256_S1x256_0_0
abbrev rD : Rect S768x768 := Rect.unit (s := S768x768) ![0, 0] S768x768.size inb_S768x768_S768x768_0_0
abbrev rE : Rect S1x768 := Rect.unit (s := S1x768) ![0, 0] S1x768.size inb_S1x768_S1x768_0_0
abbrev rQ : Rect S1x256x256 := Rect.unit (s := S1x256x256) ![0, 0, 0] S1x256x256.size inb_S1x256x256_S1x256x256_0_0_0
abbrev rV : Rect S1x256x768 := Rect.unit (s := S1x256x768) ![0, 0, 0] S1x256x768.size inb_S1x256x768_S1x256x768_0_0_0

/-! ## What the body leaves in each output window's buffer -/

/-- The first output (the query projection of the tile): one whole store of the product of the first row tile with
    the first weight plus its bias. -/
def out0_9 (x0 : Vec F S1x256x768 .f32) (x3 : Vec F S768x256 .f32) (x4 : Vec F S1x256 .f32) : Vec F S1x256x256 .bf16 :=
  View.canon [⟨rQ, k0_pay1 (k0_pay6 (View.ld x0 rA) (View.ld x3 rB) (View.ld x4 rC))⟩]
/-- The second output (the key projection). -/
def out0_10 (x1 : Vec F S1x256x768 .f32) (x5 : Vec F S768x256 .f32) (x6 : Vec F S1x256 .f32) : Vec F S1x256x256 .bf16 :=
  View.canon [⟨rQ, k0_pay2 (k0_pay4 (View.ld x1 rA) (View.ld x5 rB) (View.ld x6 rC))⟩]
/-- The third output (the value projection). -/
def out0_11 (x2 : Vec F S1x256x768 .f32) (x7 : Vec F S768x768 .f32) (x8 : Vec F S1x768 .f32) : Vec F S1x256x768 .bf16 :=
  View.canon [⟨rV, k0_pay3 (k0_pay5 (View.ld x2 rA) (View.ld x7 rD) (View.ld x8 rE))⟩]

/-- One whole-buffer store covers the buffer. -/
theorem cover0_Q (p0 : Vec F S1x256x256 .bf16) (y : S1x256x256.Idx) :
    ∃ pc ∈ ([⟨rQ, p0⟩] : List (View.Piece (Elt F) S1x256x256 .bf16)), y ∈ pc.1.set :=
  View.cover_of_tiled [⟨rQ, p0⟩] S1x256x256.size (by rfl) y
theorem cover0_V (p0 : Vec F S1x256x768 .bf16) (y : S1x256x768.Idx) :
    ∃ pc ∈ ([⟨rV, p0⟩] : List (View.Piece (Elt F) S1x256x768 .bf16)), y ∈ pc.1.set :=
  View.cover_of_tiled [⟨rV, p0⟩] S1x256x768.size (by rfl) y

/-! ## The body's triple -/

set_option maxHeartbeats 4000000 in
/-- The body, on whole staging buffers holding the nine input blocks, runs to the end leaving the inputs as they were
    and each output buffer at the stored product. -/
theorem sound_kernel0 (c : Dev nD) (E : Set ℕ) (i : grid0.Coords) (arg2 : Memref sig .tc .vmem S1x256x768 .f32) (harg2 : arg2.IsWhole) (arg3 : Memref sig .tc .vmem S1x256x768 .f32) (harg3 : arg3.IsWhole) (arg4 : Memref sig .tc .vmem S1x256x768 .f32) (harg4 : arg4.IsWhole) (arg5 : Memref sig .tc .vmem S768x256 .f32) (harg5 : arg5.IsWhole) (arg6 : Memref sig .tc .vmem S1x256 .f32) (harg6 : arg6.IsWhole) (arg7 : Memref sig .tc .vmem S768x256 .f32) (harg7 : arg7.IsWhole) (arg8 : Memref sig .tc .vmem S1x256 .f32) (harg8 : arg8.IsWhole) (arg9 : Memref sig .tc .vmem S768x768 .f32) (harg9 : arg9.IsWhole) (arg10 : Memref sig .tc .vmem S1x768 .f32) (harg10 : arg10.IsWhole) (arg11 : Memref sig .tc .vmem S1x256x256 .bf16) (harg11 : arg11.IsWhole) (arg12 : Memref sig .tc .vmem S1x256x256 .bf16) (harg12 : arg12.IsWhole) (arg13 : Memref sig .tc .vmem S1x256x768 .bf16) (harg13 : arg13.IsWhole)
    (x0 : Vec F S1x256x768 .f32) (x1 : Vec F S1x256x768 .f32) (x2 : Vec F S1x256x768 .f32) (x3 : Vec F S768x256 .f32) (x4 : Vec F S1x256 .f32) (x5 : Vec F S768x256 .f32) (x6 : Vec F S1x256 .f32) (x7 : Vec F S768x768 .f32) (x8 : Vec F S1x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare (out0_9 x0 x3 x4) ∗ owns (c : Thread nD τ) arg12 fullShare (out0_10 x1 x5 x6)
            ∗ owns (c : Thread nD τ) arg13 fullShare (out0_11 x2 x7 x8)) -∗ K ⟨⟩))
      ⊢ wp frame (wpE (defs₀ (F := F)) Variants.none c none) E (cc0_qkv_kernel i arg2 harg2 arg3 harg3 arg4 harg4 arg5 harg5 arg6 harg6 arg7 harg7 arg8 harg8 arg9 harg9 arg10 harg10 arg11 harg11 arg12 harg12 arg13 harg13) K := by
  simp only [cc0_qkv_kernel_eq_skeleton]; unfold cc0_qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    unfold out0_9
    simp only [View.readAt_eq_ld]
    exact View.read_writes_eq_canon _ _ _ (cover0_Q _)
  isplitl [H10]
  · iexists _; isplitr
    swap; · iexact H10
    ipureintro
    unfold out0_10
    simp only [View.readAt_eq_ld]
    exact View.read_writes_eq_canon _ _ _ (cover0_Q _)
  iexists _; isplitr
  swap; · iexact H11
  ipureintro
  unfold out0_11
  simp only [View.readAt_eq_ld]
  exact View.read_writes_eq_canon _ _ _ (cover0_V _)

/-! ## The proof data of the first region's pipeline -/

/-- On core `c`: the arrays as the region finds them; after the body at point `t` each input buffer still holds its
    block and each output buffer holds its product of the point's input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 3 t) (iblk0 V c 4 t)
    | ⟨10, _⟩ => out0_10 (iblk0 V c 1 t) (iblk0 V c 5 t) (iblk0 V c 6 t)
    | ⟨11, _⟩ => out0_11 (iblk0 V c 2 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 3 t) (iblk0 V c 4 t) := by dsimp only [dat0]
theorem after0_10 (c : Dev nD) (t : Fin cfg0.N) : (dat0 V c).after 10 t = out0_10 (iblk0 V c 1 t) (iblk0 V c 5 t) (iblk0 V c 6 t) := by dsimp only [dat0]
theorem after0_11 (c : Dev nD) (t : Fin cfg0.N) : (dat0 V c).after 11 t = out0_11 (iblk0 V c 2 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation at a grid point -/

/-- What the body is handed at point `t`: the invariant, the core owing nothing, each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 2000000 in
/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand
end
-- ==== Proof.KernelIdealRun.lean ====
import proofs.«154501_j39676907887142_2_alg».proof.Proof.Gen.KernelIdeal.Launch
import proofs.«154501_j39676907887142_2_alg».proof.Proof.Gen.KernelIdeal.Skeleton
import proofs.«154501_j39676907887142_2_alg».proof.Proof.Gen.KernelIdeal.Points
import proofs.«154501_j39676907887142_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«154501_j39676907887142_2_alg».proof.Proof.KernelIdealR0

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's host stretches and its two kernel regions in order, from the launch to the return.

  The contents of the unscoped buffers at the boundaries: after the nine host stretches (the padding, the transposes and
  the reshapes of the weights and biases) the first region is entered; it changes only its three result arrays; the second
  region is entered from that and changes only the program's result. -/

section Run

variable (m : (ℓ : Loc nD τ sig) → Buf (Elt F) ℓ) (ρ : Dev nD → PrngReg)

/-- What is assumed here of the second region's proof data (its own module supplies these): a family over the region's
    entry contents with full shares and nothing owed, its body obligation, and the invariant entered from and returned to
    the launch's. -/
structure R1Data where
  dat1 : ((c : Dev nD) → (b : Ref sig .tc) → Buf (Elt F) ((c : Thread nD τ).loc b)) → (c : Dev nD) → Dat τ (Elt F) Unit ℕ (UR sig nD τ) ℕ cfg1 c
  hA : ∀ V c w, (dat1 V c).A w = V c (Pipeline.arrRef spec1 w)
  hq : ∀ V c w, (dat1 V c).q w = fullShare
  howed : ∀ V c t, (dat1 V c).owed t = 0
  hrec : ∀ V c t, (dat1 V c).recorded t = Set.univ
  hbody : ∀ V c, BodyObligation (dat1 V c) (defs₀ (F := F)) Variants.none () Set.univ
  hin : ∀ V c, (Pipeline.ΦA spec1 c : sProp 𝕄) ⊢ (dat1 V c).Φ 0
  hout : ∀ V c, (dat1 V c).Φ (Fin.last cfg1.N) ⊢ (Pipeline.ΦA spec1 c : sProp 𝕄)

variable (D : R1Data (F := F))

/-- The buffers when the first region is entered, read at the TensorCore's references. -/
abbrev V9r : (c : Dev nD) → (b : Ref sig .tc) → Buf (Elt F) ((c : Thread nD τ).loc b) := fun c b => Gen.V9 m c b
/-- After the first region: its arrays at what its write-backs leave, every other buffer as entered. -/
def W10 (c : Dev nD) : Valuation τ sig (Elt F) :=
  Pipeline.withArrays spec0 c (Gen.V9 m c) fun w => (dat0 (V9r m) c).arrAt w cfg0.N
theorem W10_arr (c : Dev nD) (w : Fin cfg0.W) :
    W10 m c (Proc.devRef .tc (Pipeline.arrRef spec0 w)) = (dat0 (V9r m) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m c (Proc.devRef .tc b) = Gen.V9 m c (Proc.devRef .tc b) := by
  unfold W10; exact Pipeline.withArrays_of_ne spec0 c _ _ b hb
abbrev V10r : (c : Dev nD) → (b : Ref sig .tc) → Buf (Elt F) ((c : Thread nD τ).loc b) := fun c b => W10 m c b
theorem hF0 (c : Dev nD) (w : Fin cfg0.W) : (dat0 (V9r m) c).arrAt w cfg0.N = V10r m c (Pipeline.arrRef spec0 w) :=
  (W10_arr m c w).symm
theorem hrest0 (c : Dev nD) : ∀ b, b ∉ Finset.univ.image (Pipeline.arrRef spec0) → V10r m c b = V9r m c b :=
  fun b hb => W10_of_ne m c b fun w e => hb (Finset.mem_image.mpr ⟨w, Finset.mem_univ _, e⟩)

/-- After the second region. -/
def W11 (c : Dev nD) : Valuation τ sig (Elt F) :=
  Pipeline.withArrays spec1 c (W10 m c) fun w => (D.dat1 (V10r m) c).arrAt w cfg1.N
theorem W11_arr (c : Dev nD) (w : Fin cfg1.W) :
    W11 m D c (Proc.devRef .tc (Pipeline.arrRef spec1 w)) = (D.dat1 (V10r m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m D c (Proc.devRef .tc b) = W10 m c (Proc.devRef .tc b) := by
  unfold W11; exact Pipeline.withArrays_of_ne spec1 c _ _ b hb
abbrev V11r : (c : Dev nD) → (b : Ref sig .tc) → Buf (Elt F) ((c : Thread nD τ).loc b) := fun c b => W11 m D c b
theorem hF1 (c : Dev nD) (w : Fin cfg1.W) : (D.dat1 (V10r m) c).arrAt w cfg1.N = V11r m D c (Pipeline.arrRef spec1 w) :=
  (W11_arr m D c w).symm
theorem hrest1 (c : Dev nD) : ∀ b, b ∉ Finset.univ.image (Pipeline.arrRef spec1) → V11r m D c b = V10r m c b :=
  fun b hb => W11_of_ne m D c b fun w e => hb (Finset.mem_image.mpr ⟨w, Finset.mem_univ _, e⟩)

/-! ## The proof data family and what rides beside the buffers -/

/-- Both pipelines' proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (V9r m) c
  | ⟨1, _⟩ => fun c => D.dat1 (V10r m) c

abbrev 𝒱₀ : Variants := Variants.none
abbrev L : GSem nD τ sig → Finset Unit := fun _ => ∅
abbrev lv : GSem nD τ sig → Unit → ℕ := fun _ _ => 0
/-- Beside the buffers, through every item: the core's generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

set_option backward.isDefEq.respectTransparency.types false in
/-- The first region as an item of @main: entered with every unscoped buffer at the contents after the host stretches,
    left with its three result arrays at what its write-backs leave. -/
def reg0 : Pipeline.RegionSeg (pcfgs (F := F)) Gen.adm (pdats m D) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9r m) c).loose
  hwaits := Pipeline.hwaits_of_owed_zero _ _ _ _ L lv 0 fun _ _ => rfl
  pre c := iprop(StableHlo.held (c : Thread nD τ) (Pipeline.ucRefs τ sig) (Gen.V9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec0 c (V9r m c)
  hentry c := by
    rw [Pipeline.ownSems0_none]
    have hsplit := Pipeline.arrays_of_unscopedBufs (p := 0) (pcfgs (F := F)) Gen.adm (pdats m D) launch0.win launch0.arr_whole c
      ((pdats m D 0 c).share_full fun _ => rfl) (V9r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m D 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m D 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m D) ((pdats m D 0 c).share_full fun _ => rfl)
      (V9r m c) (V10r m c) ((pdats m D 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region as an item of @main: entered from what the first region left, left with the program's result at
    what its write-backs leave. Its invariant is entered from the launch's (the scratch buffers at anything) and gives
    it back. -/
def reg1 : Pipeline.RegionSeg (pcfgs (F := F)) Gen.adm (pdats m D) () defs₀ 𝒱₀ L lv 1 where
  win := launch1.win.to₀
  block_pos := launch1.block_pos
  stage_whole := launch1.stage_whole
  K := PEmpty
  osem k := k.elim
  ho := Pipeline.OwnSemFacts.none _
  hbody c := (D.hbody (V10r m) c).loose
  hwaits := Pipeline.hwaits_of_owed_zero _ _ _ _ L lv 1 fun c t => D.howed (V10r m) c t
  pre c := iprop(StableHlo.held (c : Thread nD τ) (Pipeline.ucRefs τ sig) (W10 m c) ∗ R c)
  post c := iprop(StableHlo.held (c : Thread nD τ) (Pipeline.ucRefs τ sig) (W11 m D c) ∗ R c)
  X c := iprop(∃ r, prngReg c r)
  Y c := iprop(∃ r, prngReg c r)
  Z c := Pipeline.unscopedRest (Ix := Unit) (Name := ℕ) (U := UR sig nD τ) (Lvl := ℕ) spec1 c (V10r m c)
  hentry c := by
    rw [Pipeline.ownSems0_none]
    have hsplit := Pipeline.arrays_of_unscopedBufs (p := 1) (pcfgs (F := F)) Gen.adm (pdats m D) launch1.win launch1.arr_whole c
      ((pdats m D 1 c).share_full fun w => D.hq (V10r m) c w) (V10r m c) fun w => D.hA (V10r m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m D 1 c).owed 0 = 0 from D.howed (V10r m) c 0]
      icases HO with ⟨%W, HO⟩; iexists W; isplitr; · ipureintro; exact fun x _ => Or.inl (by rw [show (pdats m D 1 c).recorded 0 = Set.univ from D.hrec (V10r m) c 0]; trivial)
      iexact HO
    isplitl [Hp]; · iexact Hp
    iexact Hrest
  hin c := by
    have h1 : (iprop((∃ r, prngReg c r) ∗ Pipeline.prefHeld (pcfgs (F := F) 1).pre c (fun _ => fullShare) (Gen.adm 1).1
        ∗ Pipeline.scopedRest (Pipeline.pin (pcfgs (F := F)) Gen.adm 1).spec c) : sProp 𝕄) ⊢ Pipeline.ΦA spec1 c := by
      unfold Pipeline.ΦA
      iintro ⟨Hp, -, Hr⟩
      isplitl [Hr]; · iexact Hr
      iexact Hp
    exact h1.trans (D.hin (V10r m) c)
  hout c := by
    have h1 : (Pipeline.ΦA spec1 c : sProp 𝕄) ⊢ iprop((∃ r, prngReg c r) ∗ BI.emp
        ∗ Pipeline.scopedRest (Pipeline.pin (pcfgs (F := F)) Gen.adm 1).spec c) := by
      unfold Pipeline.ΦA
      iintro ⟨Hr, Hp⟩
      isplitl [Hp]; · iexact Hp
      isplitr; · iempintro
      iexact Hr
    rw [Pipeline.ownSems0_none]
    exact (D.hout (V10r m) c).trans h1
  hexit c := by
    have hjoin := Pipeline.unscopedBufs_of_arrays (p := 1) (pcfgs (F := F)) Gen.adm (Ix := Unit) (Name := ℕ) (U := UR sig nD τ) (Lvl := ℕ)
      launch1.win launch1.arr_whole c (pdats m D) ((pdats m D 1 c).share_full fun w => D.hq (V10r m) c w)
      (V10r m c) (V11r m D c) ((pdats m D 1 c).arrAt · cfg1.N) (hF1 m D c) (hrest1 m D c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m D 1 c).owed (Fin.last (Pipeline.pin (pcfgs (F := F)) Gen.adm 1).N) = 0 from D.howed (V10r m) c _]
    icases HO with ⟨%W, -, HO⟩; iexists W; iexact HO

/-! ## The arguments end as launched: no host stretch writes one; a region reads it through an input window or not at all -/

theorem W11_main_arg0 (c : Dev nD) : W11 m D c (Proc.devRef .tc main_arg0) = m ((c : Thread nD τ).loc main_arg0) :=
  (W11_of_ne m D c main_arg0 (by decide)).trans <| (W10_arr m c 0).trans <| ((dat0 (V9r m) c).arrAt_in 0 rfl _).trans <| (A_eq0 (V9r m) c 0).trans <|
    (Gen.V9_of m c main_arg0 (by decide)).trans <| (Gen.V8_of m c main_arg0 (by decide)).trans <| (Gen.V7_of m c main_arg0 (by decide)).trans <| (Gen.V6_of m c main_arg0 (by decide)).trans <| (Gen.V5_of m c main_arg0 (by decide)).trans <| (Gen.V4_of m c main_arg0 (by decide)).trans <| (Gen.V3_of m c main_arg0 (by decide)).trans <| (Gen.V2_of m c main_arg0 (by decide)).trans <| (Gen.V1_of m c main_arg0 (by decide)).trans rfl
theorem W11_main_arg1 (c : Dev nD) : W11 m D c (Proc.devRef .tc main_arg1) = m ((c : Thread nD τ).loc main_arg1) :=
  (W11_of_ne m D c main_arg1 (by decide)).trans <| (W10_arr m c 1).trans <| ((dat0 (V9r m) c).arrAt_in 1 rfl _).trans <| (A_eq0 (V9r m) c 1).trans <|
    (Gen.V9_of m c main_arg1 (by decide)).trans <| (Gen.V8_of m c main_arg1 (by decide)).trans <| (Gen.V7_of m c main_arg1 (by decide)).trans <| (Gen.V6_of m c main_arg1 (by decide)).trans <| (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide)).trans rfl
theorem W11_main_arg2 (c : Dev nD) : W11 m D c (Proc.devRef .tc main_arg2) = m ((c : Thread nD τ).loc main_arg2) :=
  (W11_of_ne m D c main_arg2 (by decide)).trans <| (W10_arr m c 2).trans <| ((dat0 (V9r m) c).arrAt_in 2 rfl _).trans <| (A_eq0 (V9r m) c 2).trans <|
    (Gen.V9_of m c main_arg2 (by decide)).trans <| (Gen.V8_of m c main_arg2 (by decide)).trans <| (Gen.V7_of m c main_arg2 (by decide)).trans <| (Gen.V6_of m c main_arg2 (by decide)).trans <| (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl
theorem W11_main_arg3 (c : Dev nD) : W11 m D c (Proc.devRef .tc main_arg3) = m ((c : Thread nD τ).loc main_arg3) :=
  (W11_of_ne m D c main_arg3 (by decide)).trans <| (W10_of_ne m c main_arg3 (by decide)).trans <|
    (Gen.V9_of m c main_arg3 (by decide)).trans <| (Gen.V8_of m c main_arg3 (by decide)).trans <| (Gen.V7_of m c main_arg3 (by decide)).trans <| (Gen.V6_of m c main_arg3 (by decide)).trans <| (Gen.V5_of m c main_arg3 (by decide)).trans <| (Gen.V4_of m c main_arg3 (by decide)).trans <| (Gen.V3_of m c main_arg3 (by decide)).trans <| (Gen.V2_of m c main_arg3 (by decide)).trans <| (Gen.V1_of m c main_arg3 (by decide)).trans rfl
theorem W11_main_arg4 (c : Dev nD) : W11 m D c (Proc.devRef .tc main_arg4) = m ((c : Thread nD τ).loc main_arg4) :=
  (W11_of_ne m D c main_arg4 (by decide)).trans <| (W10_of_ne m c main_arg4 (by decide)).trans <|
    (Gen.V9_of m c main_arg4 (by decide)).trans <| (Gen.V8_of m c main_arg4 (by decide)).trans <| (Gen.V7_of m c main_arg4 (by decide)).trans <| (Gen.V6_of m c main_arg4 (by decide)).trans <| (Gen.V5_of m c main_arg4 (by decide)).trans <| (Gen.V4_of m c main_arg4 (by decide)).trans <| (Gen.V3_of m c main_arg4 (by decide)).trans <| (Gen.V2_of m c main_arg4 (by decide)).trans <| (Gen.V1_of m c main_arg4 (by decide)).trans rfl
theorem W11_main_arg5 (c : Dev nD) : W11 m D c (Proc.devRef .tc main_arg5) = m ((c : Thread nD τ).loc main_arg5) :=
  (W11_of_ne m D c main_arg5 (by decide)).trans <| (W10_of_ne m c main_arg5 (by decide)).trans <|
    (Gen.V9_of m c main_arg5 (by decide)).trans <| (Gen.V8_of m c main_arg5 (by decide)).trans <| (Gen.V7_of m c main_arg5 (by decide)).trans <| (Gen.V6_of m c main_arg5 (by decide)).trans <| (Gen.V5_of m c main_arg5 (by decide)).trans <| (Gen.V4_of m c main_arg5 (by decide)).trans <| (Gen.V3_of m c main_arg5 (by decide)).trans <| (Gen.V2_of m c main_arg5 (by decide)).trans <| (Gen.V1_of m c main_arg5 (by decide)).trans rfl
theorem W11_main_arg6 (c : Dev nD) : W11 m D c (Proc.devRef .tc main_arg6) = m ((c : Thread nD τ).loc main_arg6) :=
  (W11_of_ne m D c main_arg6 (by decide)).trans <| (W10_of_ne m c main_arg6 (by decide)).trans <|
    (Gen.V9_of m c main_arg6 (by decide)).trans <| (Gen.V8_of m c main_arg6 (by decide)).trans <| (Gen.V7_of m c main_arg6 (by decide)).trans <| (Gen.V6_of m c main_arg6 (by decide)).trans <| (Gen.V5_of m c main_arg6 (by decide)).trans <| (Gen.V4_of m c main_arg6 (by decide)).trans <| (Gen.V3_of m c main_arg6 (by decide)).trans <| (Gen.V2_of m c main_arg6 (by decide)).trans <| (Gen.V1_of m c main_arg6 (by decide)).trans rfl
theorem W11_main_arg7 (c : Dev nD) : W11 m D c (Proc.devRef .tc main_arg7) = m ((c : Thread nD τ).loc main_arg7) :=
  (W11_of_ne m D c main_arg7 (by decide)).trans <| (W10_of_ne m c main_arg7 (by decide)).trans <|
    (Gen.V9_of m c main_arg7 (by decide)).trans <| (Gen.V8_of m c main_arg7 (by decide)).trans <| (Gen.V7_of m c main_arg7 (by decide)).trans <| (Gen.V6_of m c main_arg7 (by decide)).trans <| (Gen.V5_of m c main_arg7 (by decide)).trans <| (Gen.V4_of m c main_arg7 (by decide)).trans <| (Gen.V3_of m c main_arg7 (by decide)).trans <| (Gen.V2_of m c main_arg7 (by decide)).trans <| (Gen.V1_of m c main_arg7 (by decide)).trans rfl
theorem W11_main_arg8 (c : Dev nD) : W11 m D c (Proc.devRef .tc main_arg8) = m ((c : Thread nD τ).loc main_arg8) :=
  (W11_of_ne m D c main_arg8 (by decide)).trans <| (W10_of_ne m c main_arg8 (by decide)).trans <|
    (Gen.V9_of m c main_arg8 (by decide)).trans <| (Gen.V8_of m c main_arg8 (by decide)).trans <| (Gen.V7_of m c main_arg8 (by decide)).trans <| (Gen.V6_of m c main_arg8 (by decide)).trans <| (Gen.V5_of m c main_arg8 (by decide)).trans <| (Gen.V4_of m c main_arg8 (by decide)).trans <| (Gen.V3_of m c main_arg8 (by decide)).trans <| (Gen.V2_of m c main_arg8 (by decide)).trans <| (Gen.V1_of m c main_arg8 (by decide)).trans rfl
theorem W11_main_arg9 (c : Dev nD) : W11 m D c (Proc.devRef .tc main_arg9) = m ((c : Thread nD τ).loc main_arg9) :=
  (W11_arr m D c 3).trans <| ((D.dat1 (V10r m) c).arrAt_in 3 rfl _).trans <| (D.hA (V10r m) c 3).trans <| (W10_of_ne m c main_arg9 (by decide)).trans <|
    (Gen.V9_of m c main_arg9 (by decide)).trans <| (Gen.V8_of m c main_arg9 (by decide)).trans <| (Gen.V7_of m c main_arg9 (by decide)).trans <| (Gen.V6_of m c main_arg9 (by decide)).trans <| (Gen.V5_of m c main_arg9 (by decide)).trans <| (Gen.V4_of m c main_arg9 (by decide)).trans <| (Gen.V3_of m c main_arg9 (by decide)).trans <| (Gen.V2_of m c main_arg9 (by decide)).trans <| (Gen.V1_of m c main_arg9 (by decide)).trans rfl
theorem W11_main_arg10 (c : Dev nD) : W11 m D c (Proc.devRef .tc main_arg10) = m ((c : Thread nD τ).loc main_arg10) :=
  (W11_arr m D c 4).trans <| ((D.dat1 (V10r m) c).arrAt_in 4 rfl _).trans <| (D.hA (V10r m) c 4).trans <| (W10_of_ne m c main_arg10 (by decide)).trans <|
    (Gen.V9_of m c main_arg10 (by decide)).trans <| (Gen.V8_of m c main_arg10 (by decide)).trans <| (Gen.V7_of m c main_arg10 (by decide)).trans <| (Gen.V6_of m c main_arg10 (by decide)).trans <| (Gen.V5_of m c main_arg10 (by decide)).trans <| (Gen.V4_of m c main_arg10 (by decide)).trans <| (Gen.V3_of m c main_arg10 (by decide)).trans <| (Gen.V2_of m c main_arg10 (by decide)).trans <| (Gen.V1_of m c main_arg10 (by decide)).trans rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, beside the core owing nothing. -/
abbrev Tₙ (c : Dev nD) : sProp 𝕄 := iprop(StableHlo.held (c : Thread nD τ) (Pipeline.ucRefs τ sig) (W11 m D c) ∗ ∃ r, prngReg c r)

set_option backward.isDefEq.respectTransparency.types false in
/-- THE RUN. From any memory with zero counters every weakly fair execution of @main terminates, nothing faulting, and
    in every final state the result buffer holds what the second region's write-backs leave and every argument array
    what it held at launch. -/
theorem run_main : θ_run defs (onTc (τ := τ) (main (F := F))) ⟨m, fun _ => 0, ρ⟩ (fun r => ∀ c : Dev nD,
      r.2.mem ((c.tc : Thread nD τ).loc main_v11) = W11 m D c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_dev (pcfgs (F := F)) Gen.adm (pdats m D) () cellOf_inj emb₁ defs₀ 𝒱₀ L lv m ρ main
    (Gen.segs m 𝒱₀ L lv E () (pdats m D) (reg0 m D) (reg1 m D))
    (fun c Q => by
      rewrite [main_chain c, Pipeline.Seg.run_eq_chain,
        show (Gen.segs m 𝒱₀ L lv E () (pdats m D) (reg0 m D) (reg1 m D) c).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m D)
    (hch := fun c => ⟨.rfl, .rfl, .rfl, .rfl, .rfl, .rfl, .rfl, .rfl, .rfl, .rfl, .rfl,
      (show (iprop(StableHlo.held (c : Thread nD τ) (Pipeline.ucRefs τ sig) (W11 m D c) ∗ R c) : sProp 𝕄)
          ⊢ iprop(Tₙ m D c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m D c b)
    (hfin := fun c s' => by
      iintro ⟨⟨Hh, -⟩, HSI⟩
      unfold StableHlo.held
      imodintro
      iapply (pointsTo_read_all (Pipeline.ucRefs τ sig) (fun b => (((c : Thread nD τ)).1, b)) (W11 m D c) s')
      isplitl [Hh] <;> iassumption)
    (hQ := fun s h c =>
      ⟨h c _ (mem_uc main_v11 (by decide)),
       (h c _ (mem_uc main_arg0 (by decide))).trans (W11_main_arg0 m D c),
       (h c _ (mem_uc main_arg1 (by decide))).trans (W11_main_arg1 m D c),
       (h c _ (mem_uc main_arg2 (by decide))).trans (W11_main_arg2 m D c),
       (h c _ (mem_uc main_arg3 (by decide))).trans (W11_main_arg3 m D c),
       (h c _ (mem_uc main_arg4 (by decide))).trans (W11_main_arg4 m D c),
       (h c _ (mem_uc main_arg5 (by decide))).trans (W11_main_arg5 m D c),
       (h c _ (mem_uc main_arg6 (by decide))).trans (W11_main_arg6 m D c),
       (h c _ (mem_uc main_arg7 (by decide))).trans (W11_main_arg7 m D c),
       (h c _ (mem_uc main_arg8 (by decide))).trans (W11_main_arg8 m D c),
       (h c _ (mem_uc main_arg9 (by decide))).trans (W11_main_arg9 m D c),
       (h c _ (mem_uc main_arg10 (by decide))).trans (W11_main_arg10 m D c)⟩)

end Run

end Cert.KernelIdeal.Hand
end
-- ==== Proof.KernelIdealR1Runs.lean ====
import proofs.«154501_j39676907887142_2_alg».proof.Proof.Gen.KernelIdeal.Launch
import proofs.«154501_j39676907887142_2_alg».proof.Proof.Gen.KernelIdeal.Skeleton
import proofs.«154501_j39676907887142_2_alg».proof.Proof.Gen.KernelIdeal.Points
import proofs.«154501_j39676907887142_2_alg».proof.Proof.Gen.KernelIdeal.Regions
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region (the attention sweep): what its per-case runs share.

The grid is 8 × 2 × 4; the last axis walks the four key/value tiles of one (batch, query tile) pair. Three buffers
of the kernel's own are carried from one point to the next: the running row maximum, the running row sum and the
unnormalised accumulator. They are reset at the first tile (last coordinate 0) and the output block is stored at
the last tile (last coordinate 3). Everything is stated at a parameter `V`: the contents of the unscoped buffers
when this region is entered. -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether fetched there or carried over
    from the point before (the block index has not moved then). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether fetched there or carried over
    from the point before (the block index has not moved then). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether fetched there or carried over
    from the point before (the block index has not moved then). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether fetched there or carried over
    from the point before (the block index has not moved then). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether fetched there or carried over
    from the point before (the block index has not moved then). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- The reset condition (the first conditional): the last grid coordinate is 0 — the scalar chain of the body
    over the coordinate. -/
abbrev cond1_0 (i : grid1.Coords) : Prop := (Scalar.cmpi .ne (Scalar.extui (Scalar.cmpi .eq (BitVec.ofNat 32 (i 2).val) 0#32)) 0#32) = 1#1
/-- It holds exactly at the points ≡ 0 (mod 4): decided over the 64 points. -/
theorem hcond1_0 : ∀ t : Fin cfg1.N, cond1_0 (grid1.coords t) ↔ t.val % 4 = 0 :=
  (by decide +kernel : ∀ t : Fin grid1.N, cond1_0 (grid1.coords t) ↔ t.val % 4 = 0)

/-- The final-store condition (the second conditional): the last grid coordinate is 3. -/
abbrev cond1_1 (i : grid1.Coords) : Prop := k1_cond2 i = 1#1
/-- It holds exactly at the points ≡ 3 (mod 4): decided over the 64 points. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Window 0 (an input) is never idle. -/
theorem liveAt1_0 : ∀ t : Fin cfg1.N, cfg1.idle 0 (grid1.coords t) = false := by decide +kernel
/-- Window 1 (an input) is never idle. -/
theorem liveAt1_1 : ∀ t : Fin cfg1.N, cfg1.idle 1 (grid1.coords t) = false := by decide +kernel
/-- Window 2 (an input) is never idle. -/
theorem liveAt1_2 : ∀ t : Fin cfg1.N, cfg1.idle 2 (grid1.coords t) = false := by decide +kernel
/-- Window 3 (an input) is never idle. -/
theorem liveAt1_3 : ∀ t : Fin cfg1.N, cfg1.idle 3 (grid1.coords t) = false := by decide +kernel
/-- Window 4 (an input) is never idle. -/
theorem liveAt1_4 : ∀ t : Fin cfg1.N, cfg1.idle 4 (grid1.coords t) = false := by decide +kernel
/-- At a reset point the output window is idle: nothing is stored into it, -/
theorem idleAt1_5_A : ∀ t : Fin cfg1.N, cond1_0 (grid1.coords t) → ¬cond1_1 (grid1.coords t) → cfg1.idle 5 (grid1.coords t) = true := by decide +kernel
/-- and its block is not written back there. -/
theorem noFlush1_5_A : ∀ t : Fin cfg1.N, cond1_0 (grid1.coords t) → ¬cond1_1 (grid1.coords t) → (cfg1.win 5).flush t = false := by decide +kernel
/-- At a middle point (neither reset nor final store) the output window is idle, -/
theorem idleAt1_5_B : ∀ t : Fin cfg1.N, ¬cond1_0 (grid1.coords t) → ¬cond1_1 (grid1.coords t) → cfg1.idle 5 (grid1.coords t) = true := by decide +kernel
/-- and its block is not written back there. -/
theorem noFlush1_5_B : ∀ t : Fin cfg1.N, ¬cond1_0 (grid1.coords t) → ¬cond1_1 (grid1.coords t) → (cfg1.win 5).flush t = false := by decide +kernel
/-- At a final-store point the output window is live: the body stores the whole block. -/
theorem liveAt1_5_C : ∀ t : Fin cfg1.N, ¬cond1_0 (grid1.coords t) → cond1_1 (grid1.coords t) → cfg1.idle 5 (grid1.coords t) = false := by decide +kernel

/-! ## The memrefs the body is called with -/

/-- One staging buffer of the output window, through which its contents are stated (the choice does not matter). -/
abbrev VO1_5 : View sig .tc .vmem S1x1024x768 .f32 := (Memref.whole cc1_stg5_0 : Memref sig .tc .vmem S1x1024x768 .f32).view
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x768 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x768 .f32 := win1_5.stage (cfg1.slots t 5)
abbrev hs1_5 (t : Fin cfg1.N) : (ms1_5 t).IsWhole := hstage1_5 ((cfg1.slots t 5).cast nbuf1_5)
/-- The carried buffers: the running row maximum, the running row sum, the unnormalised accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x768 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x768 .f32 := scM1_2.view

/-! ## The region invariant, opened -/

/-- The first region's eighteen staging buffers, each whole at some contents: this region never touches them. -/
def Stg0 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f))

/-- The region invariant as the first region's staging buffers, the three carried buffers each owned at some
    contents, and the generator register at some state. -/
theorem PhiA1_eq (c : Dev nD) :
    (Pipeline.ΦA spec1 c : sProp 𝕄)
      = iprop((Stg0 (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; unfold Stg0
  refine BI.equiv_iff.mp ⟨?_, ?_⟩
  · change (_ : sProp 𝕄) ⊢ _
    iintro ⟨⟨A0, A1, A2, A3, A4, A5, A6, A7, A8, A9, A10, A11, A12, A13, A14, A15, A16, A17, S0, S1, S2⟩, Hg⟩
    isplitr [Hg]
    · isplitr [S0 S1 S2]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [A11]; · iexact A11
        isplitl [A12]; · iexact A12
        isplitl [A13]; · iexact A13
        isplitl [A14]; · iexact A14
        isplitl [A15]; · iexact A15
        isplitl [A16]; · iexact A16
        iexact A17
      isplitl [S0]; · iexact S0
      isplitl [S1]; · iexact S1
      iexact S2
    iexact Hg
  · change (_ : sProp 𝕄) ⊢ _
    iintro ⟨⟨⟨A0, A1, A2, A3, A4, A5, A6, A7, A8, A9, A10, A11, A12, A13, A14, A15, A16, A17⟩, S0, S1, S2⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      isplitl [A15]; · iexact A15
      isplitl [A16]; · iexact A16
      isplitl [A17]; · iexact A17
      isplitl [S0]; · iexact S0
      isplitl [S1]; · iexact S1
      iexact S2
    iexact Hg

end Region1

end Cert.KernelIdeal.Hand
end
-- ==== Proof.KernelIdealR1RunA.lean ====
import proofs.«154501_j39676907887142_2_alg».proof.Proof.KernelIdealR1Runs

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention sweep's body, case A of its two conditionals -/

section Region1

set_option maxHeartbeats 4000000 in
/-- A RESET POINT (last grid coordinate 0: the reset taken, the final store not). On whole staging buffers — the five
    inputs at their blocks, the output buffer at any contents handed back untouched, the three carried buffers at
    anything — the body runs to the end leaving the inputs as they were and each carried buffer with the pieces its
    stores wrote (first the reset value, then the first tile's update). The pieces are the witness the run finds. -/
noncomputable def kernelRun1_A (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) :
    Σ' (L5 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (xi5 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1_attn_kernel_eq_skeleton]; unfold cc1_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Region1

end Cert.KernelIdeal.Hand
end
-- ==== Proof.KernelIdealR1RunB.lean ====
import proofs.«154501_j39676907887142_2_alg».proof.Proof.KernelIdealR1RunA

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention sweep's body, case B of its two conditionals -/

section Region1

set_option maxHeartbeats 4000000 in
/-- A MIDDLE POINT (last grid coordinate 1 or 2: neither conditional taken). On whole staging buffers — the five inputs
    at their blocks, the output buffer at any contents handed back untouched, the three carried buffers at what the
    point before left — the body runs to the end leaving the inputs as they were and each carried buffer with the
    pieces its stores wrote (this tile's update of the running maximum, sum and accumulator). -/
noncomputable def kernelRun1_B (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) :
    Σ' (L5 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (xi5 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1_attn_kernel_eq_skeleton]; unfold cc1_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Region1

end Cert.KernelIdeal.Hand
end
-- ==== Proof.KernelIdealR1RunC.lean ====
import proofs.«154501_j39676907887142_2_alg».proof.Proof.KernelIdealR1RunB

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention sweep's body, case C of its two conditionals -/

section Region1

set_option maxHeartbeats 4000000 in
/-- A FINAL-STORE POINT (last grid coordinate 3: the reset not taken, the final store taken). On whole staging buffers —
    the five inputs at their blocks, the output buffer at anything, the three carried buffers at what the point before
    left — the body runs to the end leaving the inputs as they were, each carried buffer with the pieces its stores
    wrote, and the output buffer with the one piece of the normalised accumulator. -/
noncomputable def kernelRun1_C (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) :
    Σ' (L5 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_attn_kernel_eq_skeleton]; unfold cc1_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Region1

end Cert.KernelIdeal.Hand
end
-- ==== Proof.KernelIdealR1.lean ====
import proofs.«154501_j39676907887142_2_alg».proof.Proof.KernelIdealR1RunC

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention sweep: what every point leaves, the proof data, the body obligation

Four consecutive points of the grid (one batch, one query tile, the four key/value tiles) form one sweep: the
first resets the running maximum to minus infinity and the running sum and accumulator to zero before updating them
with its tile, the next two update them, the last updates them and stores the accumulator divided by the sum into
the output block, which the pipeline then writes back. The output window is idle at the first three points. -/

section Region1
variable (V : (c : Dev nD) → (b : Ref sig .tc) → Buf (Elt F) ((c : Thread nD τ).loc b))

/-! ## What a reset point leaves -/

/-- What the output buffer holds after a reset point as far as the body is concerned: nothing is stored (a placeholder nothing consults — the window is idle there and not written back). -/
def out1_A_5 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) : Vec F S1x1024x768 .f32 :=
  VO1_5.read (Elt F) (VO1_5.writes (Elt F) VO1_5.junk (kernelRun1_A c i arg3 harg3 arg4 harg4 arg5 harg5 arg6 harg6 arg7 harg7 arg8 harg8 arg9 harg9 arg10 harg10 arg11 harg11 hc0 hc1 x0 x1 x2 x3 x4).1)

/-- The stores of a reset point into carried buffer 0 cover it. -/
theorem scover1_A_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.1 S1024x1.size (by sl_kernel_rfl) y

/-- What carried buffer 0 holds after a reset point: its pieces read back. -/
def sout1_A_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) : Vec F S1024x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3 x4).2.1)

/-- The stores of a reset point into carried buffer 1 cover it. -/
theorem scover1_A_1 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.1 S1024x1.size (by sl_kernel_rfl) y

/-- What carried buffer 1 holds after a reset point: its pieces read back. -/
def sout1_A_1 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3 x4).2.2.1)

/-- The stores of a reset point into carried buffer 2 cover it. -/
theorem scover1_A_2 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (y : S1024x768.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.2.1 S1024x768.size (by sl_kernel_rfl) y

/-- What carried buffer 2 holds after a reset point: its pieces read back. -/
def sout1_A_2 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) : Vec F S1024x768 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3 x4).2.2.2.1)

/-! ## What a middle point leaves -/

/-- What the output buffer holds after a middle point as far as the body is concerned: nothing is stored (a placeholder nothing consults — the window is idle there and not written back). -/
def out1_B_5 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1x1024x768 .f32 :=
  VO1_5.read (Elt F) (VO1_5.writes (Elt F) VO1_5.junk (kernelRun1_B c i arg3 harg3 arg4 harg4 arg5 harg5 arg6 harg6 arg7 harg7 arg8 harg8 arg9 harg9 arg10 harg10 arg11 harg11 hc0 hc1 x0 x1 x2 x3 x4 xs0 xs1 xs2).1)

/-- The stores of a middle point into carried buffer 0 cover it. -/
theorem scover1_B_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What carried buffer 0 holds after a middle point: its pieces read back. -/
def sout1_B_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 x4 xs0 xs1 xs2).2.1)

/-- The stores of a middle point into carried buffer 1 cover it. -/
theorem scover1_B_1 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What carried buffer 1 holds after a middle point: its pieces read back. -/
def sout1_B_1 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 x4 xs0 xs1 xs2).2.2.1)

/-- The stores of a middle point into carried buffer 2 cover it. -/
theorem scover1_B_2 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) (y : S1024x768.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1 S1024x768.size (by sl_kernel_rfl) y

/-- What carried buffer 2 holds after a middle point: its pieces read back. -/
def sout1_B_2 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1024x768 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1)

/-! ## What a final-store point leaves -/

/-- At a final-store point the one store into the output buffer covers it. -/
theorem cover1_C_5 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) (y : S1x1024x768.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).1 S1x1024x768.size (by sl_kernel_rfl) y

/-- What the output buffer holds after a final-store point: the stored block. -/
def out1_C_5 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1x1024x768 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 hc0 hc1 x0 x1 x2 x3 x4 xs0 xs1 xs2).1)

/-- The stores of a final-store point into carried buffer 0 cover it. -/
theorem scover1_C_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) (y : S1024x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What carried buffer 0 holds after a final-store point: its pieces read back. -/
def sout1_C_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 xs0 xs1 xs2).2.1)

/-- The stores of a final-store point into carried buffer 1 cover it. -/
theorem scover1_C_1 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) (y : S1024x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What carried buffer 1 holds after a final-store point: its pieces read back. -/
def sout1_C_1 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 x4 xs0 xs1 xs2).2.2.1)

/-- The stores of a final-store point into carried buffer 2 cover it. -/
theorem scover1_C_2 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) (y : S1024x768.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1 S1024x768.size (by sl_kernel_rfl) y

/-- What carried buffer 2 holds after a final-store point: its pieces read back. -/
def sout1_C_2 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) : Vec F S1024x768 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1)

/-! ## What the output buffer and the carried buffers hold after each point -/

/-- THE SWEEP. After the body at position `n`: the output window's staging buffer, then the running maximum, the
    running sum and the accumulator. A reset point starts afresh from the point's input blocks; a middle or
    final-store point updates what the point before left in the three carried buffers. -/
def outsAt1 (c : Dev nD) : (n : ℕ) → n < cfg1.N → Vec F S1x1024x768 .f32 × Vec F S1024x1 .f32 × Vec F S1024x1 .f32 × Vec F S1024x768 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a reset point. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a middle point: over what the point before left. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a final-store point: over what the point before left. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- Before position `n`: at the region's entry the class's invariant (every scoped buffer that is no staging buffer
    of this region at anything); afterwards the first region's staging buffers still at anything, the three carried
    buffers at what the point before left, and the generator register at some state. -/
def PhiS1 (c : Dev nD) : (n : ℕ) → n ≤ cfg1.N → sProp 𝕄
  | 0, _ => Pipeline.ΦA spec1 c
  | n + 1, hn => iprop((Stg0 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((Stg0 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop((Stg0 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

/-- The proof data of this region on core `c`: the arrays as the region finds them; after the body each input's
    buffer at its block and the output's at `outsAt1`'s first component; the invariant `PhiS1`; full shares;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the closed forms of the two conditions say which
    case the point is in; that case's run applies. The invariant hands the body the three carried buffers at what the
    point before left (at anything at the region's first point, where the body resets them before reading) and takes
    them back at this point's contents, the stores of every case covering each of them; the first region's staging
    buffers and the generator register pass through untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HG, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HG HS0 HS1 HS2 Hg]
        · isplitr [Hg]
          swap; · iexact Hg
          isplitl [HG]; · iexact HG
          isplitl [HS0]
          · unfold owns; iexists _; isplitr
            swap; · iexact HS0
            ipureintro; exact View.read_writes_of_cover _ _ _ _ _ (scover1_A_0 _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 _ _ _ _ _ _ _ _ _ _ _ _ _ _ _ _ _ _ _ _ _ _ _ _ _ _ _)
          unfold owns; iexists _; isplitr
          swap; · iexact HS2
          ipureintro; exact View.read_writes_of_cover _ _ _ _ _ (scover1_A_2 _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HG, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [HG HS0 HS1 HS2 Hg]
        · isplitr [Hg]
          swap; · iexact Hg
          isplitl [HG]; · iexact HG
          isplitl [HS0]
          · unfold owns; iexists _; isplitr
            swap; · iexact HS0
            ipureintro; exact View.read_writes_of_cover _ _ _ _ _ (scover1_A_0 _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 _ _ _ _ _ _ _ _ _ _ _ _ _ _ _ _ _ _ _ _ _ _ _ _ _ _ _)
          unfold owns; iexists _; isplitr
          swap; · iexact HS2
          ipureintro; exact View.read_writes_of_cover _ _ _ _ _ (scover1_A_2 _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0 sout1_C_1 sout1_C_2; (try dsimp only)
      by_cases hz : t.val = 0
      · exfalso; omega
      · rw [PhiS1_castSucc V c t, PhiS1_pos V c _ _ hz]
        iintro ⟨⟨⟨HG, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [HG HS0 HS1 HS2 Hg]
        · isplitr [Hg]
          swap; · iexact Hg
          isplitl [HG]; · iexact HG
          isplitl [HS0]
          · unfold owns; iexists _; isplitr
            swap; · iexact HS0
            ipureintro; exact View.read_writes_of_cover _ _ _ _ _ (scover1_C_0 _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_C_2 _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 _ _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨HG, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HG HS0 HS1 HS2 Hg]
        · isplitr [Hg]
          swap; · iexact Hg
          isplitl [HG]; · iexact HG
          isplitl [HS0]
          · unfold owns; iexists _; isplitr
            swap; · iexact HS0
            ipureintro; exact View.read_writes_of_cover _ _ _ _ _ (scover1_B_0 _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_B_2 _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried buffers' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HG, HS0, HS1, HS2⟩, Hg⟩
  isplitr [Hg]
  swap; · iexact Hg
  isplitl [HG]; · iexact HG
  isplitl [HS0]; · iexists _; iexact HS0
  isplitl [HS1]; · iexists _; iexact HS1
  iexists _; iexact HS2

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Hand
end
-- ==== Proof.KernelIdealFrame.lean ====
/-
  The kernel program's run with the second region's proof data supplied: from any launch memory every weakly fair
  execution terminates without a fault, the result buffer ends at what the second region's write-backs leave, and every
  argument array ends as launched.
-/
import proofs.«154501_j39676907887142_2_alg».proof.Proof.KernelIdealRun
import proofs.«154501_j39676907887142_2_alg».proof.Proof.KernelIdealR1

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat BodyObligation)

variable {F : FTy → Type} [FloatOps F]

/-- The second region's proof data, its body obligation and its invariant's two ends, as the run takes them. -/
def r1data : R1Data (F := F) where
  dat1 := fun V c => dat1 V c
  hA := fun V c w => A_eq1 V c w
  hq := fun _ _ _ => rfl
  howed := fun _ _ _ => rfl
  hrec := fun _ _ _ => rfl
  hbody := fun V c => body_obligation1 V c
  hin := fun V c => hin1 V c
  hout := fun V c => hout1 V c

/-- The result buffer after the run, on core `c`: the second region's result window's array after all 64 grid points. -/
theorem result_eq (m : (ℓ : Loc nD τ sig) → Buf (Elt F) ℓ) (c : Dev nD) :
    W11 m r1data c (Proc.devRef .tc main_v11) = (dat1 (V10r m) c).arrAt 5 cfg1.N :=
  W11_arr m r1data c 5

/-- The run. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v11) = (dat1 (V10r m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m c), (h c).2⟩) (run_main m ρ r1data)

/-- The frame: every argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run m ρ)

end Cert.KernelIdeal.Hand
end
-- ==== Proof.RefFrame.lean ====
/-
  The reference program's frame: its run, read back as the composition of its host operations, ends with every
  argument array as launched.
-/
import proofs.«154501_j39676907887142_2_alg».proof.Defs
import proofs.«154501_j39676907887142_2_alg».proof.Proof.Gen.ReferenceIdeal.Run
import proofs.«154501_j39676907887142_2_alg».proof.Proof.Gen.ReferenceIdeal.Read
import proofs.«154501_j39676907887142_2_alg».proof.Proof.Gen.Pre_finite_inputs

noncomputable section

open Idealize.ShloMosaic Idealize.SL.Sem

namespace Cert.Proof.Ref

theorem frame_ri : Cert.frame_ReferenceIdeal := fun m ρ _ =>
  (θ_run Cert.ReferenceIdeal.defs _ _).mono (fun _ h c => (h c).2) (Cert.ReferenceIdeal.Value.run (F := Ideal) m ρ)

end Cert.Proof.Ref

end
-- ==== Proof.LibOnlineSoftmax.lean ====
import Mathlib
import Idealize.ShloMosaic.PureOps.Ideal

/-!
# The online (tile-by-tile) softmax on the extended reals

Scores and weights are real numbers read as extended reals; exp is the extended exponential with
exp ⊥ = 0, and the quotient is the extended quotient, which on a real numerator and a nonzero real
denominator is the real quotient.

The scores come in n ≥ 1 tiles, each indexed by a finite nonempty type κ. The online recurrence
keeps a state (m, l, acc), starting from (⊥, 0, 0), and for each tile with scores s and weights w
forms r = the fold of max from ⊥ of the tile's scores, m' = max m r, a = exp (m - m'),
p k = exp (s k - m'), l' = a * l + ∑ k, p k and acc' = a * acc + ∑ k, p k * w k.

With M the real maximum of all scores, L = ∑ j, ∑ k, exp (s j k - M) > 0 and
A = ∑ j, ∑ k, exp (s j k - M) * w j k, this file proves:

* (1) after all n tiles the state is (M, L, A), by induction on the number of tiles; the first tile
  starts from ⊥, where max ⊥ r = r, ⊥ - r = ⊥, exp ⊥ = 0 and 0 * 0 = 0, and every later tile
  rescales the two sums by exp (M_old - M_new), using
  exp (x - M_old) * exp (M_old - M_new) = exp (x - M_new);
* (2) the extended quotient of A by L is the real quotient A / L;
* (3) the plain softmax-weighted sum, ∑ (e / L') * w with M' = max ⊥ (fold of max from ⊥ of all
  scores), e = exp (s - M') and L' = 0 + ∑ e, is A / L as well, whether it is summed over the pairs
  (tile, position) or over one flat index type in bijection with those pairs;
* (4) hence the online quotient acc_n / l_n equals the plain softmax-weighted sum.

Each of these is also given for a weight that is a product of two real factors d * v, accumulated
as (p * d) * v on the online side and ((e / L') * d) * v on the plain side; the product of extended
reals is associative, so this reduces to the weight d * v.
-/

open scoped BigOperators
open Idealize.ShloMosaic

noncomputable section

namespace Cert.Lib.OnlineSoftmax

/-! ### Coercion of finite sums and of maxima -/

/-- The coercion of a finite real sum is the sum of the coercions. -/
theorem coe_finset_sum {α : Type*} (t : Finset α) (f : α → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion of a maximum of two reals is the maximum of the coercions. -/
theorem coe_max' (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

/-- A fold of max from the bottom over a nonempty finite set of real values is the coercion of
    the real maximum. -/
theorem fold_max_coe {α : Type*} (t : Finset α) (h : t.Nonempty) (f : α → ℝ) :
    t.fold max ⊥ (fun a => (f a : EReal)) = ((t.sup' h f : ℝ) : EReal) := by
  classical
  induction h using Finset.Nonempty.cons_induction with
  | singleton a => simp
  | cons a t ha ht ih =>
    rw [Finset.fold_cons, ih, Finset.sup'_cons ht, coe_max']

/-! ### The online recurrence -/

section Defs

variable {κ : Type*} [Fintype κ]

/-- One step of the online (tile-by-tile) softmax recurrence on the extended reals. From the state
    (m, l, acc) (running maximum, running denominator, running weighted numerator) and a tile with
    scores s and weights w over the finite index type κ, with r the fold of max from ⊥ of the tile's
    scores, the new state is m' = max m r, l' = exp (m - m') * l + ∑ k, exp (s k - m'),
    acc' = exp (m - m') * acc + ∑ k, exp (s k - m') * w k. -/
def step (s w : κ → EReal) (st : EReal × EReal × EReal) : EReal × EReal × EReal :=
  let r := Finset.univ.fold max ⊥ s
  let m' := max st.1 r
  let a := Ideal.exp (st.1 - m')
  let p := fun k => Ideal.exp (s k - m')
  (m', a * st.2.1 + ∑ k, p k, a * st.2.2 + ∑ k, p k * w k)

/-- The step written out without local definitions. -/
theorem step_def (s w : κ → EReal) (m l acc : EReal) :
    step s w (m, l, acc) =
      (max m (Finset.univ.fold max ⊥ s),
       Ideal.exp (m - max m (Finset.univ.fold max ⊥ s)) * l
         + ∑ k, Ideal.exp (s k - max m (Finset.univ.fold max ⊥ s)),
       Ideal.exp (m - max m (Finset.univ.fold max ⊥ s)) * acc
         + ∑ k, Ideal.exp (s k - max m (Finset.univ.fold max ⊥ s)) * w k) := rfl

/-- The run of the online recurrence over n tiles, as a left fold over Fin n (tile 0 first) of
    the step, from the initial state (⊥, 0, 0). -/
def run {n : ℕ} (s w : Fin n → κ → EReal) : EReal × EReal × EReal :=
  Fin.foldl n (fun st j => step (s j) (w j) st) (⊥, 0, 0)

/-- The run over no tile is the initial state. -/
theorem run_zero (s w : Fin 0 → κ → EReal) : run s w = (⊥, 0, 0) := by
  simp [run]

/-- The run over n + 1 tiles is the step on the last tile after the run over the first n. -/
theorem run_succ_last {n : ℕ} (s w : Fin (n + 1) → κ → EReal) :
    run s w = step (s (Fin.last n)) (w (Fin.last n))
      (run (fun j => s j.castSucc) (fun j => w j.castSucc)) := by
  simp [run, Fin.foldl_succ_last]

/-- The run as a left fold over the list of all tile indices in increasing order. -/
theorem run_eq_list_foldl {n : ℕ} (s w : Fin n → κ → EReal) :
    run s w = (List.finRange n).foldl (fun st j => step (s j) (w j) st) (⊥, 0, 0) := by
  rw [run, Fin.foldl_eq_foldl_finRange]

/-- The same recurrence over tiles indexed by the natural numbers: the state after j tiles. -/
def runNat (s w : ℕ → κ → EReal) : ℕ → EReal × EReal × EReal
  | 0 => (⊥, 0, 0)
  | j + 1 => step (s j) (w j) (runNat s w j)

/-- The run over Fin n is the state after n tiles of any natural-number-indexed families that
    agree with the given ones below n. -/
theorem run_eq_runNat {n : ℕ} (s w : Fin n → κ → EReal) (s' w' : ℕ → κ → EReal)
    (hs : ∀ j : Fin n, s' j = s j) (hw : ∀ j : Fin n, w' j = w j) :
    run s w = runNat s' w' n := by
  induction n with
  | zero => simp [run, runNat]
  | succ n ih =>
    rw [run_succ_last, runNat,
      ih (fun j => s j.castSucc) (fun j => w j.castSucc) (fun j => hs j.castSucc)
        (fun j => hw j.castSucc)]
    have h1 := hs (Fin.last n)
    have h2 := hw (Fin.last n)
    simp only [Fin.val_last] at h1 h2
    rw [h1, h2]

end Defs

/-! ### The real quantities -/

section Real

variable {κ : Type*} [Fintype κ]

/-- The denominator relative to a reference point c: the sum over all tiles and positions of
    exp (s j k - c). -/
def lsum {n : ℕ} (s : Fin n → κ → ℝ) (c : ℝ) : ℝ := ∑ j, ∑ k, Real.exp (s j k - c)

/-- The weighted numerator relative to a reference point c: the sum over all tiles and positions
    of exp (s j k - c) * w j k. -/
def asum {n : ℕ} (s w : Fin n → κ → ℝ) (c : ℝ) : ℝ := ∑ j, ∑ k, Real.exp (s j k - c) * w j k

/-- Moving the reference point of the denominator from c to c' multiplies it by exp (c - c'). -/
theorem lsum_rescale {n : ℕ} (s : Fin n → κ → ℝ) (c c' : ℝ) :
    Real.exp (c - c') * lsum s c = lsum s c' := by
  unfold lsum
  rw [Finset.mul_sum]
  refine Finset.sum_congr rfl fun j _ => ?_
  rw [Finset.mul_sum]
  refine Finset.sum_congr rfl fun k _ => ?_
  rw [← Real.exp_add]
  congr 1
  ring

/-- Moving the reference point of the numerator from c to c' multiplies it by exp (c - c'). -/
theorem asum_rescale {n : ℕ} (s w : Fin n → κ → ℝ) (c c' : ℝ) :
    Real.exp (c - c') * asum s w c = asum s w c' := by
  unfold asum
  rw [Finset.mul_sum]
  refine Finset.sum_congr rfl fun j _ => ?_
  rw [Finset.mul_sum]
  refine Finset.sum_congr rfl fun k _ => ?_
  rw [← mul_assoc, ← Real.exp_add]
  congr 2
  ring

/-- The denominator over n + 1 tiles splits into the first n tiles and the last one. -/
theorem lsum_succ {n : ℕ} (s : Fin (n + 1) → κ → ℝ) (c : ℝ) :
    lsum s c = lsum (fun j => s j.castSucc) c + ∑ k, Real.exp (s (Fin.last n) k - c) := by
  unfold lsum
  rw [Fin.sum_univ_castSucc]

/-- The numerator over n + 1 tiles splits into the first n tiles and the last one. -/
theorem asum_succ {n : ℕ} (s w : Fin (n + 1) → κ → ℝ) (c : ℝ) :
    asum s w c = asum (fun j => s j.castSucc) (fun j => w j.castSucc) c
      + ∑ k, Real.exp (s (Fin.last n) k - c) * w (Fin.last n) k := by
  unfold asum
  rw [Fin.sum_univ_castSucc]

variable [Nonempty κ]

/-- The denominator is positive when there is at least one tile. -/
theorem lsum_pos {n : ℕ} [NeZero n] (s : Fin n → κ → ℝ) (c : ℝ) : 0 < lsum s c := by
  unfold lsum
  haveI : Nonempty (Fin n) := ⟨⟨0, Nat.pos_of_ne_zero (NeZero.ne n)⟩⟩
  exact Finset.sum_pos (fun j _ => Finset.sum_pos (fun k _ => Real.exp_pos _) Finset.univ_nonempty)
    Finset.univ_nonempty

/-- The real maximum of all the scores s j k over all tiles j and positions k. -/
def gmax {n : ℕ} [NeZero n] (s : Fin n → κ → ℝ) : ℝ :=
  haveI : Nonempty (Fin n) := ⟨⟨0, Nat.pos_of_ne_zero (NeZero.ne n)⟩⟩
  Finset.univ.sup' Finset.univ_nonempty (fun jk : Fin n × κ => s jk.1 jk.2)

/-- Every score is at most the maximum. -/
theorem le_gmax {n : ℕ} [NeZero n] (s : Fin n → κ → ℝ) (j : Fin n) (k : κ) : s j k ≤ gmax s :=
  Finset.le_sup' (fun jk : Fin n × κ => s jk.1 jk.2) (Finset.mem_univ (j, k))

/-- The maximum is attained. -/
theorem exists_eq_gmax {n : ℕ} [NeZero n] (s : Fin n → κ → ℝ) : ∃ j k, s j k = gmax s := by
  haveI : Nonempty (Fin n) := ⟨⟨0, Nat.pos_of_ne_zero (NeZero.ne n)⟩⟩
  obtain ⟨jk, -, h⟩ := Finset.exists_mem_eq_sup' (Finset.univ_nonempty (α := Fin n × κ))
    (fun jk : Fin n × κ => s jk.1 jk.2)
  exact ⟨jk.1, jk.2, h.symm⟩

/-- A real that bounds every score and is one of them is the maximum. -/
theorem gmax_eq_of {n : ℕ} [NeZero n] (s : Fin n → κ → ℝ) (M : ℝ) (hle : ∀ j k, s j k ≤ M)
    (hex : ∃ j k, s j k = M) : gmax s = M := by
  apply le_antisymm
  · exact Finset.sup'_le _ _ fun jk _ => hle jk.1 jk.2
  · obtain ⟨j, k, h⟩ := hex
    exact h ▸ le_gmax s j k

/-- The maximum over one tile is that tile's maximum. -/
theorem gmax_one (s : Fin 1 → κ → ℝ) :
    gmax s = Finset.univ.sup' Finset.univ_nonempty (s 0) := by
  apply gmax_eq_of
  · intro j k
    rw [Subsingleton.elim j 0]
    exact Finset.le_sup' (s 0) (Finset.mem_univ k)
  · obtain ⟨k, -, h⟩ := Finset.exists_mem_eq_sup' (Finset.univ_nonempty (α := κ)) (s 0)
    exact ⟨0, k, h.symm⟩

/-- The maximum over n + 2 tiles is the larger of the maximum over the first n + 1 tiles and the
    last tile's maximum. -/
theorem gmax_succ {n : ℕ} (s : Fin (n + 1 + 1) → κ → ℝ) :
    gmax s = max (gmax (fun j : Fin (n + 1) => s j.castSucc))
      (Finset.univ.sup' Finset.univ_nonempty (s (Fin.last (n + 1)))) := by
  apply gmax_eq_of
  · intro j k
    induction j using Fin.lastCases with
    | last => exact le_max_of_le_right (Finset.le_sup' (s (Fin.last (n + 1))) (Finset.mem_univ k))
    | cast i => exact le_max_of_le_left (le_gmax (fun j : Fin (n + 1) => s j.castSucc) i k)
  · rcases le_total (gmax (fun j : Fin (n + 1) => s j.castSucc))
      (Finset.univ.sup' Finset.univ_nonempty (s (Fin.last (n + 1)))) with h | h
    · rw [max_eq_right h]
      obtain ⟨k, -, hk⟩ := Finset.exists_mem_eq_sup' (Finset.univ_nonempty (α := κ))
        (s (Fin.last (n + 1)))
      exact ⟨Fin.last (n + 1), k, hk.symm⟩
    · rw [max_eq_left h]
      obtain ⟨i, k, hk⟩ := exists_eq_gmax (fun j : Fin (n + 1) => s j.castSucc)
      exact ⟨i.castSucc, k, hk⟩

end Real

/-! ### The invariant of the online recurrence -/

section Invariant

variable {κ : Type*} [Fintype κ] [Nonempty κ]

/-- The first step, from the initial state (⊥, 0, 0): since max ⊥ r = r, ⊥ - r = ⊥, exp ⊥ = 0 and
    0 * 0 = 0, the state after one tile is its maximum r, ∑ k, exp (s k - r) and
    ∑ k, exp (s k - r) * w k. -/
theorem step_init (s w : κ → ℝ) :
    step (fun k => (s k : EReal)) (fun k => (w k : EReal)) (⊥, 0, 0) =
      (((Finset.univ.sup' Finset.univ_nonempty s : ℝ) : EReal),
       ((∑ k, Real.exp (s k - Finset.univ.sup' Finset.univ_nonempty s) : ℝ) : EReal),
       ((∑ k, Real.exp (s k - Finset.univ.sup' Finset.univ_nonempty s) * w k : ℝ) : EReal)) := by
  rw [step_def, fold_max_coe _ Finset.univ_nonempty, max_eq_right bot_le, EReal.bot_sub,
    Ideal.exp_bot, zero_mul, zero_add, zero_add, coe_finset_sum, coe_finset_sum]
  simp only [EReal.coe_mul, EReal.coe_sub, Ideal.exp_coe, ← EReal.coe_sub]

/-- A step from a state of real numbers (m, l, a): with m' = max m r, r the tile's real maximum,
    the new state is m', exp (m - m') * l + ∑ k, exp (s k - m') and
    exp (m - m') * a + ∑ k, exp (s k - m') * w k, all real. -/
theorem step_coe (s w : κ → ℝ) (m l a : ℝ) :
    step (fun k => (s k : EReal)) (fun k => (w k : EReal)) ((m : EReal), (l : EReal), (a : EReal)) =
      (((max m (Finset.univ.sup' Finset.univ_nonempty s) : ℝ) : EReal),
       ((Real.exp (m - max m (Finset.univ.sup' Finset.univ_nonempty s)) * l
          + ∑ k, Real.exp (s k - max m (Finset.univ.sup' Finset.univ_nonempty s)) : ℝ) : EReal),
       ((Real.exp (m - max m (Finset.univ.sup' Finset.univ_nonempty s)) * a
          + ∑ k, Real.exp (s k - max m (Finset.univ.sup' Finset.univ_nonempty s)) * w k : ℝ)
            : EReal)) := by
  rw [step_def, fold_max_coe _ Finset.univ_nonempty, ← coe_max', EReal.coe_add, EReal.coe_add,
    coe_finset_sum, coe_finset_sum]
  simp only [EReal.coe_mul, Ideal.exp_coe, ← EReal.coe_sub]

/-- The invariant, for n + 1 tiles: the run of the online recurrence ends in the state
    (M, L, A), where M is the real maximum of all scores, L = ∑ j, ∑ k, exp (s j k - M) and
    A = ∑ j, ∑ k, exp (s j k - M) * w j k. By induction on n: the first tile starts from ⊥;
    each later tile rescales the sums by exp (M_old - M_new). -/
theorem run_coe_succ (n : ℕ) (s w : Fin (n + 1) → κ → ℝ) :
    run (fun j k => (s j k : EReal)) (fun j k => (w j k : EReal)) =
      (((gmax s : ℝ) : EReal), ((lsum s (gmax s) : ℝ) : EReal),
        ((asum s w (gmax s) : ℝ) : EReal)) := by
  induction n with
  | zero =>
    rw [run_succ_last, run_zero, step_init, gmax_one]
    simp [lsum, asum]
  | succ n ih =>
    rw [run_succ_last, ih (fun j => s j.castSucc) (fun j => w j.castSucc), step_coe,
      ← gmax_succ s, lsum_rescale, asum_rescale, ← lsum_succ, ← asum_succ]

/-- (1) The invariant, for n ≥ 1 tiles: the run of the online recurrence ends in the state
    (M, L, A) of real numbers, M the maximum of all scores, L the sum of exp (s j k - M) and A the
    sum of exp (s j k - M) * w j k over all tiles and positions. -/
theorem run_coe {n : ℕ} [NeZero n] (s w : Fin n → κ → ℝ) :
    run (fun j k => (s j k : EReal)) (fun j k => (w j k : EReal)) =
      (((gmax s : ℝ) : EReal), ((lsum s (gmax s) : ℝ) : EReal),
        ((asum s w (gmax s) : ℝ) : EReal)) := by
  obtain ⟨m, rfl⟩ := Nat.exists_eq_succ_of_ne_zero (NeZero.ne n)
  exact run_coe_succ m s w

/-- (1) for tiles indexed by the natural numbers: the state after n ≥ 1 tiles is (M, L, A) taken
    over the first n tiles. -/
theorem runNat_coe (s w : ℕ → κ → ℝ) (n : ℕ) [NeZero n] :
    runNat (fun j k => (s j k : EReal)) (fun j k => (w j k : EReal)) n =
      (((gmax (fun j : Fin n => s j) : ℝ) : EReal),
        ((lsum (fun j : Fin n => s j) (gmax (fun j : Fin n => s j)) : ℝ) : EReal),
        ((asum (fun j : Fin n => s j) (fun j : Fin n => w j) (gmax (fun j : Fin n => s j)) : ℝ)
          : EReal)) := by
  rw [← run_coe (fun j : Fin n => s j) (fun j : Fin n => w j)]
  exact (run_eq_runNat _ _ _ _ (fun _ => rfl) (fun _ => rfl)).symm

end Invariant

/-! ### The quotient, and the plain softmax side -/

section Reference

/-- (2) The quotient of two reals with nonzero denominator, on the extended reals, is the
    coercion of the real quotient. -/
theorem div_coe_coe (A L : ℝ) (hL : L ≠ 0) :
    Ideal.div (A : EReal) (L : EReal) = ((A / L : ℝ) : EReal) := by
  rw [Ideal.div_coe hL, ← EReal.coe_mul, mul_one_div]

/-- On the extended reals, x * d * v = x * (d * v) for real d, v, the product taken in ℝ. -/
theorem mul_coe_mul_coe (x : EReal) (d v : ℝ) :
    x * (d : EReal) * (v : EReal) = x * ((d * v : ℝ) : EReal) := by
  rw [mul_assoc, ← EReal.coe_mul]

variable {ι : Type*} [Fintype ι]

/-- The plain softmax-weighted sum on the extended reals over one flat index type: with
    M' = max ⊥ (fold of max from ⊥ of the scores), e i = exp (s i - M') and L' = 0 + ∑ i, e i,
    the value ∑ i, (e i / L') * w i. -/
def softmaxRef (s w : ι → EReal) : EReal :=
  let M' := max ⊥ (Finset.univ.fold max ⊥ s)
  let e := fun i => Ideal.exp (s i - M')
  let L' := 0 + ∑ i, e i
  ∑ i, Ideal.div (e i) L' * w i

/-- The plain softmax-weighted sum written out without local definitions. -/
theorem softmaxRef_def (s w : ι → EReal) :
    softmaxRef s w =
      ∑ i, Ideal.div (Ideal.exp (s i - max ⊥ (Finset.univ.fold max ⊥ s)))
        (0 + ∑ i', Ideal.exp (s i' - max ⊥ (Finset.univ.fold max ⊥ s))) * w i := rfl

/-- The plain softmax-weighted sum with a weight that is a product of two factors:
    ∑ i, ((e i / L') * d i) * v i. -/
def softmaxRef2 (s d v : ι → EReal) : EReal :=
  let M' := max ⊥ (Finset.univ.fold max ⊥ s)
  let e := fun i => Ideal.exp (s i - M')
  let L' := 0 + ∑ i, e i
  ∑ i, Ideal.div (e i) L' * d i * v i

/-- The two-factor sum written out without local definitions. -/
theorem softmaxRef2_def (s d v : ι → EReal) :
    softmaxRef2 s d v =
      ∑ i, Ideal.div (Ideal.exp (s i - max ⊥ (Finset.univ.fold max ⊥ s)))
        (0 + ∑ i', Ideal.exp (s i' - max ⊥ (Finset.univ.fold max ⊥ s))) * d i * v i := rfl

/-- By associativity of the product on the extended reals, the two-factor sum is the one-weight
    sum with weight d i * v i. -/
theorem softmaxRef2_eq (s d v : ι → EReal) :
    softmaxRef2 s d v = softmaxRef s (fun i => d i * v i) := by
  simp only [softmaxRef2_def, softmaxRef_def, mul_assoc]

/-- (3), over one flat index: for real scores and weights over a nonempty finite type, the plain
    softmax-weighted sum is the coercion of A / L, with M the real maximum,
    L = ∑ i, exp (s i - M) and A = ∑ i, exp (s i - M) * w i. -/
theorem softmaxRef_coe [Nonempty ι] (s w : ι → ℝ) :
    softmaxRef (fun i => (s i : EReal)) (fun i => (w i : EReal)) =
      (((∑ i, Real.exp (s i - Finset.univ.sup' Finset.univ_nonempty s) * w i) /
        (∑ i, Real.exp (s i - Finset.univ.sup' Finset.univ_nonempty s)) : ℝ) : EReal) := by
  have hL : (∑ i, Real.exp (s i - Finset.univ.sup' Finset.univ_nonempty s)) ≠ 0 :=
    (Finset.sum_pos (fun i _ => Real.exp_pos _) Finset.univ_nonempty).ne'
  rw [softmaxRef_def, fold_max_coe _ Finset.univ_nonempty, max_eq_right bot_le, zero_add]
  simp only [← EReal.coe_sub, Ideal.exp_coe]
  rw [← coe_finset_sum]
  simp only [div_coe_coe _ _ hL, ← EReal.coe_mul]
  rw [← coe_finset_sum, Finset.sum_div]
  congr 1
  refine Finset.sum_congr rfl fun i _ => ?_
  rw [div_mul_eq_mul_div]

end Reference

/-! ### Re-indexing the plain softmax side -/

section Flat

variable {ι : Type*} [Fintype ι] {α : Type*} [Fintype α]

/-- A fold of max from ⊥ over a whole finite type is unchanged by re-indexing along an
    equivalence. -/
theorem fold_max_equiv (e : α ≃ ι) (f : ι → EReal) :
    Finset.univ.fold max ⊥ (fun a => f (e a)) = Finset.univ.fold max ⊥ f := by
  rw [← Finset.map_univ_equiv e, Finset.fold_map]
  rfl

/-- The plain softmax-weighted sum is unchanged by re-indexing along an equivalence. -/
theorem softmaxRef_equiv (e : α ≃ ι) (s w : ι → EReal) :
    softmaxRef (fun a => s (e a)) (fun a => w (e a)) = softmaxRef s w := by
  rw [softmaxRef_def, softmaxRef_def, fold_max_equiv e s,
    Equiv.sum_comp e (fun i => Ideal.exp (s i - max ⊥ (Finset.univ.fold max ⊥ s)))]
  exact Equiv.sum_comp e (fun i =>
    Ideal.div (Ideal.exp (s i - max ⊥ (Finset.univ.fold max ⊥ s)))
      (0 + ∑ i', Ideal.exp (s i' - max ⊥ (Finset.univ.fold max ⊥ s))) * w i)

/-- The two-factor plain softmax-weighted sum is unchanged by re-indexing along an
    equivalence. -/
theorem softmaxRef2_equiv (e : α ≃ ι) (s d v : ι → EReal) :
    softmaxRef2 (fun a => s (e a)) (fun a => d (e a)) (fun a => v (e a)) = softmaxRef2 s d v := by
  rw [softmaxRef2_eq, softmaxRef2_eq]
  exact softmaxRef_equiv e s (fun i => d i * v i)

variable {κ : Type*} [Fintype κ]

/-- A sum over a flat index is the double sum over tiles and positions along an equivalence. -/
theorem sum_flat {β : Type*} [AddCommMonoid β] (e : α × κ ≃ ι) (f : ι → β) :
    ∑ i, f i = ∑ j, ∑ k, f (e (j, k)) := by
  rw [← Equiv.sum_comp e f, Fintype.sum_prod_type]

/-- Over a product index the plain softmax-weighted sum is the double sum: the fold of max runs
    over all pairs, and both sums run over tiles and then positions. -/
theorem softmaxRef_prod (s w : α → κ → EReal) :
    softmaxRef (fun jk : α × κ => s jk.1 jk.2) (fun jk : α × κ => w jk.1 jk.2) =
      ∑ j, ∑ k,
        Ideal.div
          (Ideal.exp (s j k - max ⊥ (Finset.univ.fold max ⊥ (fun jk : α × κ => s jk.1 jk.2))))
          (0 + ∑ j', ∑ k', Ideal.exp
            (s j' k' - max ⊥ (Finset.univ.fold max ⊥ (fun jk : α × κ => s jk.1 jk.2)))) * w j k := by
  rw [softmaxRef_def, Fintype.sum_prod_type, Fintype.sum_prod_type]

/-- Over a product index the two-factor plain softmax-weighted sum is the double sum. -/
theorem softmaxRef2_prod (s d v : α → κ → EReal) :
    softmaxRef2 (fun jk : α × κ => s jk.1 jk.2) (fun jk : α × κ => d jk.1 jk.2)
        (fun jk : α × κ => v jk.1 jk.2) =
      ∑ j, ∑ k,
        Ideal.div
          (Ideal.exp (s j k - max ⊥ (Finset.univ.fold max ⊥ (fun jk : α × κ => s jk.1 jk.2))))
          (0 + ∑ j', ∑ k', Ideal.exp
            (s j' k' - max ⊥ (Finset.univ.fold max ⊥ (fun jk : α × κ => s jk.1 jk.2))))
          * d j k * v j k := by
  rw [softmaxRef2_def, Fintype.sum_prod_type, Fintype.sum_prod_type]

variable [Nonempty κ]

/-- The real maximum over a flat index is the maximum over all tiles and positions along an
    equivalence. -/
theorem sup'_flat {n : ℕ} [NeZero n] [Nonempty ι] (e : Fin n × κ ≃ ι) (f : ι → ℝ) :
    Finset.univ.sup' Finset.univ_nonempty f = gmax (fun j k => f (e (j, k))) := by
  symm
  apply gmax_eq_of
  · intro j k
    exact Finset.le_sup' f (Finset.mem_univ (e (j, k)))
  · obtain ⟨i, -, hi⟩ := Finset.exists_mem_eq_sup' (Finset.univ_nonempty (α := ι)) f
    refine ⟨(e.symm i).1, (e.symm i).2, ?_⟩
    rw [Prod.mk.eta, e.apply_symm_apply]
    exact hi.symm

/-- (3) The plain softmax side over tiles and positions: for real scores and weights and n ≥ 1
    tiles, the plain softmax-weighted sum over all pairs is the coercion of A / L. -/
theorem softmaxRef_tiles_coe {n : ℕ} [NeZero n] (s w : Fin n → κ → ℝ) :
    softmaxRef (fun jk : Fin n × κ => (s jk.1 jk.2 : EReal))
        (fun jk : Fin n × κ => (w jk.1 jk.2 : EReal)) =
      ((asum s w (gmax s) / lsum s (gmax s) : ℝ) : EReal) := by
  haveI : Nonempty (Fin n) := ⟨⟨0, Nat.pos_of_ne_zero (NeZero.ne n)⟩⟩
  rw [softmaxRef_coe (fun jk : Fin n × κ => s jk.1 jk.2) (fun jk : Fin n × κ => w jk.1 jk.2),
    Fintype.sum_prod_type, Fintype.sum_prod_type]
  rfl

/-- (3), written out as the double sum: with M' = max ⊥ (fold of max from ⊥ over all pairs),
    e j k = exp (s j k - M') and L' = 0 + ∑ j, ∑ k, e j k, one has
    ∑ j, ∑ k, (e j k / L') * w j k = A / L. -/
theorem softmax_sum_coe {n : ℕ} [NeZero n] (s w : Fin n → κ → ℝ) :
    (∑ j, ∑ k,
        Ideal.div
          (Ideal.exp ((s j k : EReal) -
            max ⊥ (Finset.univ.fold max ⊥ (fun jk : Fin n × κ => (s jk.1 jk.2 : EReal)))))
          (0 + ∑ j', ∑ k', Ideal.exp ((s j' k' : EReal) -
            max ⊥ (Finset.univ.fold max ⊥ (fun jk : Fin n × κ => (s jk.1 jk.2 : EReal)))))
          * (w j k : EReal)) =
      ((asum s w (gmax s) / lsum s (gmax s) : ℝ) : EReal) := by
  rw [← softmaxRef_tiles_coe s w]
  exact (softmaxRef_prod (fun j k => (s j k : EReal)) (fun j k => (w j k : EReal))).symm

/-- (3), two-factor weights, written out as the double sum:
    ∑ j, ∑ k, ((e j k / L') * d j k) * v j k = A / L with A taken for the weight d j k * v j k. -/
theorem softmax_sum2_coe {n : ℕ} [NeZero n] (s d v : Fin n → κ → ℝ) :
    (∑ j, ∑ k,
        Ideal.div
          (Ideal.exp ((s j k : EReal) -
            max ⊥ (Finset.univ.fold max ⊥ (fun jk : Fin n × κ => (s jk.1 jk.2 : EReal)))))
          (0 + ∑ j', ∑ k', Ideal.exp ((s j' k' : EReal) -
            max ⊥ (Finset.univ.fold max ⊥ (fun jk : Fin n × κ => (s jk.1 jk.2 : EReal)))))
          * (d j k : EReal) * (v j k : EReal)) =
      ((asum s (fun j k => d j k * v j k) (gmax s) / lsum s (gmax s) : ℝ) : EReal) := by
  rw [← softmax_sum_coe s (fun j k => d j k * v j k)]
  simp only [mul_coe_mul_coe]

/-- (3) over one flat index: for real scores and weights over a flat index type in bijection
    with the pairs (tile, position), the plain softmax-weighted sum is the coercion of A / L for
    the scores and weights read along the bijection. -/
theorem softmaxRef_flat_coe {n : ℕ} [NeZero n] (e : Fin n × κ ≃ ι) (sF wF : ι → ℝ) :
    softmaxRef (fun i => (sF i : EReal)) (fun i => (wF i : EReal)) =
      ((asum (fun j k => sF (e (j, k))) (fun j k => wF (e (j, k)))
          (gmax (fun j k => sF (e (j, k)))) /
        lsum (fun j k => sF (e (j, k))) (gmax (fun j k => sF (e (j, k)))) : ℝ) : EReal) := by
  rw [← softmaxRef_tiles_coe]
  exact (softmaxRef_equiv e (fun i => (sF i : EReal)) (fun i => (wF i : EReal))).symm

end Flat

/-! ### The online recurrence with a two-factor weight -/

section TwoFactor

variable {κ : Type*} [Fintype κ]

/-- One step of the online recurrence when the weight is a product of two factors d k * v k,
    accumulated as (p k * d k) * v k. -/
def step2 (s d v : κ → EReal) (st : EReal × EReal × EReal) : EReal × EReal × EReal :=
  let r := Finset.univ.fold max ⊥ s
  let m' := max st.1 r
  let a := Ideal.exp (st.1 - m')
  let p := fun k => Ideal.exp (s k - m')
  (m', a * st.2.1 + ∑ k, p k, a * st.2.2 + ∑ k, p k * d k * v k)

/-- The two-factor step written out without local definitions. -/
theorem step2_def (s d v : κ → EReal) (m l acc : EReal) :
    step2 s d v (m, l, acc) =
      (max m (Finset.univ.fold max ⊥ s),
       Ideal.exp (m - max m (Finset.univ.fold max ⊥ s)) * l
         + ∑ k, Ideal.exp (s k - max m (Finset.univ.fold max ⊥ s)),
       Ideal.exp (m - max m (Finset.univ.fold max ⊥ s)) * acc
         + ∑ k, Ideal.exp (s k - max m (Finset.univ.fold max ⊥ s)) * d k * v k) := rfl

/-- By associativity, the two-factor step is the step with weight d k * v k. -/
theorem step2_eq (s d v : κ → EReal) (st : EReal × EReal × EReal) :
    step2 s d v st = step s (fun k => d k * v k) st := by
  simp only [step2, step, mul_assoc]

/-- The run of the two-factor recurrence over n tiles, a left fold over Fin n from (⊥, 0, 0). -/
def run2 {n : ℕ} (s d v : Fin n → κ → EReal) : EReal × EReal × EReal :=
  Fin.foldl n (fun st j => step2 (s j) (d j) (v j) st) (⊥, 0, 0)

/-- The two-factor run is the run with weight d j k * v j k. -/
theorem run2_eq {n : ℕ} (s d v : Fin n → κ → EReal) :
    run2 s d v = run s (fun j k => d j k * v j k) := by
  simp only [run2, run, step2_eq]

/-- The two-factor run as a left fold over the list of all tile indices in increasing order. -/
theorem run2_eq_list_foldl {n : ℕ} (s d v : Fin n → κ → EReal) :
    run2 s d v = (List.finRange n).foldl (fun st j => step2 (s j) (d j) (v j) st) (⊥, 0, 0) := by
  rw [run2, Fin.foldl_eq_foldl_finRange]

/-- The two-factor run over n + 1 tiles is the two-factor step on the last tile after the run
    over the first n. -/
theorem run2_succ_last {n : ℕ} (s d v : Fin (n + 1) → κ → EReal) :
    run2 s d v = step2 (s (Fin.last n)) (d (Fin.last n)) (v (Fin.last n))
      (run2 (fun j => s j.castSucc) (fun j => d j.castSucc) (fun j => v j.castSucc)) := by
  simp [run2, Fin.foldl_succ_last]

/-- The invariant for the two-factor run on real data: it ends in (M, L, A) with A taken for
    the weight d j k * v j k. -/
theorem run2_coe [Nonempty κ] {n : ℕ} [NeZero n] (s d v : Fin n → κ → ℝ) :
    run2 (fun j k => (s j k : EReal)) (fun j k => (d j k : EReal)) (fun j k => (v j k : EReal)) =
      (((gmax s : ℝ) : EReal), ((lsum s (gmax s) : ℝ) : EReal),
        ((asum s (fun j k => d j k * v j k) (gmax s) : ℝ) : EReal)) := by
  rw [run2_eq, ← run_coe s (fun j k => d j k * v j k)]
  simp only [EReal.coe_mul]

end TwoFactor

/-! ### The final equality -/

section Final

variable {κ : Type*} [Fintype κ] [Nonempty κ] {ι : Type*} [Fintype ι]

/-- (1) and (2) together: the quotient of the final numerator by the final denominator of the
    online recurrence is the coercion of A / L. -/
theorem online_div_coe {n : ℕ} [NeZero n] (s w : Fin n → κ → ℝ) :
    Ideal.div (run (fun j k => (s j k : EReal)) (fun j k => (w j k : EReal))).2.2
        (run (fun j k => (s j k : EReal)) (fun j k => (w j k : EReal))).2.1 =
      ((asum s w (gmax s) / lsum s (gmax s) : ℝ) : EReal) := by
  rw [run_coe s w]
  exact div_coe_coe _ _ (lsum_pos s (gmax s)).ne'

/-- (4) The final equality over tiles and positions: the online quotient acc_n / l_n equals the
    plain softmax-weighted double sum. -/
theorem online_eq_softmax_sum {n : ℕ} [NeZero n] (s w : Fin n → κ → ℝ) :
    Ideal.div (run (fun j k => (s j k : EReal)) (fun j k => (w j k : EReal))).2.2
        (run (fun j k => (s j k : EReal)) (fun j k => (w j k : EReal))).2.1 =
      ∑ j, ∑ k,
        Ideal.div
          (Ideal.exp ((s j k : EReal) -
            max ⊥ (Finset.univ.fold max ⊥ (fun jk : Fin n × κ => (s jk.1 jk.2 : EReal)))))
          (0 + ∑ j', ∑ k', Ideal.exp ((s j' k' : EReal) -
            max ⊥ (Finset.univ.fold max ⊥ (fun jk : Fin n × κ => (s jk.1 jk.2 : EReal)))))
          * (w j k : EReal) := by
  rw [online_div_coe, softmax_sum_coe]

/-- (4) The final equality against a plain softmax over one flat index in bijection with the
    pairs (tile, position): the online quotient on the scores and weights read along the bijection
    equals the plain softmax-weighted sum over the flat index. -/
theorem online_eq_softmaxRef_flat {n : ℕ} [NeZero n] (e : Fin n × κ ≃ ι) (sF wF : ι → ℝ) :
    Ideal.div
        (run (fun j k => (sF (e (j, k)) : EReal)) (fun j k => (wF (e (j, k)) : EReal))).2.2
        (run (fun j k => (sF (e (j, k)) : EReal)) (fun j k => (wF (e (j, k)) : EReal))).2.1 =
      softmaxRef (fun i => (sF i : EReal)) (fun i => (wF i : EReal)) := by
  rw [online_div_coe (fun j k => sF (e (j, k))) (fun j k => wF (e (j, k))),
    softmaxRef_flat_coe e sF wF]

/-- (4) with tile data and flat data given separately and tied by hypotheses: if the tile scores
    and weights are the flat ones read along the bijection, the online quotient equals the plain
    softmax-weighted sum over the flat index. -/
theorem online_eq_softmaxRef_of {n : ℕ} [NeZero n] (e : Fin n × κ ≃ ι) (s w : Fin n → κ → ℝ)
    (sF wF : ι → ℝ) (hs : ∀ j k, s j k = sF (e (j, k))) (hw : ∀ j k, w j k = wF (e (j, k))) :
    Ideal.div (run (fun j k => (s j k : EReal)) (fun j k => (w j k : EReal))).2.2
        (run (fun j k => (s j k : EReal)) (fun j k => (w j k : EReal))).2.1 =
      softmaxRef (fun i => (sF i : EReal)) (fun i => (wF i : EReal)) := by
  have hs' : s = fun j k => sF (e (j, k)) := funext fun j => funext fun k => hs j k
  have hw' : w = fun j k => wF (e (j, k)) := funext fun j => funext fun k => hw j k
  subst hs' hw'
  exact online_eq_softmaxRef_flat e sF wF

/-- (1) and (2) together for the two-factor recurrence. -/
theorem online2_div_coe {n : ℕ} [NeZero n] (s d v : Fin n → κ → ℝ) :
    Ideal.div
        (run2 (fun j k => (s j k : EReal)) (fun j k => (d j k : EReal))
          (fun j k => (v j k : EReal))).2.2
        (run2 (fun j k => (s j k : EReal)) (fun j k => (d j k : EReal))
          (fun j k => (v j k : EReal))).2.1 =
      ((asum s (fun j k => d j k * v j k) (gmax s) / lsum s (gmax s) : ℝ) : EReal) := by
  rw [run2_coe s d v]
  exact div_coe_coe _ _ (lsum_pos s (gmax s)).ne'

/-- (4) for two-factor weights, over tiles and positions: the online quotient of the two-factor
    recurrence equals the plain softmax double sum with summand ((e j k / L') * d j k) * v j k. -/
theorem online2_eq_softmax_sum2 {n : ℕ} [NeZero n] (s d v : Fin n → κ → ℝ) :
    Ideal.div
        (run2 (fun j k => (s j k : EReal)) (fun j k => (d j k : EReal))
          (fun j k => (v j k : EReal))).2.2
        (run2 (fun j k => (s j k : EReal)) (fun j k => (d j k : EReal))
          (fun j k => (v j k : EReal))).2.1 =
      ∑ j, ∑ k,
        Ideal.div
          (Ideal.exp ((s j k : EReal) -
            max ⊥ (Finset.univ.fold max ⊥ (fun jk : Fin n × κ => (s jk.1 jk.2 : EReal)))))
          (0 + ∑ j', ∑ k', Ideal.exp ((s j' k' : EReal) -
            max ⊥ (Finset.univ.fold max ⊥ (fun jk : Fin n × κ => (s jk.1 jk.2 : EReal)))))
          * (d j k : EReal) * (v j k : EReal) := by
  rw [online2_div_coe, softmax_sum2_coe]

/-- (4) for two-factor weights against a plain softmax over one flat index, tile data and flat
    data tied by hypotheses. -/
theorem online2_eq_softmaxRef2_of {n : ℕ} [NeZero n] (e : Fin n × κ ≃ ι)
    (s d v : Fin n → κ → ℝ) (sF dF vF : ι → ℝ) (hs : ∀ j k, s j k = sF (e (j, k)))
    (hd : ∀ j k, d j k = dF (e (j, k))) (hv : ∀ j k, v j k = vF (e (j, k))) :
    Ideal.div
        (run2 (fun j k => (s j k : EReal)) (fun j k => (d j k : EReal))
          (fun j k => (v j k : EReal))).2.2
        (run2 (fun j k => (s j k : EReal)) (fun j k => (d j k : EReal))
          (fun j k => (v j k : EReal))).2.1 =
      softmaxRef2 (fun i => (sF i : EReal)) (fun i => (dF i : EReal))
        (fun i => (vF i : EReal)) := by
  have hs' : s = fun j k => sF (e (j, k)) := funext fun j => funext fun k => hs j k
  have hd' : d = fun j k => dF (e (j, k)) := funext fun j => funext fun k => hd j k
  have hv' : v = fun j k => vF (e (j, k)) := funext fun j => funext fun k => hv j k
  subst hs' hd' hv'
  rw [online2_div_coe, softmaxRef2_eq]
  simp only [← EReal.coe_mul]
  exact (softmaxRef_flat_coe e sF (fun i => dF i * vF i)).symm

end Final

end Cert.Lib.OnlineSoftmax
-- ==== Proof.KSpec.lean ====
/-
  The kernel's arrangement of the same computation, over explicit coordinates on the extended reals.

  The projections are taken against TRANSPOSED weights, the two 214-wide ones padded with zero columns to width 256
  (and their biases with zeros); a row of scores is cut into four tiles of 512 keys, and the softmax-weighted, masked sum
  of the value rows is accumulated tile by tile by the online recurrence (a running maximum, a running sum of
  exponentials and a running weighted sum, each rescaled when the maximum grows), and divided at the end.
-/
import Mathlib
import Idealize.ShloMosaic.PureOps.Ideal
import proofs.«154501_j39676907887142_2_alg».proof.Proof.LibOnlineSoftmax

noncomputable section

namespace Cert.KSpec

open Idealize.ShloMosaic Cert.Lib

/-- A projection against a transposed weight: row `s` of batch `b` of `x` against column `j` of `Wt`, plus `brow j`. -/
def projT {n : ℕ} (x : Fin 8 → Fin 2048 → Fin 768 → EReal) (Wt : Fin 768 → Fin n → EReal) (brow : Fin n → EReal)
    (b : Fin 8) (s : Fin 2048) (j : Fin n) : EReal :=
  (∑ d : Fin 768, x b s d * Wt d j) + brow j

/-- A 214 × 768 weight transposed and padded with zero columns to 768 × 256. -/
def padW (W : Fin 214 → Fin 768 → EReal) : Fin 768 → Fin 256 → EReal :=
  fun d j => if h : j.val < 214 then W ⟨j.val, h⟩ d else 0

/-- A bias of length 214 padded with zeros to length 256. -/
def padB (bias : Fin 214 → EReal) : Fin 256 → EReal :=
  fun j => if h : j.val < 214 then bias ⟨j.val, h⟩ else 0

/-- Key `tt` of tile `ki`: key number `512 · ki + tt`. -/
def tix (ki : Fin 4) (tt : Fin 512) : Fin 2048 := ⟨ki.val * 512 + tt.val, by have := ki.isLt; have := tt.isLt; omega⟩

/-- The score of query row `s` against key `tt` of tile `ki`, over the padded width, divided by the divisor there. -/
def tscore (q k : Fin 8 → Fin 2048 → Fin 256 → EReal) (inv : Fin 2048 → Fin 2048 → EReal)
    (b : Fin 8) (s : Fin 2048) (ki : Fin 4) (tt : Fin 512) : EReal :=
  Ideal.div (∑ j : Fin 256, q b s j * k b (tix ki tt) j) (inv s (tix ki tt))

/-- The state of the online recurrence for (b, s, e) after the first `n` tiles. -/
def stateAt (q k : Fin 8 → Fin 2048 → Fin 256 → EReal) (inv : Fin 2048 → Fin 2048 → EReal)
    (drop : Fin 8 → Fin 2048 → Fin 2048 → EReal) (v : Fin 8 → Fin 2048 → Fin 768 → EReal)
    (b : Fin 8) (s : Fin 2048) (e : Fin 768) : (n : ℕ) → n ≤ 4 → EReal × EReal × EReal
  | 0, _ => (⊥, 0, 0)
  | n + 1, h => OnlineSoftmax.step2 (fun tt => tscore q k inv b s ⟨n, h⟩ tt) (fun tt => drop b s (tix ⟨n, h⟩ tt))
      (fun tt => v b (tix ⟨n, h⟩ tt) e) (stateAt q k inv drop v b s e n (Nat.le_of_succ_le h))

/-- The kernel's result at (b, s, e): the accumulated weighted sum over the accumulated sum of exponentials. -/
def kout (x1 x2 x3 : Fin 8 → Fin 2048 → Fin 768 → EReal) (Wq : Fin 214 → Fin 768 → EReal) (bq : Fin 214 → EReal)
    (Wk : Fin 214 → Fin 768 → EReal) (bk : Fin 214 → EReal) (Wv : Fin 768 → Fin 768 → EReal) (bv : Fin 768 → EReal)
    (inv : Fin 2048 → Fin 2048 → EReal) (drop : Fin 8 → Fin 2048 → Fin 2048 → EReal)
    (b : Fin 8) (s : Fin 2048) (e : Fin 768) : EReal :=
  let st := stateAt (projT x1 (padW Wq) (padB bq)) (projT x2 (padW Wk) (padB bk)) inv drop
    (projT x3 (fun d e => Wv e d) bv) b s e 4 (le_refl 4)
  Ideal.div st.2.2 st.2.1

end Cert.KSpec

end
-- ==== Proof.KernelIdealBlocks1.lean ====
import proofs.«154501_j39676907887142_2_alg».proof.Proof.KernelIdealR1
import proofs.«154501_j39676907887142_2_alg».proof.Proof.KSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # The second region's input blocks at a grid point, read at coordinates

  A grid point is a batch entry, one of two tiles of 1024 query rows and one of four tiles of 512 keys; the key tile is the
  point's number modulo 4. -/

section Blocks1
variable (V : (c : Dev nD) → (b : Ref sig .tc) → Buf (Elt Ideal) ((c : Thread nD τ).loc b))

/-- The printed index maps, decided over the 64 grid points. -/
theorem idx_facts1 : ∀ t : Fin cfg1.N,
    win1_0.index t (0 : Fin 3) = win1_5.index t (0 : Fin 3) ∧ win1_0.index t (1 : Fin 3) = win1_5.index t (1 : Fin 3) ∧ win1_0.index t (2 : Fin 3) = 0
    ∧ win1_1.index t (0 : Fin 3) = win1_5.index t (0 : Fin 3) ∧ win1_1.index t (1 : Fin 3) = t.val % 4 ∧ win1_1.index t (2 : Fin 3) = 0
    ∧ win1_2.index t (0 : Fin 3) = win1_5.index t (0 : Fin 3) ∧ win1_2.index t (1 : Fin 3) = t.val % 4 ∧ win1_2.index t (2 : Fin 3) = 0
    ∧ win1_3.index t (0 : Fin 2) = win1_5.index t (1 : Fin 3) ∧ win1_3.index t (1 : Fin 2) = t.val % 4
    ∧ win1_4.index t (0 : Fin 3) = win1_5.index t (0 : Fin 3) ∧ win1_4.index t (1 : Fin 3) = win1_5.index t (1 : Fin 3) ∧ win1_4.index t (2 : Fin 3) = t.val % 4
    ∧ win1_5.index t (2 : Fin 3) = 0 ∧ win1_5.index t (0 : Fin 3) ≤ 7 ∧ win1_5.index t (1 : Fin 3) ≤ 1 :=
  (by decide +kernel : ∀ t : Fin grid1.N, _)

/-- A point that is not the first of its group of four has the batch entry and query tile of the point before it. -/
theorem idx_pred1 : ∀ t t' : Fin cfg1.N, t'.val + 1 = t.val → t.val % 4 ≠ 0 →
    win1_5.index t' (0 : Fin 3) = win1_5.index t (0 : Fin 3) ∧ win1_5.index t' (1 : Fin 3) = win1_5.index t (1 : Fin 3) :=
  (by decide +kernel : ∀ t t' : Fin grid1.N, _)

/-- Every (batch entry, query tile) is the block of SOME final point. -/
theorem idx_onto1 : ∀ (q0 : Fin 8) (q1 : Fin 2), ∃ t : Fin cfg1.N, t.val % 4 = 3 ∧ win1_5.index t = ![q0.val, q1.val, 0] :=
  (by decide +kernel : ∀ (q0 : Fin 8) (q1 : Fin 2), ∃ t : Fin grid1.N, t.val % 4 = 3 ∧ win1_5.index t = ![q0.val, q1.val, 0])

/-- The batch entry of point `t`. -/
def bOf (t : Fin cfg1.N) : Fin 8 := ⟨win1_5.index t (0 : Fin 3), by have := (idx_facts1 t).2.2.2.2.2.2.2.2.2.2.2.2.2.2.2.1; omega⟩
/-- Query row `r` of point `t`'s tile, as a row of the array. -/
def sOf (t : Fin cfg1.N) (r : Fin 1024) : Fin 2048 := ⟨win1_5.index t (1 : Fin 3) * 1024 + r.val, by have := (idx_facts1 t).2.2.2.2.2.2.2.2.2.2.2.2.2.2.2.2; have := r.isLt; omega⟩
/-- The key tile of point `t`. -/
def kiOf (t : Fin cfg1.N) : Fin 4 := ⟨t.val % 4, Nat.mod_lt _ (by norm_num)⟩

/-- The region-entry arrays read at coordinates. -/
def qOf (c : Dev nD) : Fin 8 → Fin 2048 → Fin 256 → EReal := fun b s j => (V c main_v10_0 : S8x2048x256.Idx → EReal) (ix3 b s j)
def kOf (c : Dev nD) : Fin 8 → Fin 2048 → Fin 256 → EReal := fun b s j => (V c main_v10_1 : S8x2048x256.Idx → EReal) (ix3 b s j)
def vOf (c : Dev nD) : Fin 8 → Fin 2048 → Fin 768 → EReal := fun b s e => (V c main_v10_2 : S8x2048x768.Idx → EReal) (ix3 b s e)
def invOf (c : Dev nD) : Fin 2048 → Fin 2048 → EReal := fun s t => (V c main_arg9 : S2048x2048.Idx → EReal) (ix2 s t)
def dropOf (c : Dev nD) : Fin 8 → Fin 2048 → Fin 2048 → EReal := fun b s t => (V c main_arg10 : S8x2048x2048.Idx → EReal) (ix3 b s t)

theorem blk1_0 (c : Dev nD) (t : Fin cfg1.N) (r : Fin 1024) (j : Fin 256) :
    iblk1 V c 0 t (ix3 (0 : Fin 1) r j) = qOf V c (bOf t) (sOf t r) j := by
  obtain ⟨e0, e1, e2, -⟩ := idx_facts1 t
  unfold iblk1 qOf
  rw [View.read_apply]
  refine congrArg (V c main_v10_0) (funext fun a => Fin.ext ?_)
  match a with
  | ⟨0, _⟩ => show win1_0.index t (0 : Fin 3) * 1 + 1 * 0 = win1_5.index t (0 : Fin 3); omega
  | ⟨1, _⟩ => show win1_0.index t (1 : Fin 3) * 1024 + 1 * r.val = win1_5.index t (1 : Fin 3) * 1024 + r.val; omega
  | ⟨2, _⟩ => show win1_0.index t (2 : Fin 3) * 256 + 1 * j.val = j.val; omega

theorem blk1_1 (c : Dev nD) (t : Fin cfg1.N) (tt : Fin 512) (j : Fin 256) :
    iblk1 V c 1 t (ix3 (0 : Fin 1) tt j) = kOf V c (bOf t) (Cert.KSpec.tix (kiOf t) tt) j := by
  obtain ⟨-, -, -, e3, e4, e5, -⟩ := idx_facts1 t
  unfold iblk1 kOf
  rw [View.read_apply]
  refine congrArg (V c main_v10_1) (funext fun a => Fin.ext ?_)
  match a with
  | ⟨0, _⟩ => show win1_1.index t (0 : Fin 3) * 1 + 1 * 0 = win1_5.index t (0 : Fin 3); omega
  | ⟨1, _⟩ => show win1_1.index t (1 : Fin 3) * 512 + 1 * tt.val = t.val % 4 * 512 + tt.val; omega
  | ⟨2, _⟩ => show win1_1.index t (2 : Fin 3) * 256 + 1 * j.val = j.val; omega

theorem blk1_2 (c : Dev nD) (t : Fin cfg1.N) (tt : Fin 512) (e : Fin 768) :
    iblk1 V c 2 t (ix3 (0 : Fin 1) tt e) = vOf V c (bOf t) (Cert.KSpec.tix (kiOf t) tt) e := by
  obtain ⟨-, -, -, -, -, -, e6, e7, e8, -⟩ := idx_facts1 t
  unfold iblk1 vOf
  rw [View.read_apply]
  refine congrArg (V c main_v10_2) (funext fun a => Fin.ext ?_)
  match a with
  | ⟨0, _⟩ => show win1_2.index t (0 : Fin 3) * 1 + 1 * 0 = win1_5.index t (0 : Fin 3); omega
  | ⟨1, _⟩ => show win1_2.index t (1 : Fin 3) * 512 + 1 * tt.val = t.val % 4 * 512 + tt.val; omega
  | ⟨2, _⟩ => show win1_2.index t (2 : Fin 3) * 768 + 1 * e.val = e.val; omega

theorem blk1_3 (c : Dev nD) (t : Fin cfg1.N) (r : Fin 1024) (tt : Fin 512) :
    iblk1 V c 3 t (ix2 r tt) = invOf V c (sOf t r) (Cert.KSpec.tix (kiOf t) tt) := by
  obtain ⟨-, -, -, -, -, -, -, -, -, e9, e10, -⟩ := idx_facts1 t
  unfold iblk1 invOf
  rw [View.read_apply]
  refine congrArg (V c main_arg9) (funext fun a => Fin.ext ?_)
  match a with
  | ⟨0, _⟩ => show win1_3.index t (0 : Fin 2) * 1024 + 1 * r.val = win1_5.index t (1 : Fin 3) * 1024 + r.val; omega
  | ⟨1, _⟩ => show win1_3.index t (1 : Fin 2) * 512 + 1 * tt.val = t.val % 4 * 512 + tt.val; omega

theorem blk1_4 (c : Dev nD) (t : Fin cfg1.N) (r : Fin 1024) (tt : Fin 512) :
    iblk1 V c 4 t (ix3 (0 : Fin 1) r tt) = dropOf V c (bOf t) (sOf t r) (Cert.KSpec.tix (kiOf t) tt) := by
  obtain ⟨-, -, -, -, -, -, -, -, -, -, -, e11, e12, e13, -⟩ := idx_facts1 t
  unfold iblk1 dropOf
  rw [View.read_apply]
  refine congrArg (V c main_arg10) (funext fun a => Fin.ext ?_)
  match a with
  | ⟨0, _⟩ => show win1_4.index t (0 : Fin 3) * 1 + 1 * 0 = win1_5.index t (0 : Fin 3); omega
  | ⟨1, _⟩ => show win1_4.index t (1 : Fin 3) * 1024 + 1 * r.val = win1_5.index t (1 : Fin 3) * 1024 + r.val; omega
  | ⟨2, _⟩ => show win1_4.index t (2 : Fin 3) * 512 + 1 * tt.val = t.val % 4 * 512 + tt.val; omega

end Blocks1
end Cert.KernelIdeal.Hand
end
-- ==== Proof.KernelIdealPay0.lean ====
import proofs.«154501_j39676907887142_2_alg».proof.Proof.KernelIdealR0
import proofs.«154501_j39676907887142_2_alg».proof.Proof.LibOnlineSoftmax
import Idealize.ShloMosaic.Lib.ValueIdx
import Idealize.ShloMosaic.Lib.Pipeline.Value
import Idealize.ShloMosaic.Lib.ValueLayout
import Idealize.ShloMosaic.PureOps.Ideal.Laws

/-!
# The projection kernel's stored values, read at an index

At the ideal instance every float is an extended real, a change of format is the identity and a
matrix product into a zero accumulator is a plain sum. Each of the three values the projection
kernel stores is therefore, at row r and column j of the tile, the sum over the 768 input features
of the row's entries times the weight's entries, plus the bias at column j.
-/

noncomputable section

namespace Cert.KernelIdeal.Hand

open Cert.KernelIdeal Cert.KernelIdeal.Gen Idealize.ShloMosaic
open Idealize.ShloMosaic.ValueIdx

/-- The three zero offsets of a whole rank-3 rectangle are the zero function. -/
theorem zeros3 : (![0, 0, 0] : Fin 3 → Nat) = fun _ => 0 := by
  funext a; match a with | ⟨0, _⟩ => rfl | ⟨1, _⟩ => rfl | ⟨2, _⟩ => rfl

/-- The two zero offsets of a whole rank-2 rectangle are the zero function. -/
theorem zeros2 : (![0, 0] : Fin 2 → Nat) = fun _ => 0 := by
  funext a; match a with | ⟨0, _⟩ => rfl | ⟨1, _⟩ => rfl

/-- On the row axis the left operand of the 256 × 768 by 768 × 256 product reads the result's row. -/
theorem lhs_768x256_0 (i : S256x256.Idx) (q : dot_S256x768_S768x256_S256x256_1_0_0_1_n_n.contr.Idx) :
    (dot_S256x768_S768x256_S256x256_1_0_0_1_n_n.lhsIdx i q 0).val = (i 0).val := by
  unfold DotDims.lhsIdx
  rw [dif_neg (show ¬(0 : Fin S256x768.rank) ∈ dot_S256x768_S768x256_S256x256_1_0_0_1_n_n.lhsBatch by decide),
    dif_pos (show (0 : Fin S256x768.rank) ∈ dot_S256x768_S768x256_S256x256_1_0_0_1_n_n.lhsNonContracting by decide)]
  rfl

/-- On the column axis the right operand of that product reads the result's column. -/
theorem rhs_768x256_1 (i : S256x256.Idx) (q : dot_S256x768_S768x256_S256x256_1_0_0_1_n_n.contr.Idx) :
    (dot_S256x768_S768x256_S256x256_1_0_0_1_n_n.rhsIdx i q 1).val = (i 1).val := by
  unfold DotDims.rhsIdx
  rw [dif_neg (show ¬(1 : Fin S768x256.rank) ∈ dot_S256x768_S768x256_S256x256_1_0_0_1_n_n.rhsBatch by decide),
    dif_pos (show (1 : Fin S768x256.rank) ∈ dot_S256x768_S768x256_S256x256_1_0_0_1_n_n.rhsNonContracting by decide)]
  rfl

/-- The product of a 256 × 768 matrix with a 768 × 256 matrix into a zero accumulator, at row r and
    column j, is the sum over the 768 contracted positions of the products of the entries. -/
theorem matmul_768x256_apply (l : FVec Ideal S256x768 .bf16) (w : FVec Ideal S768x256 .bf16) (r j : Fin 256) :
    matmul dot_S256x768_S768x256_S256x256_1_0_0_1_n_n none l w (constant (F := Ideal) S256x256 .f32 0x00000000#32) (ix2 r j)
      = ∑ d : Fin 768, l (ix2 r d) * w (ix2 d j) := by
  refine (Ideal.matmul_constant_zero_apply dot_S256x768_S768x256_S256x256_1_0_0_1_n_n none l w (ix2 r j)).trans ?_
  rw [← Equiv.sum_comp (contrEquiv1 dot_S256x768_S768x256_S256x256_1_0_0_1_n_n 768 rfl rfl).symm]
  refine Finset.sum_congr rfl fun k _ => ?_
  have hk := contrEquiv1_symm_val dot_S256x768_S768x256_S256x256_1_0_0_1_n_n 768 rfl rfl k
  have el : dot_S256x768_S768x256_S256x256_1_0_0_1_n_n.lhsIdx (ix2 r j)
      ((contrEquiv1 dot_S256x768_S768x256_S256x256_1_0_0_1_n_n 768 rfl rfl).symm k) = ix2 r k :=
    funext fun a => Fin.ext (by
      match a with
      | ⟨0, _⟩ => exact lhs_768x256_0 _ _
      | ⟨1, _⟩ => exact (dot_S256x768_S768x256_S256x256_1_0_0_1_n_n.lhsIdx_val_of_single rfl _ _).trans hk)
  have er : dot_S256x768_S768x256_S256x256_1_0_0_1_n_n.rhsIdx (ix2 r j)
      ((contrEquiv1 dot_S256x768_S768x256_S256x256_1_0_0_1_n_n 768 rfl rfl).symm k) = ix2 k j :=
    funext fun a => Fin.ext (by
      match a with
      | ⟨0, _⟩ => exact (dot_S256x768_S768x256_S256x256_1_0_0_1_n_n.rhsIdx_val_of_single rfl _ _).trans hk
      | ⟨1, _⟩ => exact rhs_768x256_1 _ _)
  rw [el, er]

/-- The query projection's arithmetic at row r and column j: the sum over the input features of the
    row's entries times the weight's entries, plus the bias at column j. -/
theorem k0_pay6_apply (v0 : Vec Ideal S1x256x768 .f32) (v9 : Vec Ideal S768x256 .f32) (v19 : Vec Ideal S1x256 .f32)
    (r j : Fin 256) :
    k0_pay6 (F := Ideal) v0 v9 v19 (ix2 r j)
      = (∑ d : Fin 768, v0 (ix3 (0 : Fin 1) r d) * v9 (ix2 d j)) + v19 (ix2 (0 : Fin 1) j) := by
  unfold k0_pay6
  rw [truncf_apply, addf_apply, matmul_768x256_apply, broadcastTo_1b_ab_apply, shapeCast_self, shapeCast_self]
  refine congrArg (· + v19 (ix2 (0 : Fin 1) j)) (Finset.sum_congr rfl fun d _ => ?_)
  rw [truncf_apply, truncf_apply, shapeCast_1ab_ab_apply]

/-- The first stored value at (0, r, j): the sum over the input features of x0's row r times x3's
    column j, plus x4 at column j. -/
theorem out0_9_apply (x0 : Vec Ideal S1x256x768 .f32) (x3 : Vec Ideal S768x256 .f32) (x4 : Vec Ideal S1x256 .f32)
    (r j : Fin 256) :
    out0_9 (F := Ideal) x0 x3 x4 (ix3 (0 : Fin 1) r j)
      = (∑ d : Fin 768, x0 (ix3 (0 : Fin 1) r d) * x3 (ix2 d j)) + x4 (ix2 (0 : Fin 1) j) := by
  unfold out0_9
  rw [View.canon_unit_zero zeros3, View.ld_unit_zero zeros3, View.ld_unit_zero zeros2, View.ld_unit_zero zeros2]
  unfold k0_pay1
  rw [shapeCast_ab_1ab_apply, k0_pay6_apply]

/-- The key projection's arithmetic at row r and column j: the sum over the input features of the
    row's entries times the weight's entries, plus the bias at column j. -/
theorem k0_pay4_apply (v3 : Vec Ideal S1x256x768 .f32) (v12 : Vec Ideal S768x256 .f32) (v24 : Vec Ideal S1x256 .f32)
    (r j : Fin 256) :
    k0_pay4 (F := Ideal) v3 v12 v24 (ix2 r j)
      = (∑ d : Fin 768, v3 (ix3 (0 : Fin 1) r d) * v12 (ix2 d j)) + v24 (ix2 (0 : Fin 1) j) := by
  unfold k0_pay4
  rw [addf_apply, matmul_768x256_apply, broadcastTo_1b_ab_apply, shapeCast_self, shapeCast_self]
  refine congrArg (· + v24 (ix2 (0 : Fin 1) j)) (Finset.sum_congr rfl fun d _ => ?_)
  rw [truncf_apply, truncf_apply, shapeCast_1ab_ab_apply]

/-- The second stored value at (0, r, j): the sum over the input features of x1's row r times x5's
    column j, plus x6 at column j. -/
theorem out0_10_apply (x1 : Vec Ideal S1x256x768 .f32) (x5 : Vec Ideal S768x256 .f32) (x6 : Vec Ideal S1x256 .f32)
    (r j : Fin 256) :
    out0_10 (F := Ideal) x1 x5 x6 (ix3 (0 : Fin 1) r j)
      = (∑ d : Fin 768, x1 (ix3 (0 : Fin 1) r d) * x5 (ix2 d j)) + x6 (ix2 (0 : Fin 1) j) := by
  unfold out0_10
  rw [View.canon_unit_zero zeros3, View.ld_unit_zero zeros3, View.ld_unit_zero zeros2, View.ld_unit_zero zeros2]
  unfold k0_pay2
  rw [shapeCast_ab_1ab_apply, truncf_apply, k0_pay4_apply]

/-- On the row axis the left operand of the 256 × 768 by 768 × 768 product reads the result's row. -/
theorem lhs_768x768_0 (i : S256x768.Idx) (q : dot_S256x768_S768x768_S256x768_1_0_0_1_n_n.contr.Idx) :
    (dot_S256x768_S768x768_S256x768_1_0_0_1_n_n.lhsIdx i q 0).val = (i 0).val := by
  unfold DotDims.lhsIdx
  rw [dif_neg (show ¬(0 : Fin S256x768.rank) ∈ dot_S256x768_S768x768_S256x768_1_0_0_1_n_n.lhsBatch by decide),
    dif_pos (show (0 : Fin S256x768.rank) ∈ dot_S256x768_S768x768_S256x768_1_0_0_1_n_n.lhsNonContracting by decide)]
  rfl

/-- On the column axis the right operand of that product reads the result's column. -/
theorem rhs_768x768_1 (i : S256x768.Idx) (q : dot_S256x768_S768x768_S256x768_1_0_0_1_n_n.contr.Idx) :
    (dot_S256x768_S768x768_S256x768_1_0_0_1_n_n.rhsIdx i q 1).val = (i 1).val := by
  unfold DotDims.rhsIdx
  rw [dif_neg (show ¬(1 : Fin S768x768.rank) ∈ dot_S256x768_S768x768_S256x768_1_0_0_1_n_n.rhsBatch by decide),
    dif_pos (show (1 : Fin S768x768.rank) ∈ dot_S256x768_S768x768_S256x768_1_0_0_1_n_n.rhsNonContracting by decide)]
  rfl

/-- The product of a 256 × 768 matrix with a 768 × 768 matrix into a zero accumulator, at row r and
    column e, is the sum over the 768 contracted positions of the products of the entries. -/
theorem matmul_768x768_apply (l : FVec Ideal S256x768 .bf16) (w : FVec Ideal S768x768 .bf16) (r : Fin 256) (e : Fin 768) :
    matmul dot_S256x768_S768x768_S256x768_1_0_0_1_n_n none l w (constant (F := Ideal) S256x768 .f32 0x00000000#32) (ix2 r e)
      = ∑ d : Fin 768, l (ix2 r d) * w (ix2 d e) := by
  refine (Ideal.matmul_constant_zero_apply dot_S256x768_S768x768_S256x768_1_0_0_1_n_n none l w (ix2 r e)).trans ?_
  rw [← Equiv.sum_comp (contrEquiv1 dot_S256x768_S768x768_S256x768_1_0_0_1_n_n 768 rfl rfl).symm]
  refine Finset.sum_congr rfl fun k _ => ?_
  have hk := contrEquiv1_symm_val dot_S256x768_S768x768_S256x768_1_0_0_1_n_n 768 rfl rfl k
  have el : dot_S256x768_S768x768_S256x768_1_0_0_1_n_n.lhsIdx (ix2 r e)
      ((contrEquiv1 dot_S256x768_S768x768_S256x768_1_0_0_1_n_n 768 rfl rfl).symm k) = ix2 r k :=
    funext fun a => Fin.ext (by
      match a with
      | ⟨0, _⟩ => exact lhs_768x768_0 _ _
      | ⟨1, _⟩ => exact (dot_S256x768_S768x768_S256x768_1_0_0_1_n_n.lhsIdx_val_of_single rfl _ _).trans hk)
  have er : dot_S256x768_S768x768_S256x768_1_0_0_1_n_n.rhsIdx (ix2 r e)
      ((contrEquiv1 dot_S256x768_S768x768_S256x768_1_0_0_1_n_n 768 rfl rfl).symm k) = ix2 k e :=
    funext fun a => Fin.ext (by
      match a with
      | ⟨0, _⟩ => exact (dot_S256x768_S768x768_S256x768_1_0_0_1_n_n.rhsIdx_val_of_single rfl _ _).trans hk
      | ⟨1, _⟩ => exact rhs_768x768_1 _ _)
  rw [el, er]

/-- The value projection's arithmetic at row r and column e: the sum over the input features of the
    row's entries times the weight's entries, plus the bias at column e. -/
theorem k0_pay5_apply (v6 : Vec Ideal S1x256x768 .f32) (v15 : Vec Ideal S768x768 .f32) (v29 : Vec Ideal S1x768 .f32)
    (r : Fin 256) (e : Fin 768) :
    k0_pay5 (F := Ideal) v6 v15 v29 (ix2 r e)
      = (∑ d : Fin 768, v6 (ix3 (0 : Fin 1) r d) * v15 (ix2 d e)) + v29 (ix2 (0 : Fin 1) e) := by
  unfold k0_pay5
  rw [addf_apply, matmul_768x768_apply, broadcastTo_1b_ab_apply, shapeCast_self, shapeCast_self]
  refine congrArg (· + v29 (ix2 (0 : Fin 1) e)) (Finset.sum_congr rfl fun d _ => ?_)
  rw [truncf_apply, truncf_apply, shapeCast_1ab_ab_apply]

/-- The third stored value at (0, r, e): the sum over the input features of x2's row r times x7's
    column e, plus x8 at column e. -/
theorem out0_11_apply (x2 : Vec Ideal S1x256x768 .f32) (x7 : Vec Ideal S768x768 .f32) (x8 : Vec Ideal S1x768 .f32)
    (r : Fin 256) (e : Fin 768) :
    out0_11 (F := Ideal) x2 x7 x8 (ix3 (0 : Fin 1) r e)
      = (∑ d : Fin 768, x2 (ix3 (0 : Fin 1) r d) * x7 (ix2 d e)) + x8 (ix2 (0 : Fin 1) e) := by
  unfold out0_11
  rw [View.canon_unit_zero zeros3, View.ld_unit_zero zeros3, View.ld_unit_zero zeros2, View.ld_unit_zero zeros2]
  unfold k0_pay3
  rw [shapeCast_ab_1ab_apply, truncf_apply, k0_pay5_apply]

end Cert.KernelIdeal.Hand
-- ==== Proof.KernelIdealArr0.lean ====
import proofs.«154501_j39676907887142_2_alg».proof.Proof.KernelIdealR0
import proofs.«154501_j39676907887142_2_alg».proof.Proof.KernelIdealPay0
import Idealize.ShloMosaic.Lib.Pipeline.Value
import Idealize.ShloMosaic.Lib.ValueIdx
import Idealize.ShloMosaic.PureOps.Ideal.Laws

set_option maxRecDepth 16384

/-
  The three arrays the first kernel region leaves: each one whole-array function of the buffers the region was entered
  with — row s of batch b of an activation against column j of a (transposed) weight, plus entry j of a one-row bias.
  The 64 grid points' blocks (one batch, 256 consecutive rows, all columns) tile each array.
-/
noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Arr0
variable (V : (c : Dev nD) → (b : Ref sig .tc) → Buf (Elt Ideal) ((c : Thread nD τ).loc b))

/-- A projection against a transposed weight with a one-row bias: entry (b, s, j). -/
def projArr {n : ℕ} (a0 : (⟨3, ![8, 2048, 768]⟩ : Shape).Idx → EReal) (w : (⟨2, ![768, n]⟩ : Shape).Idx → EReal) (bb : (⟨2, ![1, n]⟩ : Shape).Idx → EReal) :
    (⟨3, ![8, 2048, n]⟩ : Shape).Idx → EReal := fun i =>
  (∑ d : Fin 768, a0 (ix3 (i 0 : Fin 8) (i 1 : Fin 2048) d) * w (ix2 d (i 2 : Fin n))) + bb (ix2 (0 : Fin 1) (i 2 : Fin n))

/-! ## Result window 9 of the first region -/

theorem idx_facts9 : ∀ t : Fin cfg0.N, win0_0.index t (0 : Fin 3) = win0_9.index t (0 : Fin 3)
    ∧ win0_0.index t (1 : Fin 3) = win0_9.index t (1 : Fin 3)
    ∧ win0_0.index t (2 : Fin 3) = 0 ∧ win0_9.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_9.index t (0 : Fin 3) ≤ 7 ∧ win0_9.index t (1 : Fin 3) ≤ 7 :=
  (by decide +kernel : ∀ t : Fin grid0.N, _)

theorem idx_onto9 : ∀ (q0 : Fin 8) (q1 : Fin 8), ∃ t : Fin cfg0.N, win0_9.index t = ![q0.val, q1.val, 0] :=
  (by decide +kernel : ∀ (q0 : Fin 8) (q1 : Fin 8), ∃ t : Fin grid0.N, win0_9.index t = ![q0.val, q1.val, 0])

/-- What grid point `t` writes back into result window 9 is block `t` of the projection of the region-entry arrays. -/
theorem flushed9_eq (c : Dev nD) (t : Fin cfg0.N) :
    (dat0 V c).flushed 9 t = ((cfg0.win 9).blk t).view.read (Elt Ideal) (projArr (V c main_arg0) (V c main_v4) (V c main_v7)) := by
  show (cfg0.win 9).cut (grid0.coords t) ((dat0 V c).after 9 t) = _
  rw [after0_9]
  funext j
  obtain ⟨r, jj, rfl⟩ : ∃ (r : Fin 256) (jj : Fin 256), j = ix3 (0 : Fin 1) r jj :=
    ⟨j 1, j 2, by rw [eq_ix3 j]; congr 1; exact Fin.ext (by have h : (j 0).val < 1 := (j 0).isLt; show (j 0).val = 0; omega)⟩
  show out0_9 (iblk0 V c 0 t) (iblk0 V c 3 t) (iblk0 V c 4 t) (ix3 (0 : Fin 1) r jj) = projArr (V c main_arg0) (V c main_v4) (V c main_v7) (((cfg0.win 9).blk t).view.emb (ix3 (0 : Fin 1) r jj))
  rw [out0_9_apply]
  obtain ⟨e0, e1, e2, e3, e4, e5, e6, e7, e8, e9⟩ := idx_facts9 t
  have h0 : ∀ d : Fin 768, ((cfg0.win 0).blk t).view.emb (ix3 (0 : Fin 1) r d)
      = ix3 ((((cfg0.win 9).blk t).view.emb (ix3 (0 : Fin 1) r jj)) 0 : Fin 8) ((((cfg0.win 9).blk t).view.emb (ix3 (0 : Fin 1) r jj)) 1 : Fin 2048) d := fun d => by
    funext a; apply Fin.ext
    match a with
    | ⟨0, _⟩ => show win0_0.index t (0 : Fin 3) * 1 + 1 * 0 = win0_9.index t (0 : Fin 3) * 1 + 1 * 0; omega
    | ⟨1, _⟩ => show win0_0.index t (1 : Fin 3) * 256 + 1 * r.val = win0_9.index t (1 : Fin 3) * 256 + 1 * r.val; omega
    | ⟨2, _⟩ => show win0_0.index t (2 : Fin 3) * 768 + 1 * d.val = d.val; omega
  have h3 : ∀ d : Fin 768, ((cfg0.win 3).blk t).view.emb (ix2 d jj)
      = ix2 d ((((cfg0.win 9).blk t).view.emb (ix3 (0 : Fin 1) r jj)) 2 : Fin 256) := fun d => by
    funext a; apply Fin.ext
    match a with
    | ⟨0, _⟩ => show win0_3.index t (0 : Fin 2) * 768 + 1 * d.val = d.val; omega
    | ⟨1, _⟩ => show win0_3.index t (1 : Fin 2) * 256 + 1 * jj.val = win0_9.index t (2 : Fin 3) * 256 + 1 * jj.val; omega
  have h4 : ((cfg0.win 4).blk t).view.emb (ix2 (0 : Fin 1) jj)
      = ix2 (0 : Fin 1) ((((cfg0.win 9).blk t).view.emb (ix3 (0 : Fin 1) r jj)) 2 : Fin 256) := by
    funext a; apply Fin.ext
    match a with
    | ⟨0, _⟩ => show win0_4.index t (0 : Fin 2) * 1 + 1 * 0 = 0; omega
    | ⟨1, _⟩ => show win0_4.index t (1 : Fin 2) * 256 + 1 * jj.val = win0_9.index t (2 : Fin 3) * 256 + 1 * jj.val; omega
  unfold projArr iblk0
  simp only [View.read_apply]
  refine congrArg₂ (· + ·) (Finset.sum_congr rfl fun d _ => congrArg₂ (· * ·) ?_ ?_) ?_
  · exact congrArg (V c main_arg0) (h0 d)
  · exact congrArg (V c main_v4) (h3 d)
  · exact congrArg (V c main_v7) h4

/-- An index of the array lies in point `t`'s block iff each coordinate lies in the block's range on its axis. -/
theorem mem_blk9 (t : Fin cfg0.N) (i : S8x2048x256.Idx) :
    i ∈ ((cfg0.win 9).blk t).view.set ↔ ∀ a : Fin 3, win0_9.index t a * S1x256x256.size a ≤ (i a).val ∧ (i a).val < win0_9.index t a * S1x256x256.size a + S1x256x256.size a := by
  show i ∈ ((View.whole main_v10_0).slice (win0_9.rect t)).set ↔ _
  rw [View.set_slice_whole, Rect.mem_set_unit]
  exact Iff.rfl

/-- The blocks of the 64 grid points tile the array: row tile `s / 256` of batch `b`. -/
theorem cover9 (i : S8x2048x256.Idx) : ∃ t : Fin cfg0.N, (cfg0.win 9).flush t = true ∧ i ∈ ((cfg0.win 9).blk t).view.set := by
  have hi0 : (i 0).val < 8 := (i 0).isLt
  have hi1 : (i 1).val < 2048 := (i 1).isLt
  have hi2 : (i 2).val < 256 := (i 2).isLt
  obtain ⟨t, ht⟩ := idx_onto9 ⟨(i 0).val, hi0⟩ ⟨(i 1).val / 256, by omega⟩
  have q0 : win0_9.index t (0 : Fin 3) = (i 0).val := congrFun ht 0
  have q1 : win0_9.index t (1 : Fin 3) = (i 1).val / 256 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 256 ≤ (i 2).val ∧ (i 2).val < win0_9.index t (2 : Fin 3) * 256 + 256; omega

/-- After the first region the array of result window 9 is the projection of the region-entry arrays, whole. -/
theorem final9 (c : Dev nD) : (dat0 V c).arrAt 9 cfg0.N = projArr (V c main_arg0) (V c main_v4) (V c main_v7) :=
  (dat0 V c).arrAt_eq_of_cover 9 _ (fun t _ => flushed9_eq V c t) (cover9)

/-! ## Result window 10 of the first region -/

theorem idx_facts10 : ∀ t : Fin cfg0.N, win0_1.index t (0 : Fin 3) = win0_10.index t (0 : Fin 3)
    ∧ win0_1.index t (1 : Fin 3) = win0_10.index t (1 : Fin 3)
    ∧ win0_1.index t (2 : Fin 3) = 0 ∧ win0_10.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_10.index t (0 : Fin 3) ≤ 7 ∧ win0_10.index t (1 : Fin 3) ≤ 7 :=
  (by decide +kernel : ∀ t : Fin grid0.N, _)

theorem idx_onto10 : ∀ (q0 : Fin 8) (q1 : Fin 8), ∃ t : Fin cfg0.N, win0_10.index t = ![q0.val, q1.val, 0] :=
  (by decide +kernel : ∀ (q0 : Fin 8) (q1 : Fin 8), ∃ t : Fin grid0.N, win0_10.index t = ![q0.val, q1.val, 0])

/-- What grid point `t` writes back into result window 10 is block `t` of the projection of the region-entry arrays. -/
theorem flushed10_eq (c : Dev nD) (t : Fin cfg0.N) :
    (dat0 V c).flushed 10 t = ((cfg0.win 10).blk t).view.read (Elt Ideal) (projArr (V c main_arg1) (V c main_v5) (V c main_v8)) := by
  show (cfg0.win 10).cut (grid0.coords t) ((dat0 V c).after 10 t) = _
  rw [after0_10]
  funext j
  obtain ⟨r, jj, rfl⟩ : ∃ (r : Fin 256) (jj : Fin 256), j = ix3 (0 : Fin 1) r jj :=
    ⟨j 1, j 2, by rw [eq_ix3 j]; congr 1; exact Fin.ext (by have h : (j 0).val < 1 := (j 0).isLt; show (j 0).val = 0; omega)⟩
  show out0_10 (iblk0 V c 1 t) (iblk0 V c 5 t) (iblk0 V c 6 t) (ix3 (0 : Fin 1) r jj) = projArr (V c main_arg1) (V c main_v5) (V c main_v8) (((cfg0.win 10).blk t).view.emb (ix3 (0 : Fin 1) r jj))
  rw [out0_10_apply]
  obtain ⟨e0, e1, e2, e3, e4, e5, e6, e7, e8, e9⟩ := idx_facts10 t
  have h0 : ∀ d : Fin 768, ((cfg0.win 1).blk t).view.emb (ix3 (0 : Fin 1) r d)
      = ix3 ((((cfg0.win 10).blk t).view.emb (ix3 (0 : Fin 1) r jj)) 0 : Fin 8) ((((cfg0.win 10).blk t).view.emb (ix3 (0 : Fin 1) r jj)) 1 : Fin 2048) d := fun d => by
    funext a; apply Fin.ext
    match a with
    | ⟨0, _⟩ => show win0_1.index t (0 : Fin 3) * 1 + 1 * 0 = win0_10.index t (0 : Fin 3) * 1 + 1 * 0; omega
    | ⟨1, _⟩ => show win0_1.index t (1 : Fin 3) * 256 + 1 * r.val = win0_10.index t (1 : Fin 3) * 256 + 1 * r.val; omega
    | ⟨2, _⟩ => show win0_1.index t (2 : Fin 3) * 768 + 1 * d.val = d.val; omega
  have h3 : ∀ d : Fin 768, ((cfg0.win 5).blk t).view.emb (ix2 d jj)
      = ix2 d ((((cfg0.win 10).blk t).view.emb (ix3 (0 : Fin 1) r jj)) 2 : Fin 256) := fun d => by
    funext a; apply Fin.ext
    match a with
    | ⟨0, _⟩ => show win0_5.index t (0 : Fin 2) * 768 + 1 * d.val = d.val; omega
    | ⟨1, _⟩ => show win0_5.index t (1 : Fin 2) * 256 + 1 * jj.val = win0_10.index t (2 : Fin 3) * 256 + 1 * jj.val; omega
  have h4 : ((cfg0.win 6).blk t).view.emb (ix2 (0 : Fin 1) jj)
      = ix2 (0 : Fin 1) ((((cfg0.win 10).blk t).view.emb (ix3 (0 : Fin 1) r jj)) 2 : Fin 256) := by
    funext a; apply Fin.ext
    match a with
    | ⟨0, _⟩ => show win0_6.index t (0 : Fin 2) * 1 + 1 * 0 = 0; omega
    | ⟨1, _⟩ => show win0_6.index t (1 : Fin 2) * 256 + 1 * jj.val = win0_10.index t (2 : Fin 3) * 256 + 1 * jj.val; omega
  unfold projArr iblk0
  simp only [View.read_apply]
  refine congrArg₂ (· + ·) (Finset.sum_congr rfl fun d _ => congrArg₂ (· * ·) ?_ ?_) ?_
  · exact congrArg (V c main_arg1) (h0 d)
  · exact congrArg (V c main_v5) (h3 d)
  · exact congrArg (V c main_v8) h4

/-- An index of the array lies in point `t`'s block iff each coordinate lies in the block's range on its axis. -/
theorem mem_blk10 (t : Fin cfg0.N) (i : S8x2048x256.Idx) :
    i ∈ ((cfg0.win 10).blk t).view.set ↔ ∀ a : Fin 3, win0_10.index t a * S1x256x256.size a ≤ (i a).val ∧ (i a).val < win0_10.index t a * S1x256x256.size a + S1x256x256.size a := by
  show i ∈ ((View.whole main_v10_1).slice (win0_10.rect t)).set ↔ _
  rw [View.set_slice_whole, Rect.mem_set_unit]
  exact Iff.rfl

/-- The blocks of the 64 grid points tile the array: row tile `s / 256` of batch `b`. -/
theorem cover10 (i : S8x2048x256.Idx) : ∃ t : Fin cfg0.N, (cfg0.win 10).flush t = true ∧ i ∈ ((cfg0.win 10).blk t).view.set := by
  have hi0 : (i 0).val < 8 := (i 0).isLt
  have hi1 : (i 1).val < 2048 := (i 1).isLt
  have hi2 : (i 2).val < 256 := (i 2).isLt
  obtain ⟨t, ht⟩ := idx_onto10 ⟨(i 0).val, hi0⟩ ⟨(i 1).val / 256, by omega⟩
  have q0 : win0_10.index t (0 : Fin 3) = (i 0).val := congrFun ht 0
  have q1 : win0_10.index t (1 : Fin 3) = (i 1).val / 256 := congrFun ht 1
  have q2 : win0_10.index t (2 : Fin 3) = 0 := congrFun ht 2
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 256 ≤ (i 1).val ∧ (i 1).val < win0_10.index t (1 : Fin 3) * 256 + 256; omega
  | ⟨2, _⟩ => show win0_10.index t (2 : Fin 3) * 256 ≤ (i 2).val ∧ (i 2).val < win0_10.index t (2 : Fin 3) * 256 + 256; omega

/-- After the first region the array of result window 10 is the projection of the region-entry arrays, whole. -/
theorem final10 (c : Dev nD) : (dat0 V c).arrAt 10 cfg0.N = projArr (V c main_arg1) (V c main_v5) (V c main_v8) :=
  (dat0 V c).arrAt_eq_of_cover 10 _ (fun t _ => flushed10_eq V c t) (cover10)

/-! ## Result window 11 of the first region -/

theorem idx_facts11 : ∀ t : Fin cfg0.N, win0_2.index t (0 : Fin 3) = win0_11.index t (0 : Fin 3)
    ∧ win0_2.index t (1 : Fin 3) = win0_11.index t (1 : Fin 3)
    ∧ win0_2.index t (2 : Fin 3) = 0 ∧ win0_11.index t (2 : Fin 3) = 0
    ∧ win0_7.index t (0 : Fin 2) = 0 ∧ win0_7.index t (1 : Fin 2) = 0
    ∧ win0_8.index t (0 : Fin 2) = 0 ∧ win0_8.index t (1 : Fin 2) = 0
    ∧ win0_11.index t (0 : Fin 3) ≤ 7 ∧ win0_11.index t (1 : Fin 3) ≤ 7 :=
  (by decide +kernel : ∀ t : Fin grid0.N, _)

theorem idx_onto11 : ∀ (q0 : Fin 8) (q1 : Fin 8), ∃ t : Fin cfg0.N, win0_11.index t = ![q0.val, q1.val, 0] :=
  (by decide +kernel : ∀ (q0 : Fin 8) (q1 : Fin 8), ∃ t : Fin grid0.N, win0_11.index t = ![q0.val, q1.val, 0])

/-- What grid point `t` writes back into result window 11 is block `t` of the projection of the region-entry arrays. -/
theorem flushed11_eq (c : Dev nD) (t : Fin cfg0.N) :
    (dat0 V c).flushed 11 t = ((cfg0.win 11).blk t).view.read (Elt Ideal) (projArr (V c main_arg2) (V c main_v6) (V c main_v9)) := by
  show (cfg0.win 11).cut (grid0.coords t) ((dat0 V c).after 11 t) = _
  rw [after0_11]
  funext j
  obtain ⟨r, jj, rfl⟩ : ∃ (r : Fin 256) (jj : Fin 768), j = ix3 (0 : Fin 1) r jj :=
    ⟨j 1, j 2, by rw [eq_ix3 j]; congr 1; exact Fin.ext (by have h : (j 0).val < 1 := (j 0).isLt; show (j 0).val = 0; omega)⟩
  show out0_11 (iblk0 V c 2 t) (iblk0 V c 7 t) (iblk0 V c 8 t) (ix3 (0 : Fin 1) r jj) = projArr (V c main_arg2) (V c main_v6) (V c main_v9) (((cfg0.win 11).blk t).view.emb (ix3 (0 : Fin 1) r jj))
  rw [out0_11_apply]
  obtain ⟨e0, e1, e2, e3, e4, e5, e6, e7, e8, e9⟩ := idx_facts11 t
  have h0 : ∀ d : Fin 768, ((cfg0.win 2).blk t).view.emb (ix3 (0 : Fin 1) r d)
      = ix3 ((((cfg0.win 11).blk t).view.emb (ix3 (0 : Fin 1) r jj)) 0 : Fin 8) ((((cfg0.win 11).blk t).view.emb (ix3 (0 : Fin 1) r jj)) 1 : Fin 2048) d := fun d => by
    funext a; apply Fin.ext
    match a with
    | ⟨0, _⟩ => show win0_2.index t (0 : Fin 3) * 1 + 1 * 0 = win0_11.index t (0 : Fin 3) * 1 + 1 * 0; omega
    | ⟨1, _⟩ => show win0_2.index t (1 : Fin 3) * 256 + 1 * r.val = win0_11.index t (1 : Fin 3) * 256 + 1 * r.val; omega
    | ⟨2, _⟩ => show win0_2.index t (2 : Fin 3) * 768 + 1 * d.val = d.val; omega
  have h3 : ∀ d : Fin 768, ((cfg0.win 7).blk t).view.emb (ix2 d jj)
      = ix2 d ((((cfg0.win 11).blk t).view.emb (ix3 (0 : Fin 1) r jj)) 2 : Fin 768) := fun d => by
    funext a; apply Fin.ext
    match a with
    | ⟨0, _⟩ => show win0_7.index t (0 : Fin 2) * 768 + 1 * d.val = d.val; omega
    | ⟨1, _⟩ => show win0_7.index t (1 : Fin 2) * 768 + 1 * jj.val = win0_11.index t (2 : Fin 3) * 768 + 1 * jj.val; omega
  have h4 : ((cfg0.win 8).blk t).view.emb (ix2 (0 : Fin 1) jj)
      = ix2 (0 : Fin 1) ((((cfg0.win 11).blk t).view.emb (ix3 (0 : Fin 1) r jj)) 2 : Fin 768) := by
    funext a; apply Fin.ext
    match a with
    | ⟨0, _⟩ => show win0_8.index t (0 : Fin 2) * 1 + 1 * 0 = 0; omega
    | ⟨1, _⟩ => show win0_8.index t (1 : Fin 2) * 768 + 1 * jj.val = win0_11.index t (2 : Fin 3) * 768 + 1 * jj.val; omega
  unfold projArr iblk0
  simp only [View.read_apply]
  refine congrArg₂ (· + ·) (Finset.sum_congr rfl fun d _ => congrArg₂ (· * ·) ?_ ?_) ?_
  · exact congrArg (V c main_arg2) (h0 d)
  · exact congrArg (V c main_v6) (h3 d)
  · exact congrArg (V c main_v9) h4

/-- An index of the array lies in point `t`'s block iff each coordinate lies in the block's range on its axis. -/
theorem mem_blk11 (t : Fin cfg0.N) (i : S8x2048x768.Idx) :
    i ∈ ((cfg0.win 11).blk t).view.set ↔ ∀ a : Fin 3, win0_11.index t a * S1x256x768.size a ≤ (i a).val ∧ (i a).val < win0_11.index t a * S1x256x768.size a + S1x256x768.size a := by
  show i ∈ ((View.whole main_v10_2).slice (win0_11.rect t)).set ↔ _
  rw [View.set_slice_whole, Rect.mem_set_unit]
  exact Iff.rfl

/-- The blocks of the 64 grid points tile the array: row tile `s / 256` of batch `b`. -/
theorem cover11 (i : S8x2048x768.Idx) : ∃ t : Fin cfg0.N, (cfg0.win 11).flush t = true ∧ i ∈ ((cfg0.win 11).blk t).view.set := by
  have hi0 : (i 0).val < 8 := (i 0).isLt
  have hi1 : (i 1).val < 2048 := (i 1).isLt
  have hi2 : (i 2).val < 768 := (i 2).isLt
  obtain ⟨t, ht⟩ := idx_onto11 ⟨(i 0).val, hi0⟩ ⟨(i 1).val / 256, by omega⟩
  have q0 : win0_11.index t (0 : Fin 3) = (i 0).val := congrFun ht 0
  have q1 : win0_11.index t (1 : Fin 3) = (i 1).val / 256 := congrFun ht 1
  have q2 : win0_11.index t (2 : Fin 3) = 0 := congrFun ht 2
  refine ⟨t, flush0_11 t, ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 256 ≤ (i 1).val ∧ (i 1).val < win0_11.index t (1 : Fin 3) * 256 + 256; omega
  | ⟨2, _⟩ => show win0_11.index t (2 : Fin 3) * 768 ≤ (i 2).val ∧ (i 2).val < win0_11.index t (2 : Fin 3) * 768 + 768; omega

/-- After the first region the array of result window 11 is the projection of the region-entry arrays, whole. -/
theorem final11 (c : Dev nD) : (dat0 V c).arrAt 11 cfg0.N = projArr (V c main_arg2) (V c main_v6) (V c main_v9) :=
  (dat0 V c).arrAt_eq_of_cover 11 _ (fun t _ => flushed11_eq V c t) (cover11)

end Arr0
end Cert.KernelIdeal.Hand
end
-- ==== Proof.LibRows.lean ====
/-
  Two facts about one-row arrays, over literal lengths.

  A vector of length K reshaped to a 1 × K array holds, at column k of its one row, the vector's entry k; and a
  splat of the zero word holds the real number zero at every index.
-/
import Idealize.ShloMosaic.PureOps.Ideal
import Idealize.ShloMosaic.PureOps.Ideal.Laws
import Idealize.ShloMosaic.Lib.Pipeline.Value
import Idealize.ShloMosaic.Lib.ValueIdx

noncomputable section

namespace Cert.LibRows

open Idealize.ShloMosaic Idealize.ShloMosaic.ValueIdx

/-- A vector reshaped to one row, read in that row: entry `k` of the vector. -/
theorem row_apply {K : Nat} (v : FVec Ideal ⟨1, ![K]⟩ .f32) (h : (⟨1, ![K]⟩ : Shape).ShapeCasts ⟨2, ![1, K]⟩) (k : Fin K) :
    shapeCast (⟨2, ![1, K]⟩ : Shape) v h (ix2 (0 : Fin 1) k) = v (ix1 k) := by
  refine (shapeCast_addUnit_apply ![K] v h (ix2 (0 : Fin 1) k)).trans (congrArg v ?_)
  funext a; match a with | ⟨0, _⟩ => rfl

/-- A splat of the zero word over a vector's shape, read anywhere: the real number zero. -/
theorem zeros_apply {K : Nat} (h : (⟨0, ![]⟩ : Shape).BroadcastsInDim ⟨1, ![K]⟩ ![]) (j : (⟨1, ![K]⟩ : Shape).Idx) :
    broadcastInDim (⟨1, ![K]⟩ : Shape) ![] h (constant (F := Ideal) ⟨0, ![]⟩ .f32 0x00000000#32) j = 0 := by
  rw [broadcastInDim_apply ![] h _ j ix0 (fun a => a.elim0)]
  exact Ideal.ofBits_zero_f32

/-- The zero vector reshaped to one row is zero in every column. -/
theorem zero_row_apply {K : Nat} (hb : (⟨0, ![]⟩ : Shape).BroadcastsInDim ⟨1, ![K]⟩ ![])
    (h : (⟨1, ![K]⟩ : Shape).ShapeCasts ⟨2, ![1, K]⟩) (k : Fin K) :
    shapeCast (⟨2, ![1, K]⟩ : Shape) (broadcastInDim (⟨1, ![K]⟩ : Shape) ![] hb (constant (F := Ideal) ⟨0, ![]⟩ .f32 0x00000000#32)) h
      (ix2 (0 : Fin 1) k) = 0 := by
  rw [row_apply]; exact zeros_apply hb _

end Cert.LibRows

end
-- ==== Proof.KernelIdealHost.lean ====
/-
  What the unscoped buffers hold when the first kernel region is entered, read at an index: the two 214 × 768 weights
  padded with zero rows to 256 × 768 and transposed, the 768 × 768 weight transposed, the two bias vectors padded with
  zeros to length 256 and laid out as one row, the third bias as one row; the three activations as launched.
-/
import proofs.«154501_j39676907887142_2_alg».proof.Proof.Gen.KernelIdeal.Launch
import proofs.«154501_j39676907887142_2_alg».proof.Proof.Gen.KernelIdeal.Regions
import proofs.«154501_j39676907887142_2_alg».proof.Proof.LibRows
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

section Terms
variable {F : FTy → Type} [FloatOps F] (m : (ℓ : Loc nD τ sig) → Buf (Elt F) ℓ)

/-- The first weight, padded and transposed. -/
theorem V9_v4 (c : Dev nD) : (Gen.V9 m c (Proc.devRef .tc main_v4) : S768x256.Idx → Elt F .f32)
    = transpose S768x256 [1, 0] (pad S256x768 ![0, 0] ![42, 0] ![0, 0] (m ((c : Thread nD τ).loc main_arg3)) (sitofp .f32 (constantI S_ 32 0#32)) pads_S214x768_S256x768_0420_000 h_S_) transposes_S256x768_S768x256_1_0 := by
  unfold Gen.V9 Gen.V8 Gen.V7 Gen.V6 Gen.V5 Gen.V4 Gen.V3 Gen.V2 Gen.V1 Gen.V0
  after_results
  all_goals rfl
/-- The second weight, padded and transposed. -/
theorem V9_v5 (c : Dev nD) : (Gen.V9 m c (Proc.devRef .tc main_v5) : S768x256.Idx → Elt F .f32)
    = transpose S768x256 [1, 0] (pad S256x768 ![0, 0] ![42, 0] ![0, 0] (m ((c : Thread nD τ).loc main_arg5)) (sitofp .f32 (constantI S_ 32 0#32)) pads_S214x768_S256x768_0420_000 h_S_) transposes_S256x768_S768x256_1_0 := by
  unfold Gen.V9 Gen.V8 Gen.V7 Gen.V6 Gen.V5 Gen.V4 Gen.V3 Gen.V2 Gen.V1 Gen.V0
  after_results
  all_goals rfl
/-- The third weight, transposed. -/
theorem V9_v6 (c : Dev nD) : (Gen.V9 m c (Proc.devRef .tc main_v6) : S768x768.Idx → Elt F .f32)
    = transpose S768x768 [1, 0] (m ((c : Thread nD τ).loc main_arg7)) transposes_S768x768_S768x768_1_0 := by
  unfold Gen.V9 Gen.V8 Gen.V7 Gen.V6 Gen.V5 Gen.V4 Gen.V3 Gen.V2 Gen.V1 Gen.V0
  after_results
  all_goals rfl
/-- The first bias, padded, as one row. -/
theorem V9_v7 (c : Dev nD) : (Gen.V9 m c (Proc.devRef .tc main_v7) : S1x256.Idx → Elt F .f32)
    = shapeCast S1x256 (pad S256 ![0] ![42] ![0] (m ((c : Thread nD τ).loc main_arg4)) (sitofp .f32 (constantI S_ 32 0#32)) pads_S214_S256_0420 h_S_) shapeCasts_S256_S1x256 := by
  unfold Gen.V9 Gen.V8 Gen.V7 Gen.V6 Gen.V5 Gen.V4 Gen.V3 Gen.V2 Gen.V1 Gen.V0
  after_results
  all_goals rfl
/-- The second bias, padded, as one row. -/
theorem V9_v8 (c : Dev nD) : (Gen.V9 m c (Proc.devRef .tc main_v8) : S1x256.Idx → Elt F .f32)
    = shapeCast S1x256 (pad S256 ![0] ![42] ![0] (m ((c : Thread nD τ).loc main_arg6)) (sitofp .f32 (constantI S_ 32 0#32)) pads_S214_S256_0420 h_S_) shapeCasts_S256_S1x256 := by
  unfold Gen.V9 Gen.V8 Gen.V7 Gen.V6 Gen.V5 Gen.V4 Gen.V3 Gen.V2 Gen.V1 Gen.V0
  after_results
  all_goals rfl
/-- The third bias as one row. -/
theorem V9_v9 (c : Dev nD) : (Gen.V9 m c (Proc.devRef .tc main_v9) : S1x768.Idx → Elt F .f32)
    = shapeCast S1x768 (m ((c : Thread nD τ).loc main_arg8)) shapeCasts_S768_S1x768 := by
  unfold Gen.V9 Gen.V8 Gen.V7 Gen.V6 Gen.V5 Gen.V4 Gen.V3 Gen.V2 Gen.V1 Gen.V0
  after_results
  all_goals rfl

/-- No host stretch writes an argument. -/
theorem V9_arg0 (c : Dev nD) : Gen.V9 m c (Proc.devRef .tc main_arg0) = m ((c : Thread nD τ).loc main_arg0) :=
  (Gen.V9_of m c main_arg0 (by decide)).trans <| (Gen.V8_of m c main_arg0 (by decide)).trans <| (Gen.V7_of m c main_arg0 (by decide)).trans <| (Gen.V6_of m c main_arg0 (by decide)).trans <| (Gen.V5_of m c main_arg0 (by decide)).trans <| (Gen.V4_of m c main_arg0 (by decide)).trans <| (Gen.V3_of m c main_arg0 (by decide)).trans <| (Gen.V2_of m c main_arg0 (by decide)).trans <| (Gen.V1_of m c main_arg0 (by decide)).trans rfl
theorem V9_arg1 (c : Dev nD) : Gen.V9 m c (Proc.devRef .tc main_arg1) = m ((c : Thread nD τ).loc main_arg1) :=
  (Gen.V9_of m c main_arg1 (by decide)).trans <| (Gen.V8_of m c main_arg1 (by decide)).trans <| (Gen.V7_of m c main_arg1 (by decide)).trans <| (Gen.V6_of m c main_arg1 (by decide)).trans <| (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide)).trans rfl
theorem V9_arg2 (c : Dev nD) : Gen.V9 m c (Proc.devRef .tc main_arg2) = m ((c : Thread nD τ).loc main_arg2) :=
  (Gen.V9_of m c main_arg2 (by decide)).trans <| (Gen.V8_of m c main_arg2 (by decide)).trans <| (Gen.V7_of m c main_arg2 (by decide)).trans <| (Gen.V6_of m c main_arg2 (by decide)).trans <| (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl
theorem V9_arg9 (c : Dev nD) : Gen.V9 m c (Proc.devRef .tc main_arg9) = m ((c : Thread nD τ).loc main_arg9) :=
  (Gen.V9_of m c main_arg9 (by decide)).trans <| (Gen.V8_of m c main_arg9 (by decide)).trans <| (Gen.V7_of m c main_arg9 (by decide)).trans <| (Gen.V6_of m c main_arg9 (by decide)).trans <| (Gen.V5_of m c main_arg9 (by decide)).trans <| (Gen.V4_of m c main_arg9 (by decide)).trans <| (Gen.V3_of m c main_arg9 (by decide)).trans <| (Gen.V2_of m c main_arg9 (by decide)).trans <| (Gen.V1_of m c main_arg9 (by decide)).trans rfl
theorem V9_arg10 (c : Dev nD) : Gen.V9 m c (Proc.devRef .tc main_arg10) = m ((c : Thread nD τ).loc main_arg10) :=
  (Gen.V9_of m c main_arg10 (by decide)).trans <| (Gen.V8_of m c main_arg10 (by decide)).trans <| (Gen.V7_of m c main_arg10 (by decide)).trans <| (Gen.V6_of m c main_arg10 (by decide)).trans <| (Gen.V5_of m c main_arg10 (by decide)).trans <| (Gen.V4_of m c main_arg10 (by decide)).trans <| (Gen.V3_of m c main_arg10 (by decide)).trans <| (Gen.V2_of m c main_arg10 (by decide)).trans <| (Gen.V1_of m c main_arg10 (by decide)).trans rfl
end Terms

section AtIndex
variable (m : (ℓ : Loc nD τ sig) → Buf (Elt Ideal) ℓ)

/-- The padding value is zero. -/
theorem padval_zero (i : S_.Idx) : (sitofp (F := Ideal) .f32 (constantI S_ 32 0#32)) i = (0 : EReal) := by
  show (Scalar.sitofp .f32 0#32 : Ideal .f32) = 0
  exact Idealize.ShloMosaic.sitofp_zero

/-- A 214 × 768 array padded with 42 zero rows, read at row `j`, column `d`. -/
theorem pad_rows_apply (x : S214x768.Idx → EReal) (j : Fin 256) (d : Fin 768) :
    pad S256x768 ![0, 0] ![42, 0] ![0, 0] x (sitofp (F := Ideal) .f32 (constantI S_ 32 0#32)) pads_S214x768_S256x768_0420_000 h_S_ (ix2 j d)
      = if h : j.val < 214 then x (ix2 ⟨j.val, h⟩ d) else 0 := by
  by_cases h : j.val < 214
  · rw [dif_pos h]
    refine pad_apply_of_inside _ _ _ x _ _ _ (ix2 j d) (ix2 ⟨j.val, h⟩ d) fun a => ?_
    match a with
    | ⟨0, _⟩ => show j.val = 0 + j.val * (0 + 1); omega
    | ⟨1, _⟩ => show d.val = 0 + d.val * (0 + 1); omega
  · rw [dif_neg h]
    rw [pad_apply_of_not_inside _ _ _ x _ _ _ (ix2 j d) (0 : Fin 2) (by
      show ¬(0 ≤ j.val ∧ (j.val - 0) % (0 + 1) = 0 ∧ (j.val - 0) / (0 + 1) < 214)
      rw [Nat.sub_zero, Nat.div_one]; exact fun hh => h hh.2.2)]
    exact padval_zero _

/-- A vector of length 214 padded with 42 zeros, read at `j`. -/
theorem pad_vec_apply (x : S214.Idx → EReal) (j : Fin 256) :
    pad S256 ![0] ![42] ![0] x (sitofp (F := Ideal) .f32 (constantI S_ 32 0#32)) pads_S214_S256_0420 h_S_ (ix1 j)
      = if h : j.val < 214 then x (ix1 ⟨j.val, h⟩) else 0 := by
  by_cases h : j.val < 214
  · rw [dif_pos h]
    refine pad_apply_of_inside _ _ _ x _ _ _ (ix1 j) (ix1 ⟨j.val, h⟩) fun a => ?_
    match a with
    | ⟨0, _⟩ => show j.val = 0 + j.val * (0 + 1); omega
  · rw [dif_neg h]
    rw [pad_apply_of_not_inside _ _ _ x _ _ _ (ix1 j) (0 : Fin 1) (by
      show ¬(0 ≤ j.val ∧ (j.val - 0) % (0 + 1) = 0 ∧ (j.val - 0) / (0 + 1) < 214)
      rw [Nat.sub_zero, Nat.div_one]; exact fun hh => h hh.2.2)]
    exact padval_zero _

theorem V9_v4_apply (c : Dev nD) (d : Fin 768) (j : Fin 256) :
    Gen.V9 m c (Proc.devRef .tc main_v4) (ix2 d j)
      = (if h : j.val < 214 then (m ((c : Thread nD τ).loc main_arg3) : S214x768.Idx → EReal) (ix2 ⟨j.val, h⟩ d) else (0 : EReal)) := by
  rw [show Gen.V9 m c (Proc.devRef .tc main_v4) (ix2 d j) = (Gen.V9 m c (Proc.devRef .tc main_v4) : S768x256.Idx → EReal) (ix2 d j) from rfl, V9_v4]
  rw [transpose_ix2_apply]; exact pad_rows_apply _ j d
theorem V9_v5_apply (c : Dev nD) (d : Fin 768) (j : Fin 256) :
    Gen.V9 m c (Proc.devRef .tc main_v5) (ix2 d j)
      = (if h : j.val < 214 then (m ((c : Thread nD τ).loc main_arg5) : S214x768.Idx → EReal) (ix2 ⟨j.val, h⟩ d) else (0 : EReal)) := by
  rw [show Gen.V9 m c (Proc.devRef .tc main_v5) (ix2 d j) = (Gen.V9 m c (Proc.devRef .tc main_v5) : S768x256.Idx → EReal) (ix2 d j) from rfl, V9_v5]
  rw [transpose_ix2_apply]; exact pad_rows_apply _ j d
theorem V9_v6_apply (c : Dev nD) (d e : Fin 768) :
    Gen.V9 m c (Proc.devRef .tc main_v6) (ix2 d e) = (m ((c : Thread nD τ).loc main_arg7) : S768x768.Idx → EReal) (ix2 e d) := by
  rw [show Gen.V9 m c (Proc.devRef .tc main_v6) (ix2 d e) = (Gen.V9 m c (Proc.devRef .tc main_v6) : S768x768.Idx → EReal) (ix2 d e) from rfl, V9_v6]
  exact transpose_ix2_apply _ _ d e
theorem V9_v7_apply (c : Dev nD) (j : Fin 256) :
    Gen.V9 m c (Proc.devRef .tc main_v7) (ix2 (0 : Fin 1) j)
      = (if h : j.val < 214 then (m ((c : Thread nD τ).loc main_arg4) : S214.Idx → EReal) (ix1 ⟨j.val, h⟩) else (0 : EReal)) := by
  rw [show Gen.V9 m c (Proc.devRef .tc main_v7) (ix2 (0 : Fin 1) j) = (Gen.V9 m c (Proc.devRef .tc main_v7) : S1x256.Idx → EReal) (ix2 (0 : Fin 1) j) from rfl, V9_v7]
  rw [Cert.LibRows.row_apply]; exact pad_vec_apply _ j
theorem V9_v8_apply (c : Dev nD) (j : Fin 256) :
    Gen.V9 m c (Proc.devRef .tc main_v8) (ix2 (0 : Fin 1) j)
      = (if h : j.val < 214 then (m ((c : Thread nD τ).loc main_arg6) : S214.Idx → EReal) (ix1 ⟨j.val, h⟩) else (0 : EReal)) := by
  rw [show Gen.V9 m c (Proc.devRef .tc main_v8) (ix2 (0 : Fin 1) j) = (Gen.V9 m c (Proc.devRef .tc main_v8) : S1x256.Idx → EReal) (ix2 (0 : Fin 1) j) from rfl, V9_v8]
  rw [Cert.LibRows.row_apply]; exact pad_vec_apply _ j
theorem V9_v9_apply (c : Dev nD) (e : Fin 768) :
    Gen.V9 m c (Proc.devRef .tc main_v9) (ix2 (0 : Fin 1) e) = (m ((c : Thread nD τ).loc main_arg8) : S768.Idx → EReal) (ix1 e) := by
  rw [show Gen.V9 m c (Proc.devRef .tc main_v9) (ix2 (0 : Fin 1) e) = (Gen.V9 m c (Proc.devRef .tc main_v9) : S1x768.Idx → EReal) (ix2 (0 : Fin 1) e) from rfl, V9_v9]
  exact Cert.LibRows.row_apply _ _ e

end AtIndex

end Cert.KernelIdeal.Hand
end
-- ==== Proof.KernelIdealGlue0.lean ====
/-
  The three arrays the first kernel region leaves, read at coordinates, are the padded, transposed projections of the
  launch arrays: the query and key projections over the padded width 256, the value projection over width 768. The
  divisor and the mask are as launched.
-/
import proofs.«154501_j39676907887142_2_alg».proof.Proof.KernelIdealRun
import proofs.«154501_j39676907887142_2_alg».proof.Proof.KernelIdealArr0
import proofs.«154501_j39676907887142_2_alg».proof.Proof.KernelIdealHost
import proofs.«154501_j39676907887142_2_alg».proof.Proof.KSpec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

section Glue0
variable (m : (ℓ : Loc nD τ sig) → Buf (Elt Ideal) ℓ)

/-! ## The launch arrays read at coordinates -/

abbrev X1 (c : Dev nD) : Fin 8 → Fin 2048 → Fin 768 → EReal :=
  fun b s d => (m ((c : Thread nD τ).loc main_arg0) : S8x2048x768.Idx → EReal) (ix3 b s d)
abbrev X2 (c : Dev nD) : Fin 8 → Fin 2048 → Fin 768 → EReal :=
  fun b s d => (m ((c : Thread nD τ).loc main_arg1) : S8x2048x768.Idx → EReal) (ix3 b s d)
abbrev X3 (c : Dev nD) : Fin 8 → Fin 2048 → Fin 768 → EReal :=
  fun b s d => (m ((c : Thread nD τ).loc main_arg2) : S8x2048x768.Idx → EReal) (ix3 b s d)
abbrev WQ (c : Dev nD) : Fin 214 → Fin 768 → EReal :=
  fun j d => (m ((c : Thread nD τ).loc main_arg3) : S214x768.Idx → EReal) (ix2 j d)
abbrev BQ (c : Dev nD) : Fin 214 → EReal :=
  fun j => (m ((c : Thread nD τ).loc main_arg4) : S214.Idx → EReal) (ix1 j)
abbrev WK (c : Dev nD) : Fin 214 → Fin 768 → EReal :=
  fun j d => (m ((c : Thread nD τ).loc main_arg5) : S214x768.Idx → EReal) (ix2 j d)
abbrev BK (c : Dev nD) : Fin 214 → EReal :=
  fun j => (m ((c : Thread nD τ).loc main_arg6) : S214.Idx → EReal) (ix1 j)
abbrev WV (c : Dev nD) : Fin 768 → Fin 768 → EReal :=
  fun e d => (m ((c : Thread nD τ).loc main_arg7) : S768x768.Idx → EReal) (ix2 e d)
abbrev BV (c : Dev nD) : Fin 768 → EReal :=
  fun e => (m ((c : Thread nD τ).loc main_arg8) : S768.Idx → EReal) (ix1 e)
abbrev INV (c : Dev nD) : Fin 2048 → Fin 2048 → EReal :=
  fun s t => (m ((c : Thread nD τ).loc main_arg9) : S2048x2048.Idx → EReal) (ix2 s t)
abbrev DROP (c : Dev nD) : Fin 8 → Fin 2048 → Fin 2048 → EReal :=
  fun b s t => (m ((c : Thread nD τ).loc main_arg10) : S8x2048x2048.Idx → EReal) (ix3 b s t)

/-! ## The first region's results -/

/-- A projection array read at (b, s, j). -/
theorem projArr_ix3 {n : ℕ} (a0 : (⟨3, ![8, 2048, 768]⟩ : Shape).Idx → EReal) (w : (⟨2, ![768, n]⟩ : Shape).Idx → EReal)
    (bb : (⟨2, ![1, n]⟩ : Shape).Idx → EReal) (b : Fin 8) (s : Fin 2048) (j : Fin n) :
    projArr a0 w bb (ix3 b s j) = (∑ d : Fin 768, a0 (ix3 b s d) * w (ix2 d j)) + bb (ix2 (0 : Fin 1) j) := rfl

/-- The query projection over the padded width, at (b, s, j). -/
theorem W10_q (c : Dev nD) (b : Fin 8) (s : Fin 2048) (j : Fin 256) :
    (W10 m c (Proc.devRef .tc main_v10_0) : S8x2048x256.Idx → EReal) (ix3 b s j)
      = Cert.KSpec.projT (X1 m c) (Cert.KSpec.padW (WQ m c)) (Cert.KSpec.padB (BQ m c)) b s j := by
  have h : (W10 m c (Proc.devRef .tc main_v10_0) : S8x2048x256.Idx → EReal)
      = projArr (V9r m c main_arg0) (V9r m c main_v4) (V9r m c main_v7) := (W10_arr m c 9).trans (final9 (V9r m) c)
  rw [h, projArr_ix3]
  simp only [V9r]
  rw [V9_v7_apply, V9_arg0]
  show _ = (∑ d : Fin 768, X1 m c b s d * (Cert.KSpec.padW (WQ m c)) d j) + (Cert.KSpec.padB (BQ m c)) j
  refine congrArg₂ (· + ·) (Finset.sum_congr rfl fun d _ => ?_) rfl
  rw [V9_v4_apply]
  rfl

/-- The key projection over the padded width, at (b, s, j). -/
theorem W10_k (c : Dev nD) (b : Fin 8) (s : Fin 2048) (j : Fin 256) :
    (W10 m c (Proc.devRef .tc main_v10_1) : S8x2048x256.Idx → EReal) (ix3 b s j)
      = Cert.KSpec.projT (X2 m c) (Cert.KSpec.padW (WK m c)) (Cert.KSpec.padB (BK m c)) b s j := by
  have h : (W10 m c (Proc.devRef .tc main_v10_1) : S8x2048x256.Idx → EReal)
      = projArr (V9r m c main_arg1) (V9r m c main_v5) (V9r m c main_v8) := (W10_arr m c 10).trans (final10 (V9r m) c)
  rw [h, projArr_ix3]
  simp only [V9r]
  rw [V9_v8_apply, V9_arg1]
  show _ = (∑ d : Fin 768, X2 m c b s d * (Cert.KSpec.padW (WK m c)) d j) + (Cert.KSpec.padB (BK m c)) j
  refine congrArg₂ (· + ·) (Finset.sum_congr rfl fun d _ => ?_) rfl
  rw [V9_v5_apply]
  rfl

/-- The value projection, at (b, s, e). -/
theorem W10_v (c : Dev nD) (b : Fin 8) (s : Fin 2048) (e : Fin 768) :
    (W10 m c (Proc.devRef .tc main_v10_2) : S8x2048x768.Idx → EReal) (ix3 b s e)
      = Cert.KSpec.projT (X3 m c) (fun d e => WV m c e d) (BV m c) b s e := by
  have h : (W10 m c (Proc.devRef .tc main_v10_2) : S8x2048x768.Idx → EReal)
      = projArr (V9r m c main_arg2) (V9r m c main_v6) (V9r m c main_v9) := (W10_arr m c 11).trans (final11 (V9r m) c)
  rw [h, projArr_ix3]
  simp only [V9r]
  rw [V9_v9_apply, V9_arg2]
  show _ = (∑ d : Fin 768, X3 m c b s d * (fun d e => WV m c e d) d e) + (BV m c) e
  refine congrArg₂ (· + ·) (Finset.sum_congr rfl fun d _ => ?_) rfl
  rw [V9_v6_apply]

/-- The first region leaves the divisor as launched. -/
theorem W10_inv (c : Dev nD) :
    (W10 m c (Proc.devRef .tc main_arg9) : S2048x2048.Idx → EReal) = m ((c : Thread nD τ).loc main_arg9) :=
  (W10_of_ne m c main_arg9 (by decide)).trans (V9_arg9 m c)

/-- The first region leaves the mask as launched. -/
theorem W10_drop (c : Dev nD) :
    (W10 m c (Proc.devRef .tc main_arg10) : S8x2048x2048.Idx → EReal) = m ((c : Thread nD τ).loc main_arg10) :=
  (W10_of_ne m c main_arg10 (by decide)).trans (V9_arg10 m c)

end Glue0

end Cert.KernelIdeal.Hand

end
-- ==== Proof.KernelIdealR1Pieces.lean ====
import proofs.«154501_j39676907887142_2_alg».proof.Proof.KernelIdealR1
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention sweep: each case's contents as the body's arithmetic of the point's blocks

What a point leaves in the three carried buffers — and, at a final-store point, in the output block — stated over the
point's five input blocks and what the point before left in the carried buffers, with every buffer read resolved: a
load of a whole input buffer is its block; a load of a carried buffer is what the point before left, or, when one of
this point's stores into that buffer precedes it, the value that store wrote. -/

section Region1

/-- The zero offsets of a whole-buffer rectangle, in two and in three dimensions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- At a reset point the running maximum becomes the maximum of the reset value (minus infinity) and this tile's row maxima: the load that follows the reset store reads the reset value back. -/
theorem sout1_A_0_eq (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) :
    sout1_A_0 c i arg3 harg3 arg4 harg4 arg5 harg5 arg6 harg6 arg7 harg7 arg8 harg8 arg9 harg9 arg10 harg10 arg11 harg11 hc0 hc1 x0 x1 x2 x3 x4 = k1_pay2 (k1_pay9 x0 x1 x3 (k1_pay4 (F := F))) := by
  unfold sout1_A_0
  rw [View.read_writes_eq_canon _ _ _ (scover1_A_0 c i arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  rw [View.canon_cons_unit_zero (S := S1024x1) hz2, View.readCov_unit_zero (S := S1024x1) arg9.view hz2]
  simp only [View.readAt_eq_ld, harg3.read_unread, harg4.read_unread, harg5.read_unread, harg6.read_unread, harg7.read_unread, harg9.read_unread, harg10.read_unread, harg11.read_unread,
    View.ld_unit_zero (S := S1x1024x256) hz3, View.ld_unit_zero (S := S1x512x256) hz3, View.ld_unit_zero (S := S1x512x768) hz3, View.ld_unit_zero (S := S1024x512) hz2, View.ld_unit_zero (S := S1x1024x512) hz3, View.ld_unit_zero (S := S1024x1) hz2, View.ld_unit_zero (S := S1024x768) hz2]

/-- At a reset point the running sum becomes the reset sum (zero) rescaled plus this tile's row sums, over the reset maximum. -/
theorem sout1_A_1_eq (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) :
    sout1_A_1 c i arg3 harg3 arg4 harg4 arg5 harg5 arg6 harg6 arg7 harg7 arg8 harg8 arg9 harg9 arg10 harg10 arg11 harg11 hc0 hc1 x0 x1 x2 x3 x4 = k1_pay12 x0 x1 x3 (k1_pay4 (F := F)) (k1_pay4 (F := F)) (k1_pay5 (F := F)) := by
  unfold sout1_A_1
  rw [View.read_writes_eq_canon _ _ _ (scover1_A_1 c i arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  rw [View.canon_cons_unit_zero (S := S1024x1) hz2, View.readCov_unit_zero (S := S1024x1) arg9.view hz2, View.readCov_unit_zero (S := S1024x1) arg10.view hz2]
  simp only [View.readAt_eq_ld, harg3.read_unread, harg4.read_unread, harg5.read_unread, harg6.read_unread, harg7.read_unread, harg9.read_unread, harg10.read_unread, harg11.read_unread,
    View.ld_unit_zero (S := S1x1024x256) hz3, View.ld_unit_zero (S := S1x512x256) hz3, View.ld_unit_zero (S := S1x512x768) hz3, View.ld_unit_zero (S := S1024x512) hz2, View.ld_unit_zero (S := S1x1024x512) hz3, View.ld_unit_zero (S := S1024x1) hz2, View.ld_unit_zero (S := S1024x768) hz2]

/-- At a reset point the accumulator becomes the reset accumulator (zero) rescaled plus this tile's weighted values, over the reset maximum. -/
theorem sout1_A_2_eq (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) :
    sout1_A_2 c i arg3 harg3 arg4 harg4 arg5 harg5 arg6 harg6 arg7 harg7 arg8 harg8 arg9 harg9 arg10 harg10 arg11 harg11 hc0 hc1 x0 x1 x2 x3 x4 = k1_pay1 (k1_pay7 x2) (k1_pay10 x0 x1 x3 (k1_pay4 (F := F)) (k1_pay4 (F := F))) (k1_pay11 x0 x1 x3 (k1_pay4 (F := F))) x4 (k1_pay6 (F := F)) := by
  unfold sout1_A_2
  rw [View.read_writes_eq_canon _ _ _ (scover1_A_2 c i arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  rw [View.canon_cons_unit_zero (S := S1024x768) hz2, View.readCov_unit_zero (S := S1024x1) arg9.view hz2, View.readCov_unit_zero (S := S1024x768) arg11.view hz2]
  simp only [View.readAt_eq_ld, harg3.read_unread, harg4.read_unread, harg5.read_unread, harg6.read_unread, harg7.read_unread, harg9.read_unread, harg10.read_unread, harg11.read_unread,
    View.ld_unit_zero (S := S1x1024x256) hz3, View.ld_unit_zero (S := S1x512x256) hz3, View.ld_unit_zero (S := S1x512x768) hz3, View.ld_unit_zero (S := S1024x512) hz2, View.ld_unit_zero (S := S1x1024x512) hz3, View.ld_unit_zero (S := S1024x1) hz2, View.ld_unit_zero (S := S1024x768) hz2]

/-- At a middle point the running maximum becomes the maximum of what the point before left and this tile's row maxima. -/
theorem sout1_B_0_eq (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) :
    sout1_B_0 c i arg3 harg3 arg4 harg4 arg5 harg5 arg6 harg6 arg7 harg7 arg8 harg8 arg9 harg9 arg10 harg10 arg11 harg11 hc0 hc1 x0 x1 x2 x3 x4 xs0 xs1 xs2 = k1_pay2 (k1_pay9 x0 x1 x3 xs0) := by
  unfold sout1_B_0
  rw [View.read_writes_eq_canon _ _ _ (scover1_B_0 c i arg3 harg3 arg4 harg4 arg5 harg5 arg6 harg6 arg7 harg7 arg8 harg8 arg9 harg9 arg10 harg10 arg11 harg11 hc0 hc1 x0 x1 x2 x3 x4 xs0 xs1 xs2)]
  unfold kernelRun1_B
  dsimp only
  rw [View.canon_unit_zero (S := S1024x1) hz2]
  simp only [View.readAt_eq_ld, harg3.read_unread, harg4.read_unread, harg5.read_unread, harg6.read_unread, harg7.read_unread, harg9.read_unread, harg10.read_unread, harg11.read_unread,
    View.ld_unit_zero (S := S1x1024x256) hz3, View.ld_unit_zero (S := S1x512x256) hz3, View.ld_unit_zero (S := S1x512x768) hz3, View.ld_unit_zero (S := S1024x512) hz2, View.ld_unit_zero (S := S1x1024x512) hz3, View.ld_unit_zero (S := S1024x1) hz2, View.ld_unit_zero (S := S1024x768) hz2]

/-- At a middle point the running sum becomes what the point before left, rescaled, plus this tile's row sums. -/
theorem sout1_B_1_eq (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) :
    sout1_B_1 c i arg3 harg3 arg4 harg4 arg5 harg5 arg6 harg6 arg7 harg7 arg8 harg8 arg9 harg9 arg10 harg10 arg11 harg11 hc0 hc1 x0 x1 x2 x3 x4 xs0 xs1 xs2 = k1_pay12 x0 x1 x3 xs0 xs0 xs1 := by
  unfold sout1_B_1
  rw [View.read_writes_eq_canon _ _ _ (scover1_B_1 c i arg3 harg3 arg4 harg4 arg5 harg5 arg6 harg6 arg7 harg7 arg8 harg8 arg9 harg9 arg10 harg10 arg11 harg11 hc0 hc1 x0 x1 x2 x3 x4 xs0 xs1 xs2)]
  unfold kernelRun1_B
  dsimp only
  rw [View.canon_unit_zero (S := S1024x1) hz2]
  simp only [View.readAt_eq_ld, harg3.read_unread, harg4.read_unread, harg5.read_unread, harg6.read_unread, harg7.read_unread, harg9.read_unread, harg10.read_unread, harg11.read_unread,
    View.ld_unit_zero (S := S1x1024x256) hz3, View.ld_unit_zero (S := S1x512x256) hz3, View.ld_unit_zero (S := S1x512x768) hz3, View.ld_unit_zero (S := S1024x512) hz2, View.ld_unit_zero (S := S1x1024x512) hz3, View.ld_unit_zero (S := S1024x1) hz2, View.ld_unit_zero (S := S1024x768) hz2]

/-- At a middle point the accumulator becomes what the point before left, rescaled, plus this tile's weighted values. -/
theorem sout1_B_2_eq (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : ¬cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) :
    sout1_B_2 c i arg3 harg3 arg4 harg4 arg5 harg5 arg6 harg6 arg7 harg7 arg8 harg8 arg9 harg9 arg10 harg10 arg11 harg11 hc0 hc1 x0 x1 x2 x3 x4 xs0 xs1 xs2 = k1_pay1 (k1_pay7 x2) (k1_pay10 x0 x1 x3 xs0 xs0) (k1_pay11 x0 x1 x3 xs0) x4 xs2 := by
  unfold sout1_B_2
  rw [View.read_writes_eq_canon _ _ _ (scover1_B_2 c i arg3 harg3 arg4 harg4 arg5 harg5 arg6 harg6 arg7 harg7 arg8 harg8 arg9 harg9 arg10 harg10 arg11 harg11 hc0 hc1 x0 x1 x2 x3 x4 xs0 xs1 xs2)]
  unfold kernelRun1_B
  dsimp only
  rw [View.canon_unit_zero (S := S1024x768) hz2]
  simp only [View.readAt_eq_ld, harg3.read_unread, harg4.read_unread, harg5.read_unread, harg6.read_unread, harg7.read_unread, harg9.read_unread, harg10.read_unread, harg11.read_unread,
    View.ld_unit_zero (S := S1x1024x256) hz3, View.ld_unit_zero (S := S1x512x256) hz3, View.ld_unit_zero (S := S1x512x768) hz3, View.ld_unit_zero (S := S1024x512) hz2, View.ld_unit_zero (S := S1x1024x512) hz3, View.ld_unit_zero (S := S1024x1) hz2, View.ld_unit_zero (S := S1024x768) hz2]

/-- At a final-store point the running maximum is updated as at a middle point. -/
theorem sout1_C_0_eq (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) :
    sout1_C_0 c i arg3 harg3 arg4 harg4 arg5 harg5 arg6 harg6 arg7 harg7 arg8 harg8 arg9 harg9 arg10 harg10 arg11 harg11 hc0 hc1 x0 x1 x2 x3 x4 xs0 xs1 xs2 = k1_pay2 (k1_pay9 x0 x1 x3 xs0) := by
  unfold sout1_C_0
  rw [View.read_writes_eq_canon _ _ _ (scover1_C_0 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  rw [View.canon_unit_zero (S := S1024x1) hz2]
  simp only [View.readAt_eq_ld, harg3.read_unread, harg4.read_unread, harg5.read_unread, harg6.read_unread, harg7.read_unread, harg9.read_unread, harg10.read_unread, harg11.read_unread,
    View.ld_unit_zero (S := S1x1024x256) hz3, View.ld_unit_zero (S := S1x512x256) hz3, View.ld_unit_zero (S := S1x512x768) hz3, View.ld_unit_zero (S := S1024x512) hz2, View.ld_unit_zero (S := S1x1024x512) hz3, View.ld_unit_zero (S := S1024x1) hz2, View.ld_unit_zero (S := S1024x768) hz2]

/-- At a final-store point the running sum is updated as at a middle point. -/
theorem sout1_C_1_eq (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) :
    sout1_C_1 c i arg3 harg3 arg4 harg4 arg5 harg5 arg6 harg6 arg7 harg7 arg8 harg8 arg9 harg9 arg10 harg10 arg11 harg11 hc0 hc1 x0 x1 x2 x3 x4 xs0 xs1 xs2 = k1_pay12 x0 x1 x3 xs0 xs0 xs1 := by
  unfold sout1_C_1
  rw [View.read_writes_eq_canon _ _ _ (scover1_C_1 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  rw [View.canon_unit_zero (S := S1024x1) hz2]
  simp only [View.readAt_eq_ld, harg3.read_unread, harg4.read_unread, harg5.read_unread, harg6.read_unread, harg7.read_unread, harg9.read_unread, harg10.read_unread, harg11.read_unread,
    View.ld_unit_zero (S := S1x1024x256) hz3, View.ld_unit_zero (S := S1x512x256) hz3, View.ld_unit_zero (S := S1x512x768) hz3, View.ld_unit_zero (S := S1024x512) hz2, View.ld_unit_zero (S := S1x1024x512) hz3, View.ld_unit_zero (S := S1024x1) hz2, View.ld_unit_zero (S := S1024x768) hz2]

/-- At a final-store point the accumulator is updated as at a middle point. -/
theorem sout1_C_2_eq (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) :
    sout1_C_2 c i arg3 harg3 arg4 harg4 arg5 harg5 arg6 harg6 arg7 harg7 arg8 harg8 arg9 harg9 arg10 harg10 arg11 harg11 hc0 hc1 x0 x1 x2 x3 x4 xs0 xs1 xs2 = k1_pay1 (k1_pay7 x2) (k1_pay10 x0 x1 x3 xs0 xs0) (k1_pay11 x0 x1 x3 xs0) x4 xs2 := by
  unfold sout1_C_2
  rw [View.read_writes_eq_canon _ _ _ (scover1_C_2 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  rw [View.canon_unit_zero (S := S1024x768) hz2]
  simp only [View.readAt_eq_ld, harg3.read_unread, harg4.read_unread, harg5.read_unread, harg6.read_unread, harg7.read_unread, harg9.read_unread, harg10.read_unread, harg11.read_unread,
    View.ld_unit_zero (S := S1x1024x256) hz3, View.ld_unit_zero (S := S1x512x256) hz3, View.ld_unit_zero (S := S1x512x768) hz3, View.ld_unit_zero (S := S1024x512) hz2, View.ld_unit_zero (S := S1x1024x512) hz3, View.ld_unit_zero (S := S1024x1) hz2, View.ld_unit_zero (S := S1024x768) hz2]

/-- At a final-store point the output block is the updated accumulator divided by the updated running sum: both loads
    follow this point's stores of those buffers and read the stored values back. -/
theorem out1_C_5_eq (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x768 .bf16) (harg5 : arg5.IsWhole) (arg6 : Memref sig .tc .vmem S1024x512 .f32) (harg6 : arg6.IsWhole) (arg7 : Memref sig .tc .vmem S1x1024x512 .f32) (harg7 : arg7.IsWhole) (arg8 : Memref sig .tc .vmem S1x1024x768 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x768 .f32) (harg11 : arg11.IsWhole) (hc0 : ¬cond1_0 i) (hc1 : cond1_1 i)
    (x0 : Vec F S1x1024x256 .bf16) (x1 : Vec F S1x512x256 .bf16) (x2 : Vec F S1x512x768 .bf16) (x3 : Vec F S1024x512 .f32) (x4 : Vec F S1x1024x512 .f32) (xs0 : Vec F S1024x1 .f32) (xs1 : Vec F S1024x1 .f32) (xs2 : Vec F S1024x768 .f32) :
    out1_C_5 c i arg3 harg3 arg4 harg4 arg5 harg5 arg6 harg6 arg7 harg7 arg8 harg8 arg9 harg9 arg10 harg10 arg11 harg11 hc0 hc1 x0 x1 x2 x3 x4 xs0 xs1 xs2 = k1_pay3 (k1_pay1 (k1_pay7 x2) (k1_pay10 x0 x1 x3 xs0 xs0) (k1_pay11 x0 x1 x3 xs0) x4 xs2) (k1_pay12 x0 x1 x3 xs0 xs0 xs1) := by
  unfold out1_C_5
  rw [View.read_writes_eq_canon _ _ _ (cover1_C_5 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  rw [View.canon_unit_zero (S := S1x1024x768) hz3, View.readCov_unit_zero (S := S1024x768) arg11.view hz2, View.readCov_unit_zero (S := S1024x1) arg10.view hz2]
  simp only [View.readAt_eq_ld, harg3.read_unread, harg4.read_unread, harg5.read_unread, harg6.read_unread, harg7.read_unread, harg9.read_unread, harg10.read_unread, harg11.read_unread,
    View.ld_unit_zero (S := S1x1024x256) hz3, View.ld_unit_zero (S := S1x512x256) hz3, View.ld_unit_zero (S := S1x512x768) hz3, View.ld_unit_zero (S := S1024x512) hz2, View.ld_unit_zero (S := S1x1024x512) hz3, View.ld_unit_zero (S := S1024x1) hz2, View.ld_unit_zero (S := S1024x768) hz2]

end Region1

end Cert.KernelIdeal.Hand
end
-- ==== Proof.KernelIdealPay1.lean ====
import proofs.«154501_j39676907887142_2_alg».proof.Proof.KernelIdealR0
import proofs.«154501_j39676907887142_2_alg».proof.Proof.LibOnlineSoftmax
import Idealize.ShloMosaic.Lib.ValueIdx
import Idealize.ShloMosaic.Lib.Pipeline.Value
import Idealize.ShloMosaic.Lib.ValueLayout
import Idealize.ShloMosaic.PureOps.Ideal.Laws

/-!
# The attention kernel's values, read at an index

At the ideal instance every float is an extended real, a change of format is the identity, a
matrix product into a zero accumulator is a plain sum, a lane maximum is a fold of max from ⊥ and a
lane sum is a finite sum. Each value the attention kernel computes at a grid point is read here at
a row r of the query tile, a position t of the key tile and a column e of the value tile: the
scaled score, the new running maximum, the two rescaling exponentials, the new denominator and
the new numerator; together they are one step of the online softmax recurrence.
-/

noncomputable section

namespace Cert.KernelIdeal.Hand

open Cert.KernelIdeal Cert.KernelIdeal.Gen Idealize.ShloMosaic
open Idealize.ShloMosaic.ValueIdx

/-! ### Layout operations on a column -/

section Column
variable {α : Type}

/-- A vector of a entries cast to an a × 1 column reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast to a × b reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- The word 0xFF800000 denotes ⊥. -/
theorem ofBits_neg_inf_f32 : Ideal.ofBits .f32 0xFF800000#32 = ⊥ := by
  simp [Ideal.ofBits, Ideal.ieee]

/-- Over a row r of a 1024 × 512 array, the index with coordinate t on the reduced axis is (r, t). -/
theorem lift_row (r : Fin 1024) (t : Fin 512) :
    reduces_S1024x512_S1024.lift (ix1 r) t = ix2 r t :=
  funext fun c => Fin.ext (by match c with | ⟨0, _⟩ => rfl | ⟨1, _⟩ => rfl)

/-! ### The scores -/

/-- On the row axis the left operand of the 1024 × 256 by (512 × 256)ᵀ product reads the result's row. -/
theorem lhs_qk_0 (i : S1024x512.Idx) (q : dot_S1024x256_S512x256_S1024x512_1_1_0_0_n_n.contr.Idx) :
    (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide),
    dif_pos (show (0 : Fin S1024x256.rank) ∈ dot_S1024x256_S512x256_S1024x512_1_1_0_0_n_n.lhsNonContracting by decide)]
  rfl

/-- On its row axis the right operand of that product reads the result's column. -/
theorem rhs_qk_0 (i : S1024x512.Idx) (q : dot_S1024x256_S512x256_S1024x512_1_1_0_0_n_n.contr.Idx) :
    (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide),
    dif_pos (show (0 : Fin S512x256.rank) ∈ dot_S1024x256_S512x256_S1024x512_1_1_0_0_n_n.rhsNonContracting by decide)]
  rfl

/-- The product of a 1024 × 256 matrix with the transpose of a 512 × 256 matrix into a zero
    accumulator, at row r and column t, is the sum over the 256 features of the products of the
    entries of row r of the first and row t of the second. -/
theorem matmul_qk_apply (l : FVec Ideal S1024x256 .bf16) (w : FVec Ideal S512x256 .bf16) (r : Fin 1024) (t : Fin 512) :
    matmul dot_S1024x256_S512x256_S1024x512_1_1_0_0_n_n none l w (constant (F := Ideal) S1024x512 .f32 0x00000000#32) (ix2 r t)
      = ∑ j : Fin 256, l (ix2 r j) * w (ix2 t j) := by
  refine (Ideal.matmul_constant_zero_apply dot_S1024x256_S512x256_S1024x512_1_1_0_0_n_n none l w (ix2 r t)).trans ?_
  rw [← Equiv.sum_comp (contrEquiv1 dot_S1024x256_S512x256_S1024x512_1_1_0_0_n_n 256 rfl rfl).symm]
  refine Finset.sum_congr rfl fun k _ => ?_
  have hk := contrEquiv1_symm_val dot_S1024x256_S512x256_S1024x512_1_1_0_0_n_n 256 rfl rfl k
  have el : dot_S1024x256_S512x256_S1024x512_1_1_0_0_n_n.lhsIdx (ix2 r t)
      ((contrEquiv1 dot_S1024x256_S512x256_S1024x512_1_1_0_0_n_n 256 rfl rfl).symm k) = ix2 r k :=
    funext fun a => Fin.ext (by
      match a with
      | ⟨0, _⟩ => exact lhs_qk_0 _ _
      | ⟨1, _⟩ => exact (dot_S1024x256_S512x256_S1024x512_1_1_0_0_n_n.lhsIdx_val_of_single rfl _ _).trans hk)
  have er : dot_S1024x256_S512x256_S1024x512_1_1_0_0_n_n.rhsIdx (ix2 r t)
      ((contrEquiv1 dot_S1024x256_S512x256_S1024x512_1_1_0_0_n_n 256 rfl rfl).symm k) = ix2 t k :=
    funext fun a => Fin.ext (by
      match a with
      | ⟨0, _⟩ => exact rhs_qk_0 _ _
      | ⟨1, _⟩ => exact (dot_S1024x256_S512x256_S1024x512_1_1_0_0_n_n.rhsIdx_val_of_single rfl _ _).trans hk)
  rw [el, er]

/-- The scaled score at row r and position t: the inner product of query row r and key row t over
    the 256 features, divided by the divisor at (r, t). -/
theorem k1_pay8_apply (v3 : Vec Ideal S1x1024x256 .bf16) (v5 : Vec Ideal S1x512x256 .bf16) (v10 : Vec Ideal S1024x512 .f32)
    (r : Fin 1024) (t : Fin 512) :
    k1_pay8 (F := Ideal) v3 v5 v10 (ix2 r t)
      = Ideal.div (∑ j : Fin 256, v3 (ix3 (0 : Fin 1) r j) * v5 (ix3 (0 : Fin 1) t j)) (v10 (ix2 r t)) := by
  unfold k1_pay8
  rw [divf_apply, matmul_qk_apply]
  refine congrArg (fun x => Ideal.div x (v10 (ix2 r t))) (Finset.sum_congr rfl fun j _ => ?_)
  rw [shapeCast_1ab_ab_apply, shapeCast_1ab_ab_apply]

/-! ### The running maximum, the rescaling factors and the denominator -/

/-- The new running maximum at row r: the larger of the old one and the fold of max from ⊥ of the
    row's 512 scaled scores. -/
theorem k1_pay9_apply (v3 : Vec Ideal S1x1024x256 .bf16) (v5 : Vec Ideal S1x512x256 .bf16) (v10 : Vec Ideal S1024x512 .f32)
    (v12 : Vec Ideal S1024x1 .f32) (r : Fin 1024) :
    k1_pay9 (F := Ideal) v3 v5 v10 v12 (ix2 r (0 : Fin 1))
      = max (v12 (ix2 r (0 : Fin 1)))
          (Finset.univ.fold max ⊥ (fun t : Fin 512 => k1_pay8 (F := Ideal) v3 v5 v10 (ix2 r t))) := by
  unfold k1_pay9
  rw [maximumf_apply, shapeCast_a_a1_apply]
  refine congrArg (max (v12 (ix2 r (0 : Fin 1)))) ?_
  refine (Ideal.multiReduction_maximumf_single (k1_pay8 (F := Ideal) v3 v5 v10) 0xFF800000#32
    reduces_S1024x512_S1024 (.inl rfl) rfl (ix1 r)).trans ?_
  rw [Ideal.ofBits_def, ofBits_neg_inf_f32]
  show (Finset.univ : Finset (Fin 512)).fold max ⊥
      (fun t : Fin 512 => k1_pay8 (F := Ideal) v3 v5 v10 (reduces_S1024x512_S1024.lift (ix1 r) t)) = _
  simp only [lift_row]

/-- The factor that rescales the old sums at row r: exp of the old maximum minus the new one. -/
theorem k1_pay10_apply (v3 : Vec Ideal S1x1024x256 .bf16) (v5 : Vec Ideal S1x512x256 .bf16) (v10 : Vec Ideal S1024x512 .f32)
    (v12 : Vec Ideal S1024x1 .f32) (v16 : Vec Ideal S1024x1 .f32) (r : Fin 1024) :
    k1_pay10 (F := Ideal) v3 v5 v10 v12 v16 (ix2 r (0 : Fin 1))
      = Ideal.exp (v16 (ix2 r (0 : Fin 1)) - k1_pay9 (F := Ideal) v3 v5 v10 v12 (ix2 r (0 : Fin 1))) := by
  unfold k1_pay10
  rfl

/-- The exponential of a score at row r and position t: exp of the scaled score minus the new
    running maximum of the row. -/
theorem k1_pay11_apply (v3 : Vec Ideal S1x1024x256 .bf16) (v5 : Vec Ideal S1x512x256 .bf16) (v10 : Vec Ideal S1024x512 .f32)
    (v12 : Vec Ideal S1024x1 .f32) (r : Fin 1024) (t : Fin 512) :
    k1_pay11 (F := Ideal) v3 v5 v10 v12 (ix2 r t)
      = Ideal.exp (k1_pay8 (F := Ideal) v3 v5 v10 (ix2 r t) - k1_pay9 (F := Ideal) v3 v5 v10 v12 (ix2 r (0 : Fin 1))) := by
  unfold k1_pay11
  show Ideal.exp (k1_pay8 (F := Ideal) v3 v5 v10 (ix2 r t)
    - broadcastTo S1024x512 (k1_pay9 (F := Ideal) v3 v5 v10 v12) broadcasts_S1024x1_S1024x512 (ix2 r t)) = _
  rw [broadcastTo_a1_ab_apply]

/-- The new denominator at row r: the rescaling factor times the old denominator, plus the sum over
    the 512 positions of the exponentials of the scores. -/
theorem k1_pay12_apply (v3 : Vec Ideal S1x1024x256 .bf16) (v5 : Vec Ideal S1x512x256 .bf16) (v10 : Vec Ideal S1024x512 .f32)
    (v12 : Vec Ideal S1024x1 .f32) (v16 : Vec Ideal S1024x1 .f32) (v22 : Vec Ideal S1024x1 .f32) (r : Fin 1024) :
    k1_pay12 (F := Ideal) v3 v5 v10 v12 v16 v22 (ix2 r (0 : Fin 1))
      = k1_pay10 (F := Ideal) v3 v5 v10 v12 v16 (ix2 r (0 : Fin 1)) * v22 (ix2 r (0 : Fin 1))
        + ∑ t : Fin 512, k1_pay11 (F := Ideal) v3 v5 v10 v12 (ix2 r t) := by
  unfold k1_pay12
  rw [shapeCast_self, addf_apply, mulf_apply, shapeCast_a_a1_apply]
  refine congrArg (k1_pay10 (F := Ideal) v3 v5 v10 v12 v16 (ix2 r (0 : Fin 1)) * v22 (ix2 r (0 : Fin 1)) + ·) ?_
  refine (Ideal.multiReduction_add_single (k1_pay11 (F := Ideal) v3 v5 v10 v12) 0x00000000#32
    reduces_S1024x512_S1024 (.inl rfl) rfl (ix1 r)).trans ?_
  show ∑ t : Fin 512, k1_pay11 (F := Ideal) v3 v5 v10 v12 (reduces_S1024x512_S1024.lift (ix1 r) t) = _
  simp only [lift_row]

/-! ### The numerator and the remaining stored values -/

/-- On the row axis the left operand of the 1024 × 512 by 512 × 768 product reads the result's row. -/
theorem lhs_pv_0 (i : S1024x768.Idx) (q : dot_S1024x512_S512x768_S1024x768_1_0_0_1_n_n.contr.Idx) :
    (dot_S1024x512_S512x768_S1024x768_1_0_0_1_n_n.lhsIdx i q 0).val = (i 0).val := by
  unfold DotDims.lhsIdx
  rw [dif_neg (show ¬(0 : Fin S1024x512.rank) ∈ dot_S1024x512_S512x768_S1024x768_1_0_0_1_n_n.lhsBatch by decide),
    dif_pos (show (0 : Fin S1024x512.rank) ∈ dot_S1024x512_S512x768_S1024x768_1_0_0_1_n_n.lhsNonContracting by decide)]
  rfl

/-- On the column axis the right operand of that product reads the result's column. -/
theorem rhs_pv_1 (i : S1024x768.Idx) (q : dot_S1024x512_S512x768_S1024x768_1_0_0_1_n_n.contr.Idx) :
    (dot_S1024x512_S512x768_S1024x768_1_0_0_1_n_n.rhsIdx i q 1).val = (i 1).val := by
  unfold DotDims.rhsIdx
  rw [dif_neg (show ¬(1 : Fin S512x768.rank) ∈ dot_S1024x512_S512x768_S1024x768_1_0_0_1_n_n.rhsBatch by decide),
    dif_pos (show (1 : Fin S512x768.rank) ∈ dot_S1024x512_S512x768_S1024x768_1_0_0_1_n_n.rhsNonContracting by decide)]
  rfl

/-- The product of a 1024 × 512 matrix with a 512 × 768 matrix into a zero accumulator, at row r and
    column e, is the sum over the 512 contracted positions of the products of the entries. -/
theorem matmul_pv_apply (l : FVec Ideal S1024x512 .bf16) (w : FVec Ideal S512x768 .bf16) (r : Fin 1024) (e : Fin 768) :
    matmul dot_S1024x512_S512x768_S1024x768_1_0_0_1_n_n none l w (constant (F := Ideal) S1024x768 .f32 0x00000000#32) (ix2 r e)
      = ∑ t : Fin 512, l (ix2 r t) * w (ix2 t e) := by
  refine (Ideal.matmul_constant_zero_apply dot_S1024x512_S512x768_S1024x768_1_0_0_1_n_n none l w (ix2 r e)).trans ?_
  rw [← Equiv.sum_comp (contrEquiv1 dot_S1024x512_S512x768_S1024x768_1_0_0_1_n_n 512 rfl rfl).symm]
  refine Finset.sum_congr rfl fun k _ => ?_
  have hk := contrEquiv1_symm_val dot_S1024x512_S512x768_S1024x768_1_0_0_1_n_n 512 rfl rfl k
  have el : dot_S1024x512_S512x768_S1024x768_1_0_0_1_n_n.lhsIdx (ix2 r e)
      ((contrEquiv1 dot_S1024x512_S512x768_S1024x768_1_0_0_1_n_n 512 rfl rfl).symm k) = ix2 r k :=
    funext fun a => Fin.ext (by
      match a with
      | ⟨0, _⟩ => exact lhs_pv_0 _ _
      | ⟨1, _⟩ => exact (dot_S1024x512_S512x768_S1024x768_1_0_0_1_n_n.lhsIdx_val_of_single rfl _ _).trans hk)
  have er : dot_S1024x512_S512x768_S1024x768_1_0_0_1_n_n.rhsIdx (ix2 r e)
      ((contrEquiv1 dot_S1024x512_S512x768_S1024x768_1_0_0_1_n_n 512 rfl rfl).symm k) = ix2 k e :=
    funext fun a => Fin.ext (by
      match a with
      | ⟨0, _⟩ => exact (dot_S1024x512_S512x768_S1024x768_1_0_0_1_n_n.rhsIdx_val_of_single rfl _ _).trans hk
      | ⟨1, _⟩ => exact rhs_pv_1 _ _)
  rw [el, er]

/-- The new numerator at row r and column e: the rescaling factor of the row times the old
    numerator, plus the sum over the 512 positions of (exponential × mask) × value. -/
theorem k1_pay1_apply (v8 : FVec Ideal S512x768 .bf16) (v18 : FVec Ideal S1024x1 .f32) (v21 : FVec Ideal S1024x512 .f32)
    (v30 : Vec Ideal S1x1024x512 .f32) (v34 : Vec Ideal S1024x768 .f32) (r : Fin 1024) (e : Fin 768) :
    k1_pay1 (F := Ideal) v8 v18 v21 v30 v34 (ix2 r e)
      = v18 (ix2 r (0 : Fin 1)) * v34 (ix2 r e)
        + ∑ t : Fin 512, (v21 (ix2 r t) * v30 (ix3 (0 : Fin 1) r t)) * v8 (ix2 t e) := by
  unfold k1_pay1
  rw [shapeCast_self, addf_apply, mulf_apply, broadcastTo_a1_ab_apply, matmul_pv_apply]
  refine congrArg (v18 (ix2 r (0 : Fin 1)) * v34 (ix2 r e) + ·) (Finset.sum_congr rfl fun t _ => ?_)
  rw [truncf_apply, mulf_apply, shapeCast_1ab_ab_apply]

/-- The stored running maximum is the new running maximum. -/
theorem k1_pay2_apply (v15 : FVec Ideal S1024x1 .f32) : k1_pay2 (F := Ideal) v15 = v15 := by
  unfold k1_pay2
  rw [shapeCast_self]

/-- The final output at (0, r, e): the numerator at (r, e) divided by the denominator of row r. -/
theorem k1_pay3_apply (v48 : Vec Ideal S1024x768 .f32) (v49 : Vec Ideal S1024x1 .f32) (r : Fin 1024) (e : Fin 768) :
    k1_pay3 (F := Ideal) v48 v49 (ix3 (0 : Fin 1) r e) = Ideal.div (v48 (ix2 r e)) (v49 (ix2 r (0 : Fin 1))) := by
  unfold k1_pay3
  rw [shapeCast_ab_1ab_apply, divf_apply, broadcastTo_a1_ab_apply]

/-- The running maximum starts at ⊥ at every index. -/
theorem k1_pay4_apply (i : S1024x1.Idx) : k1_pay4 (F := Ideal) i = ⊥ := by
  unfold k1_pay4
  rw [shapeCast_self]
  exact ofBits_neg_inf_f32

/-- The denominator starts at 0 at every index. -/
theorem k1_pay5_apply (i : S1024x1.Idx) : k1_pay5 (F := Ideal) i = 0 := by
  unfold k1_pay5
  rw [shapeCast_self]
  exact Ideal.ofBits_zero_f32

/-- The numerator starts at 0 at every index. -/
theorem k1_pay6_apply (i : S1024x768.Idx) : k1_pay6 (F := Ideal) i = 0 := by
  unfold k1_pay6
  rw [shapeCast_self]
  exact Ideal.ofBits_zero_f32

/-- The value tile viewed as a matrix reads, at (t, e), the block at (0, t, e). -/
theorem k1_pay7_apply (v7 : Vec Ideal S1x512x768 .bf16) (t : Fin 512) (e : Fin 768) :
    k1_pay7 (F := Ideal) v7 (ix2 t e) = v7 (ix3 (0 : Fin 1) t e) := by
  unfold k1_pay7
  rw [shapeCast_1ab_ab_apply]

/-! ### One grid point is one step of the online softmax recurrence -/

open Cert.Lib.OnlineSoftmax in
/-- At row r and column e, the triple (new running maximum, new denominator, new numerator) that one
    grid point computes from the scratch contents (m0, l0, acc0) and the point's blocks is one step
    of the two-factor online softmax recurrence: the tile's scores are the row's 512 scaled scores,
    the first weight factor is the mask row and the second the value column. -/
theorem k1_step_apply (v3 : Vec Ideal S1x1024x256 .bf16) (v5 : Vec Ideal S1x512x256 .bf16) (v7 : Vec Ideal S1x512x768 .bf16)
    (v10 : Vec Ideal S1024x512 .f32) (v30 : Vec Ideal S1x1024x512 .f32)
    (m0 l0 : Vec Ideal S1024x1 .f32) (acc0 : Vec Ideal S1024x768 .f32) (r : Fin 1024) (e : Fin 768) :
    (k1_pay9 (F := Ideal) v3 v5 v10 m0 (ix2 r (0 : Fin 1)),
     k1_pay12 (F := Ideal) v3 v5 v10 m0 m0 l0 (ix2 r (0 : Fin 1)),
     k1_pay1 (F := Ideal) (k1_pay7 (F := Ideal) v7) (k1_pay10 (F := Ideal) v3 v5 v10 m0 m0)
       (k1_pay11 (F := Ideal) v3 v5 v10 m0) v30 acc0 (ix2 r e))
      = step2 (fun t : Fin 512 => k1_pay8 (F := Ideal) v3 v5 v10 (ix2 r t))
          (fun t : Fin 512 => v30 (ix3 (0 : Fin 1) r t)) (fun t : Fin 512 => v7 (ix3 (0 : Fin 1) t e))
          (m0 (ix2 r (0 : Fin 1)), l0 (ix2 r (0 : Fin 1)), acc0 (ix2 r e)) := by
  rw [step2_def, k1_pay12_apply, k1_pay1_apply]
  simp only [k1_pay7_apply, k1_pay10_apply, k1_pay11_apply]
  rw [k1_pay9_apply]

end Cert.KernelIdeal.Hand
-- ==== Proof.KernelIdealArr1.lean ====
import proofs.«154501_j39676907887142_2_alg».proof.Proof.KernelIdealR1Pieces
import proofs.«154501_j39676907887142_2_alg».proof.Proof.KernelIdealBlocks1
import proofs.«154501_j39676907887142_2_alg».proof.Proof.KernelIdealPay1
import proofs.«154501_j39676907887142_2_alg».proof.Proof.KSpec
import Idealize.ShloMosaic.Lib.Pipeline.Value
import Idealize.ShloMosaic.Lib.ValueIdx
import Idealize.ShloMosaic.PureOps.Ideal.Laws

set_option maxRecDepth 16384

/-
  The second kernel region's result array as one function of the arrays the region is entered with.
-/
noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # The second region's result array

  By induction along each group of four grid points (one batch entry and query tile, the four key tiles in order): after
  the point of key tile `k` the three carried buffers hold, at query row `r` (and value column `e`), the state of the
  online recurrence after `k + 1` tiles; the final point of the group stores the quotient. The 16 final points' blocks
  tile the result array. -/

section Arr1
variable (V : (c : Dev nD) → (b : Ref sig .tc) → Buf (Elt Ideal) ((c : Thread nD τ).loc b))

open Cert.KSpec Cert.Lib

/-- One more tile of the recurrence. -/
theorem stateAt_succ (q k : Fin 8 → Fin 2048 → Fin 256 → EReal) (inv : Fin 2048 → Fin 2048 → EReal)
    (drop : Fin 8 → Fin 2048 → Fin 2048 → EReal) (v : Fin 8 → Fin 2048 → Fin 768 → EReal) (b : Fin 8) (s : Fin 2048) (e : Fin 768)
    (n : ℕ) (h : n + 1 ≤ 4) :
    stateAt q k inv drop v b s e (n + 1) h = OnlineSoftmax.step2 (fun tt => tscore q k inv b s ⟨n, h⟩ tt) (fun tt => drop b s (tix ⟨n, h⟩ tt))
      (fun tt => v b (tix ⟨n, h⟩ tt) e) (stateAt q k inv drop v b s e n (Nat.le_of_succ_le h)) := rfl

/-- The number of tiles done does not depend on how it is written. -/
theorem stateAt_congr (q k : Fin 8 → Fin 2048 → Fin 256 → EReal) (inv : Fin 2048 → Fin 2048 → EReal)
    (drop : Fin 8 → Fin 2048 → Fin 2048 → EReal) (v : Fin 8 → Fin 2048 → Fin 768 → EReal) (b b' : Fin 8) (s s' : Fin 2048) (e : Fin 768)
    (n n' : ℕ) (h : n ≤ 4) (h' : n' ≤ 4) (hb : b = b') (hs : s = s') (hn : n = n') :
    stateAt q k inv drop v b s e n h = stateAt q k inv drop v b' s' e n' h' := by
  subst hb hs hn; rfl

/-- One more tile, at a tile index: from the state after `k` tiles to the state after `k + 1`. -/
theorem stateAt_step (q k : Fin 8 → Fin 2048 → Fin 256 → EReal) (inv : Fin 2048 → Fin 2048 → EReal)
    (drop : Fin 8 → Fin 2048 → Fin 2048 → EReal) (v : Fin 8 → Fin 2048 → Fin 768 → EReal) (b : Fin 8) (s : Fin 2048) (e : Fin 768) (ki : Fin 4) :
    OnlineSoftmax.step2 (fun tt => tscore q k inv b s ki tt) (fun tt => drop b s (tix ki tt)) (fun tt => v b (tix ki tt) e)
        (stateAt q k inv drop v b s e ki.val (Nat.le_of_lt ki.isLt))
      = stateAt q k inv drop v b s e (ki.val + 1) (Nat.succ_le_of_lt ki.isLt) :=
  (stateAt_succ q k inv drop v b s e ki.val (Nat.succ_le_of_lt ki.isLt)).symm

/-- Before any tile the state is (−∞, 0, 0). -/
theorem stateAt_zero (q k : Fin 8 → Fin 2048 → Fin 256 → EReal) (inv : Fin 2048 → Fin 2048 → EReal)
    (drop : Fin 8 → Fin 2048 → Fin 2048 → EReal) (v : Fin 8 → Fin 2048 → Fin 768 → EReal) (b : Fin 8) (s : Fin 2048) (e : Fin 768)
    (n : ℕ) (h : n ≤ 4) (hn : n = 0) : stateAt q k inv drop v b s e n h = (⊥, 0, 0) := by
  subst hn; rfl

/-- The row of scaled scores a point's body computes is the row's scores against the point's key tile. -/
theorem scores_eq (c : Dev nD) (t : Fin cfg1.N) (r : Fin 1024) :
    (fun tt : Fin 512 => k1_pay8 (F := Ideal) (iblk1 V c 0 t) (iblk1 V c 1 t) (iblk1 V c 3 t) (ix2 r tt))
      = fun tt => tscore (qOf V c) (kOf V c) (invOf V c) (bOf t) (sOf t r) (kiOf t) tt := by
  funext tt
  rw [k1_pay8_apply]
  unfold tscore
  simp only [blk1_0, blk1_1, blk1_3]

theorem mask_eq (c : Dev nD) (t : Fin cfg1.N) (r : Fin 1024) :
    (fun tt : Fin 512 => iblk1 V c 4 t (ix3 (0 : Fin 1) r tt)) = fun tt => dropOf V c (bOf t) (sOf t r) (tix (kiOf t) tt) :=
  funext fun tt => blk1_4 V c t r tt

theorem vals_eq (c : Dev nD) (t : Fin cfg1.N) (e : Fin 768) :
    (fun tt : Fin 512 => iblk1 V c 2 t (ix3 (0 : Fin 1) tt e)) = fun tt => vOf V c (bOf t) (tix (kiOf t) tt) e :=
  funext fun tt => blk1_2 V c t tt e

/-- One point's update of the carried buffers at (r, e), from contents m0 l0 acc0, is one tile of the recurrence. -/
theorem point_step (c : Dev nD) (t : Fin cfg1.N) (m0 l0 : Vec Ideal S1024x1 .f32) (acc0 : Vec Ideal S1024x768 .f32) (r : Fin 1024) (e : Fin 768) :
    (k1_pay9 (iblk1 V c 0 t) (iblk1 V c 1 t) (iblk1 V c 3 t) m0 (ix2 r (0 : Fin 1)),
      k1_pay12 (iblk1 V c 0 t) (iblk1 V c 1 t) (iblk1 V c 3 t) m0 m0 l0 (ix2 r (0 : Fin 1)),
      k1_pay1 (k1_pay7 (iblk1 V c 2 t)) (k1_pay10 (iblk1 V c 0 t) (iblk1 V c 1 t) (iblk1 V c 3 t) m0 m0) (k1_pay11 (iblk1 V c 0 t) (iblk1 V c 1 t) (iblk1 V c 3 t) m0) (iblk1 V c 4 t) acc0 (ix2 r e))
    = OnlineSoftmax.step2 (fun tt => tscore (qOf V c) (kOf V c) (invOf V c) (bOf t) (sOf t r) (kiOf t) tt)
        (fun tt => dropOf V c (bOf t) (sOf t r) (tix (kiOf t) tt)) (fun tt => vOf V c (bOf t) (tix (kiOf t) tt) e)
        (m0 (ix2 r (0 : Fin 1)), l0 (ix2 r (0 : Fin 1)), acc0 (ix2 r e)) := by
  rw [k1_step_apply, scores_eq, mask_eq, vals_eq]

set_option maxHeartbeats 1600000 in
/-- THE SWEEP, read: after grid point `n` the carried buffers at (r, e) hold the recurrence's state after `n % 4 + 1` tiles
    of the point's batch entry and query row. -/
theorem scratch_inv (c : Dev nD) : ∀ (n : ℕ) (hn : n < cfg1.N) (r : Fin 1024) (e : Fin 768),
    ((outsAt1 V c n hn).2.1 (ix2 r (0 : Fin 1)), (outsAt1 V c n hn).2.2.1 (ix2 r (0 : Fin 1)), (outsAt1 V c n hn).2.2.2 (ix2 r e))
      = stateAt (qOf V c) (kOf V c) (invOf V c) (dropOf V c) (vOf V c) (bOf ⟨n, hn⟩) (sOf ⟨n, hn⟩ r) e (n % 4 + 1)
          (Nat.succ_le_of_lt (Nat.mod_lt _ (by norm_num))) := by
  intro n
  induction n with
  | zero =>
    intro hn r e
    rw [show outsAt1 V c 0 hn = outsAt1 V c (⟨0, hn⟩ : Fin cfg1.N).val (⟨0, hn⟩ : Fin cfg1.N).isLt from rfl,
      outsAt1_A V c ⟨0, hn⟩ (show (0 : ℕ) % 4 = 0 from rfl) (show ¬ (0 : ℕ) % 4 = 3 by norm_num)]
    dsimp only
    rw [sout1_A_0_eq, sout1_A_1_eq, sout1_A_2_eq, k1_pay2_apply, point_step, k1_pay4_apply, k1_pay5_apply, k1_pay6_apply]
    exact stateAt_step _ _ _ _ _ _ _ e (kiOf ⟨0, hn⟩)
  | succ n ih =>
    intro hn r e
    have hn' : n < cfg1.N := Nat.lt_of_succ_lt hn
    by_cases h0 : (n + 1) % 4 = 0
    · have h1 : ¬ (n + 1) % 4 = 3 := by omega
      rw [show outsAt1 V c (n + 1) hn = outsAt1 V c (⟨n + 1, hn⟩ : Fin cfg1.N).val (⟨n + 1, hn⟩ : Fin cfg1.N).isLt from rfl,
        outsAt1_A V c ⟨n + 1, hn⟩ h0 h1]
      dsimp only
      rw [sout1_A_0_eq, sout1_A_1_eq, sout1_A_2_eq, k1_pay2_apply, point_step, k1_pay4_apply, k1_pay5_apply, k1_pay6_apply]
      refine Eq.trans (congrArg (OnlineSoftmax.step2 _ _ _) ?_) (stateAt_step _ _ _ _ _ _ _ e (kiOf ⟨n + 1, hn⟩))
      exact (stateAt_zero _ _ _ _ _ _ _ e _ _ h0).symm
    · have hpred := idx_pred1 ⟨n + 1, hn⟩ ⟨n, hn'⟩ rfl h0
      have hb : bOf ⟨n, hn'⟩ = bOf ⟨n + 1, hn⟩ := Fin.ext hpred.1
      have hs : sOf ⟨n, hn'⟩ r = sOf ⟨n + 1, hn⟩ r := Fin.ext (by show win1_5.index ⟨n, hn'⟩ (1 : Fin 3) * 1024 + r.val = win1_5.index ⟨n + 1, hn⟩ (1 : Fin 3) * 1024 + r.val; rw [hpred.2])
      have ihr := ih hn' r e
      have hmod : (n + 1) % 4 = n % 4 + 1 := by omega
      have key : ((outsAt1 V c n hn').2.1 (ix2 r (0 : Fin 1)), (outsAt1 V c n hn').2.2.1 (ix2 r (0 : Fin 1)), (outsAt1 V c n hn').2.2.2 (ix2 r e))
          = stateAt (qOf V c) (kOf V c) (invOf V c) (dropOf V c) (vOf V c) (bOf ⟨n + 1, hn⟩) (sOf ⟨n + 1, hn⟩ r) e (kiOf ⟨n + 1, hn⟩).val
              (Nat.le_of_lt (kiOf ⟨n + 1, hn⟩).isLt) :=
        ihr.trans (stateAt_congr _ _ _ _ _ (bOf ⟨n, hn'⟩) (bOf ⟨n + 1, hn⟩) (sOf ⟨n, hn'⟩ r) (sOf ⟨n + 1, hn⟩ r) e (n % 4 + 1) ((n + 1) % 4)
          _ _ hb hs hmod.symm)
      by_cases h1 : (n + 1) % 4 = 3
      · rw [show outsAt1 V c (n + 1) hn = outsAt1 V c (⟨n + 1, hn⟩ : Fin cfg1.N).val (⟨n + 1, hn⟩ : Fin cfg1.N).isLt from rfl,
          outsAt1_C V c ⟨n + 1, hn⟩ h0 h1]
        dsimp only
        rw [sout1_C_0_eq, sout1_C_1_eq, sout1_C_2_eq, k1_pay2_apply, point_step]
        exact Eq.trans (congrArg (OnlineSoftmax.step2 _ _ _) key) (stateAt_step _ _ _ _ _ _ _ e (kiOf ⟨n + 1, hn⟩))
      · rw [show outsAt1 V c (n + 1) hn = outsAt1 V c (⟨n + 1, hn⟩ : Fin cfg1.N).val (⟨n + 1, hn⟩ : Fin cfg1.N).isLt from rfl,
          outsAt1_B V c ⟨n + 1, hn⟩ h0 h1]
        dsimp only
        rw [sout1_B_0_eq, sout1_B_1_eq, sout1_B_2_eq, k1_pay2_apply, point_step]
        exact Eq.trans (congrArg (OnlineSoftmax.step2 _ _ _) key) (stateAt_step _ _ _ _ _ _ _ e (kiOf ⟨n + 1, hn⟩))

/-- The result as one function of the region-entry arrays: the final state's weighted sum over its sum of exponentials. -/
def G5 (c : Dev nD) : S8x2048x768.Idx → EReal := fun i =>
  Ideal.div (stateAt (qOf V c) (kOf V c) (invOf V c) (dropOf V c) (vOf V c) (i 0 : Fin 8) (i 1 : Fin 2048) (i 2 : Fin 768) 4 (le_refl 4)).2.2
    (stateAt (qOf V c) (kOf V c) (invOf V c) (dropOf V c) (vOf V c) (i 0 : Fin 8) (i 1 : Fin 2048) (i 2 : Fin 768) 4 (le_refl 4)).2.1

/-- What a final point writes back is its block of `G5`. -/
theorem flushed5_eq (c : Dev nD) (t : Fin cfg1.N) (hf : (cfg1.win 5).flush t = true) :
    (dat1 V c).flushed 5 t = ((cfg1.win 5).blk t).view.read (Elt Ideal) (G5 V c) := by
  have h3 : t.val % 4 = 3 := (flush1_5 t).mp hf
  have h0 : ¬ t.val % 4 = 0 := by omega
  have hO : (outsAt1 V c t.val t.isLt).1 = k1_pay3 (outsAt1 V c t.val t.isLt).2.2.2 (outsAt1 V c t.val t.isLt).2.2.1 := by
    rw [outsAt1_C V c t h0 h3]; dsimp only
    rw [out1_C_5_eq, sout1_C_2_eq, sout1_C_1_eq]
  show (cfg1.win 5).cut (grid1.coords t) ((dat1 V c).after 5 t) = _
  rw [after1_5, hO]
  funext j
  obtain ⟨r, e, rfl⟩ : ∃ (r : Fin 1024) (e : Fin 768), j = ix3 (0 : Fin 1) r e :=
    ⟨j 1, j 2, by rw [eq_ix3 j]; congr 1; exact Fin.ext (by have h : (j 0).val < 1 := (j 0).isLt; show (j 0).val = 0; omega)⟩
  refine (k1_pay3_apply _ _ r e).trans ?_
  have hs := scratch_inv V c t.val t.isLt r e
  have e1 : (outsAt1 V c t.val t.isLt).2.2.2 (ix2 r e) = (stateAt (qOf V c) (kOf V c) (invOf V c) (dropOf V c) (vOf V c) (bOf t) (sOf t r) e (t.val % 4 + 1) (Nat.succ_le_of_lt (Nat.mod_lt _ (by norm_num)))).2.2 :=
    congrArg (fun p => p.2.2) hs
  have e2 : (outsAt1 V c t.val t.isLt).2.2.1 (ix2 r (0 : Fin 1)) = (stateAt (qOf V c) (kOf V c) (invOf V c) (dropOf V c) (vOf V c) (bOf t) (sOf t r) e (t.val % 4 + 1) (Nat.succ_le_of_lt (Nat.mod_lt _ (by norm_num)))).2.1 :=
    congrArg (fun p => p.2.1) hs
  rw [e1, e2, View.read_apply]
  obtain ⟨-, -, -, -, -, -, -, -, -, -, -, -, -, -, e14, -⟩ := idx_facts1 t
  have hemb : ((cfg1.win 5).blk t).view.emb (ix3 (0 : Fin 1) r e) = ix3 (bOf t) (sOf t r) e := by
    funext a; apply Fin.ext
    match a with
    | ⟨0, _⟩ => show win1_5.index t (0 : Fin 3) * 1 + 1 * 0 = win1_5.index t (0 : Fin 3); omega
    | ⟨1, _⟩ => show win1_5.index t (1 : Fin 3) * 1024 + 1 * r.val = win1_5.index t (1 : Fin 3) * 1024 + r.val; omega
    | ⟨2, _⟩ => show win1_5.index t (2 : Fin 3) * 768 + 1 * e.val = e.val; omega
  rw [hemb]
  unfold G5
  rw [stateAt_congr _ _ _ _ _ (bOf t) (bOf t) (sOf t r) (sOf t r) e (t.val % 4 + 1) 4 _ (le_refl 4) rfl rfl (by omega)]
  rfl

theorem mem_blk5 (t : Fin cfg1.N) (i : S8x2048x768.Idx) :
    i ∈ ((cfg1.win 5).blk t).view.set ↔ ∀ a : Fin 3, win1_5.index t a * S1x1024x768.size a ≤ (i a).val ∧ (i a).val < win1_5.index t a * S1x1024x768.size a + S1x1024x768.size a := by
  show i ∈ ((View.whole main_v11).slice (win1_5.rect t)).set ↔ _
  rw [View.set_slice_whole, Rect.mem_set_unit]
  exact Iff.rfl

/-- The 16 final points' blocks (one batch entry, 1024 consecutive query rows, all columns) tile the result. -/
theorem cover5 (i : S8x2048x768.Idx) : ∃ t : Fin cfg1.N, (cfg1.win 5).flush t = true ∧ i ∈ ((cfg1.win 5).blk t).view.set := by
  have hi0 : (i 0).val < 8 := (i 0).isLt
  have hi1 : (i 1).val < 2048 := (i 1).isLt
  have hi2 : (i 2).val < 768 := (i 2).isLt
  obtain ⟨t, h3, ht⟩ := idx_onto1 ⟨(i 0).val, hi0⟩ ⟨(i 1).val / 1024, by omega⟩
  have q0 : win1_5.index t (0 : Fin 3) = (i 0).val := congrFun ht 0
  have q1 : win1_5.index t (1 : Fin 3) = (i 1).val / 1024 := congrFun ht 1
  have q2 : win1_5.index t (2 : Fin 3) = 0 := congrFun ht 2
  refine ⟨t, (flush1_5 t).mpr h3, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 768 ≤ (i 2).val ∧ (i 2).val < win1_5.index t (2 : Fin 3) * 768 + 768; omega

/-- After the second region its result array is `G5` of the arrays it was entered with. -/
theorem final5 (c : Dev nD) : (dat1 V c).arrAt 5 cfg1.N = G5 V c :=
  (dat1 V c).arrAt_eq_of_cover 5 _ (fun t hf => flushed5_eq V c t hf) (cover5)

/-- … read at (b, s, e). -/
theorem arr1_kout (c : Dev nD) (b : Fin 8) (s : Fin 2048) (e : Fin 768) :
    ((dat1 V c).arrAt 5 cfg1.N : S8x2048x768.Idx → EReal) (ix3 b s e)
      = Ideal.div (stateAt (qOf V c) (kOf V c) (invOf V c) (dropOf V c) (vOf V c) b s e 4 (le_refl 4)).2.2 (stateAt (qOf V c) (kOf V c) (invOf V c) (dropOf V c) (vOf V c) b s e 4 (le_refl 4)).2.1 := by
  rw [final5]; rfl

end Arr1
end Cert.KernelIdeal.Hand
end
-- ==== Proof.PreReal.lean ====
/-
  From the printed precondition to real entries.

  The precondition is a conjunction of twelve "all" tests: for each of the eleven argument arrays, that every entry's
  absolute value is below +∞, and for the divisor array, that every entry differs from zero. On the extended reals an
  entry x with max x (−x) < ⊤ is neither ⊥ nor ⊤, so it is a real.
-/
import proofs.«154501_j39676907887142_2_alg».proof.Proof.Gen.Pre_finite_inputs
import Idealize.ShloMosaic.Lib.ReduceAll
import Idealize.ShloMosaic.Lib.ValueIdx
import Idealize.ShloMosaic.PureOps.Ideal.Laws

noncomputable section

namespace Cert.PreReal

open Cert.Pre_finite_inputs Idealize.ShloMosaic

/-- The scalar shape has one index. -/
instance : Subsingleton S_.Idx := ⟨fun a b => funext fun d => d.elim0⟩

/-- A decided proposition whose bit is 1 holds. -/
theorem of_ofBool_decide {p : Prop} [Decidable p] (h : BitVec.ofBool (decide p) = 1#1) : p := by
  by_contra hn
  rw [decide_eq_false hn] at h
  exact absurd h (by decide)

/-- An entry whose absolute value compares below the pattern of +∞ is a real. -/
theorem real_of_abs_lt (x : Ideal .f32)
    (h : FloatOps.cmpf (F := Ideal) .olt (FloatOps.hostAbsf x) (FloatOps.ofBits .f32 0x7F800000#32) = 1#1) :
    ∃ r : ℝ, x = (r : EReal) := by
  have ht : Ideal.ofBits .f32 0x7F800000#32 = ⊤ := by simp [Ideal.ofBits, Ideal.ieee]
  have hd : BitVec.ofBool (decide (max x (-x) < Ideal.ofBits .f32 0x7F800000#32)) = 1#1 := h
  rw [ht] at hd
  have hlt : max x (-x) < (⊤ : EReal) := of_ofBool_decide hd
  induction x using EReal.rec with
  | bot => exact absurd hlt (by simp)
  | top => exact absurd hlt (by simp)
  | coe r => exact ⟨r, rfl⟩

/-- An entry that compares unequal to the pattern of zero is not zero. -/
theorem ne_zero_of_une (x : Ideal .f32)
    (h : FloatOps.cmpf (F := Ideal) .une x (FloatOps.ofBits .f32 0x00000000#32) = 1#1) : x ≠ 0 := by
  have hd : BitVec.ofBool (decide (x ≠ Ideal.ofBits .f32 0x00000000#32)) = 1#1 := h
  rw [Ideal.ofBits_zero_f32] at hd
  exact of_ofBool_decide hd

/-! ## The precondition decoded -/

/-- If the printed precondition of the eleven argument arrays is the all-ones word, every entry of every array is a
    real and no entry of the divisor array is zero. -/
theorem of_fn (a0 a1 a2 : FVec Ideal S8x2048x768 .f32) (a3 : FVec Ideal S214x768 .f32) (a4 : FVec Ideal S214 .f32)
    (a5 : FVec Ideal S214x768 .f32) (a6 : FVec Ideal S214 .f32) (a7 : FVec Ideal S768x768 .f32) (a8 : FVec Ideal S768 .f32)
    (a9 : FVec Ideal S2048x2048 .f32) (a10 : FVec Ideal S8x2048x2048 .f32)
    (h : Cert.Pre_finite_inputs.fn (F := Ideal) a0 a1 a2 a3 a4 a5 a6 a7 a8 a9 a10 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal)) ∧ (∀ i, a9 i ≠ 0) := by
  have e := congrFun h ValueIdx.ix0
  dsimp only [fn, fn_part1, fn_part2, fn_part3] at e
  simp only [andi, IntOp.andi_eq_one] at e
  obtain ⟨⟨⟨⟨⟨⟨⟨⟨⟨⟨⟨h0, h1⟩, h2⟩, h3⟩, h4⟩, h5⟩, h6⟩, h7⟩, h8⟩, h9⟩, h10⟩, hne⟩ := e
  exact ⟨fun i => real_of_abs_lt (a0 i) (Host.reduce_andi_all _ _ _ _ _ h0 i),
    fun i => real_of_abs_lt (a1 i) (Host.reduce_andi_all _ _ _ _ _ h1 i),
    fun i => real_of_abs_lt (a2 i) (Host.reduce_andi_all _ _ _ _ _ h2 i),
    fun i => real_of_abs_lt (a3 i) (Host.reduce_andi_all _ _ _ _ _ h3 i),
    fun i => real_of_abs_lt (a4 i) (Host.reduce_andi_all _ _ _ _ _ h4 i),
    fun i => real_of_abs_lt (a5 i) (Host.reduce_andi_all _ _ _ _ _ h5 i),
    fun i => real_of_abs_lt (a6 i) (Host.reduce_andi_all _ _ _ _ _ h6 i),
    fun i => real_of_abs_lt (a7 i) (Host.reduce_andi_all _ _ _ _ _ h7 i),
    fun i => real_of_abs_lt (a8 i) (Host.reduce_andi_all _ _ _ _ _ h8 i),
    fun i => real_of_abs_lt (a9 i) (Host.reduce_andi_all _ _ _ _ _ h9 i),
    fun i => real_of_abs_lt (a10 i) (Host.reduce_andi_all _ _ _ _ _ h10 i),
    fun i => ne_zero_of_une (a9 i) (Host.reduce_andi_all _ _ _ _ _ hne i)⟩

end Cert.PreReal

end
-- ==== Proof.Spec.lean ====
/-
  The specification both programs are compared with: scaled dot-product attention with an elementwise divisor and a
  multiplicative mask after the softmax, written over explicit coordinates on the extended reals.

  For a batch entry `b`, a query row `s` and an output column `e`:
    q b s j = (∑ d, x1 b s d · Wq j d) + bq j         (j < 214; likewise k from x2, Wk, bk and v from x3, Wv, bv)
    a b s t = ∑ j, q b s j · k b t j
    c b s t = a b s t / inv s t
    M b s   = max (−∞) (the maximum over t of c b s t, folded from −∞)
    u b s t = exp (c b s t − M b s),   L b s = 0 + ∑ t, u b s t
    out b s e = ∑ t, ((u b s t / L b s) · drop b s t) · v b t e
  The quotient, the exponential and the sums are the extended reals' (the quotient by zero and the exponential at the
  infinities as the ideal float operations define them).
-/
import Mathlib
import Idealize.ShloMosaic.PureOps.Ideal

noncomputable section

namespace Cert.Spec

open Idealize.ShloMosaic

/-- A linear projection with bias: row `s` of batch `b` of `x` against row `j` of `W`, plus `bias j`. -/
def proj {n : ℕ} (x : Fin 8 → Fin 2048 → Fin 768 → EReal) (W : Fin n → Fin 768 → EReal) (bias : Fin n → EReal)
    (b : Fin 8) (s : Fin 2048) (j : Fin n) : EReal :=
  (∑ d : Fin 768, x b s d * W j d) + bias j

/-- The score of query row `s` against key row `t`, divided elementwise by `inv s t`. -/
def score (q k : Fin 8 → Fin 2048 → Fin 214 → EReal) (inv : Fin 2048 → Fin 2048 → EReal)
    (b : Fin 8) (s t : Fin 2048) : EReal :=
  Ideal.div (∑ j : Fin 214, q b s j * k b t j) (inv s t)

/-- The maximum of a row of scores, folded from −∞ (and once more against −∞). -/
def rowMax (c : Fin 2048 → EReal) : EReal :=
  max ⊥ ((Finset.univ : Finset (Fin 2048)).fold max ⊥ c)

/-- The softmax-weighted, masked sum of the value rows: one entry of the result. -/
def attend (c : Fin 2048 → EReal) (mask : Fin 2048 → EReal) (v : Fin 2048 → EReal) : EReal :=
  ∑ t : Fin 2048, (Ideal.div (Ideal.exp (c t - rowMax c)) (0 + ∑ t' : Fin 2048, Ideal.exp (c t' - rowMax c)) * mask t) * v t

/-- The whole result at (b, s, e), from the eleven argument arrays read at coordinates. -/
def out (x1 x2 x3 : Fin 8 → Fin 2048 → Fin 768 → EReal) (Wq : Fin 214 → Fin 768 → EReal) (bq : Fin 214 → EReal)
    (Wk : Fin 214 → Fin 768 → EReal) (bk : Fin 214 → EReal) (Wv : Fin 768 → Fin 768 → EReal) (bv : Fin 768 → EReal)
    (inv : Fin 2048 → Fin 2048 → EReal) (drop : Fin 8 → Fin 2048 → Fin 2048 → EReal)
    (b : Fin 8) (s : Fin 2048) (e : Fin 768) : EReal :=
  attend (fun t => score (proj x1 Wq bq) (proj x2 Wk bk) inv b s t) (fun t => drop b s t)
    (fun t => proj x3 Wv bv b t e)

end Cert.Spec

end
-- ==== Proof.KSpecMath.lean ====
/-
  The kernel's arrangement of the computation equals the specification at real entries.

  The padded projections agree with the plain ones on the first 214 columns and vanish on the rest, so the score over the
  padded width is the plain score. A row of 2048 keys is four tiles of 512; the state of the tile-by-tile recurrence
  after all four tiles is the run of the online recurrence, and at real scores, masks and value entries its final
  quotient is the plain softmax-weighted, masked sum over the whole row.
-/
import Mathlib
import Idealize.ShloMosaic.PureOps.Ideal
import proofs.«154501_j39676907887142_2_alg».proof.Proof.Spec
import proofs.«154501_j39676907887142_2_alg».proof.Proof.KSpec
import proofs.«154501_j39676907887142_2_alg».proof.Proof.LibOnlineSoftmax

noncomputable section

namespace Cert.KSpec

open Idealize.ShloMosaic Cert.Lib

/-! ## The padded projections -/

/-- On a column below 214 the padded, transposed projection is the plain projection. -/
theorem projT_pad_lt (x : Fin 8 → Fin 2048 → Fin 768 → EReal) (W : Fin 214 → Fin 768 → EReal) (bias : Fin 214 → EReal)
    (b : Fin 8) (s : Fin 2048) (j : Fin 256) (h : j.val < 214) :
    projT x (padW W) (padB bias) b s j = Cert.Spec.proj x W bias b s ⟨j.val, h⟩ := by
  unfold projT Cert.Spec.proj padW padB
  simp only [dif_pos h]

/-- On a padding column every product is against zero and the bias is zero: the projection vanishes. -/
theorem projT_pad_ge (x : Fin 8 → Fin 2048 → Fin 768 → EReal) (W : Fin 214 → Fin 768 → EReal) (bias : Fin 214 → EReal)
    (b : Fin 8) (s : Fin 2048) (j : Fin 256) (h : ¬ j.val < 214) :
    projT x (padW W) (padB bias) b s j = 0 := by
  unfold projT padW padB
  simp only [dif_neg h, mul_zero, Finset.sum_const_zero, add_zero]

/-- A sum over 256 columns whose terms past 214 vanish is the sum over the first 214. -/
theorem sum_pad (f : Fin 256 → EReal) (g : Fin 214 → EReal) (hlt : ∀ (j : Fin 256) (h : j.val < 214), f j = g ⟨j.val, h⟩)
    (hge : ∀ j : Fin 256, ¬ j.val < 214 → f j = 0) : ∑ j : Fin 256, f j = ∑ j : Fin 214, g j := by
  have e : ∑ j : Fin (214 + 42), f j = ∑ j : Fin 214, f (Fin.castAdd 42 j) :=
    Fin.sum_trunc (a := 214) (b := 42) f fun j => hge _ (by simp [Fin.natAdd])
  refine e.trans (Finset.sum_congr rfl fun j _ => ?_)
  exact hlt (Fin.castAdd 42 j) j.isLt

/-- The score over the padded width is the plain score at the tile's key. -/
theorem tscore_eq_score (x1 x2 : Fin 8 → Fin 2048 → Fin 768 → EReal) (Wq : Fin 214 → Fin 768 → EReal) (bq : Fin 214 → EReal)
    (Wk : Fin 214 → Fin 768 → EReal) (bk : Fin 214 → EReal) (inv : Fin 2048 → Fin 2048 → EReal)
    (b : Fin 8) (s : Fin 2048) (ki : Fin 4) (tt : Fin 512) :
    tscore (projT x1 (padW Wq) (padB bq)) (projT x2 (padW Wk) (padB bk)) inv b s ki tt
      = Cert.Spec.score (Cert.Spec.proj x1 Wq bq) (Cert.Spec.proj x2 Wk bk) inv b s (tix ki tt) := by
  unfold tscore Cert.Spec.score
  rw [sum_pad (fun j => projT x1 (padW Wq) (padB bq) b s j * projT x2 (padW Wk) (padB bk) b (tix ki tt) j)
    (fun j => Cert.Spec.proj x1 Wq bq b s j * Cert.Spec.proj x2 Wk bk b (tix ki tt) j)]
  · intro j h
    show projT x1 (padW Wq) (padB bq) b s j * projT x2 (padW Wk) (padB bk) b (tix ki tt) j = _
    rw [projT_pad_lt x1 Wq bq b s j h, projT_pad_lt x2 Wk bk b (tix ki tt) j h]
  · intro j h
    show projT x1 (padW Wq) (padB bq) b s j * projT x2 (padW Wk) (padB bk) b (tix ki tt) j = 0
    rw [projT_pad_ge x1 Wq bq b s j h, zero_mul]

/-- Against the transposed square weight the transposed projection is the plain one. -/
theorem projT_transpose (x : Fin 8 → Fin 2048 → Fin 768 → EReal) (W : Fin 768 → Fin 768 → EReal) (bias : Fin 768 → EReal) :
    projT x (fun d e => W e d) bias = Cert.Spec.proj x W bias := rfl

/-! ## Real entries stay real -/

theorem real_add {x y : EReal} (hx : ∃ r : ℝ, x = r) (hy : ∃ r : ℝ, y = r) : ∃ r : ℝ, x + y = r := by
  obtain ⟨a, rfl⟩ := hx
  obtain ⟨c, rfl⟩ := hy
  exact ⟨a + c, (EReal.coe_add a c).symm⟩

theorem real_mul {x y : EReal} (hx : ∃ r : ℝ, x = r) (hy : ∃ r : ℝ, y = r) : ∃ r : ℝ, x * y = r := by
  obtain ⟨a, rfl⟩ := hx
  obtain ⟨c, rfl⟩ := hy
  exact ⟨a * c, (EReal.coe_mul a c).symm⟩

theorem real_sum {α : Type*} (t : Finset α) (f : α → EReal) (h : ∀ i, ∃ r : ℝ, f i = r) : ∃ r : ℝ, ∑ i ∈ t, f i = r := by
  choose g hg using h
  exact ⟨∑ i ∈ t, g i, by rw [OnlineSoftmax.coe_finset_sum]; exact Finset.sum_congr rfl fun i _ => hg i⟩

/-- A real divided by a nonzero real is the real quotient. -/
theorem real_div {x y : EReal} (hx : ∃ r : ℝ, x = r) (hy : ∃ r : ℝ, y = r) (h0 : y ≠ 0) : ∃ r : ℝ, Ideal.div x y = r := by
  obtain ⟨a, rfl⟩ := hx
  obtain ⟨c, rfl⟩ := hy
  have hc : c ≠ 0 := fun h => h0 (by rw [h, EReal.coe_zero])
  exact ⟨a / c, OnlineSoftmax.div_coe_coe a c hc⟩

/-- A projection of real arrays is real. -/
theorem real_proj {n : ℕ} (x : Fin 8 → Fin 2048 → Fin 768 → EReal) (W : Fin n → Fin 768 → EReal) (bias : Fin n → EReal)
    (hx : ∀ b s d, ∃ r : ℝ, x b s d = r) (hW : ∀ j d, ∃ r : ℝ, W j d = r) (hb : ∀ j, ∃ r : ℝ, bias j = r)
    (b : Fin 8) (s : Fin 2048) (j : Fin n) : ∃ r : ℝ, Cert.Spec.proj x W bias b s j = r :=
  real_add (real_sum _ _ fun d => real_mul (hx b s d) (hW j d)) (hb j)

/-- A score of real projections over a nonzero real divisor is real. -/
theorem real_score (q k : Fin 8 → Fin 2048 → Fin 214 → EReal) (inv : Fin 2048 → Fin 2048 → EReal)
    (hq : ∀ b s j, ∃ r : ℝ, q b s j = r) (hk : ∀ b s j, ∃ r : ℝ, k b s j = r) (hinv : ∀ s t, ∃ r : ℝ, inv s t = r)
    (hinv0 : ∀ s t, inv s t ≠ 0) (b : Fin 8) (s t : Fin 2048) : ∃ r : ℝ, Cert.Spec.score q k inv b s t = r :=
  real_div (real_sum _ _ fun j => real_mul (hq b s j) (hk b t j)) (hinv s t) (hinv0 s t)

/-! ## The four tiles -/

/-- The state after the first n tiles is the run of the online recurrence over those n tiles. -/
theorem stateAt_eq_run2 (q k : Fin 8 → Fin 2048 → Fin 256 → EReal) (inv : Fin 2048 → Fin 2048 → EReal)
    (drop : Fin 8 → Fin 2048 → Fin 2048 → EReal) (v : Fin 8 → Fin 2048 → Fin 768 → EReal)
    (b : Fin 8) (s : Fin 2048) (e : Fin 768) (n : ℕ) (h : n ≤ 4) :
    stateAt q k inv drop v b s e n h
      = OnlineSoftmax.run2 (n := n) (fun j tt => tscore q k inv b s ⟨j.val, lt_of_lt_of_le j.isLt h⟩ tt)
          (fun j tt => drop b s (tix ⟨j.val, lt_of_lt_of_le j.isLt h⟩ tt))
          (fun j tt => v b (tix ⟨j.val, lt_of_lt_of_le j.isLt h⟩ tt) e) := by
  induction n with
  | zero => simp [stateAt, OnlineSoftmax.run2]
  | succ n ih =>
    rw [OnlineSoftmax.run2_succ_last, stateAt, ih (Nat.le_of_succ_le h)]
    rfl

/-- The keys of a row are the pairs (tile, position in the tile). -/
def tileEquiv : Fin 4 × Fin 512 ≃ Fin 2048 where
  toFun p := tix p.1 p.2
  invFun t := (⟨t.val / 512, by have := t.isLt; omega⟩, ⟨t.val % 512, by omega⟩)
  left_inv := by
    rintro ⟨ki, tt⟩
    have h1 := ki.isLt
    have h2 := tt.isLt
    refine Prod.ext (Fin.ext ?_) (Fin.ext ?_)
    · show (ki.val * 512 + tt.val) / 512 = ki.val
      omega
    · show (ki.val * 512 + tt.val) % 512 = tt.val
      omega
  right_inv := by
    intro t
    apply Fin.ext
    show t.val / 512 * 512 + t.val % 512 = t.val
    omega

theorem tileEquiv_apply (ki : Fin 4) (tt : Fin 512) : tileEquiv (ki, tt) = tix ki tt := rfl

/-! ## The result -/

/-- At real entries and a nowhere-zero divisor the tile-by-tile result is the specification. -/
theorem kout_eq_out (x1 x2 x3 : Fin 8 → Fin 2048 → Fin 768 → EReal) (Wq : Fin 214 → Fin 768 → EReal) (bq : Fin 214 → EReal)
    (Wk : Fin 214 → Fin 768 → EReal) (bk : Fin 214 → EReal) (Wv : Fin 768 → Fin 768 → EReal) (bv : Fin 768 → EReal)
    (inv : Fin 2048 → Fin 2048 → EReal) (drop : Fin 8 → Fin 2048 → Fin 2048 → EReal)
    (h1 : ∀ b s d, ∃ r : ℝ, x1 b s d = r) (h2 : ∀ b s d, ∃ r : ℝ, x2 b s d = r) (h3 : ∀ b s d, ∃ r : ℝ, x3 b s d = r)
    (hWq : ∀ j d, ∃ r : ℝ, Wq j d = r) (hbq : ∀ j, ∃ r : ℝ, bq j = r) (hWk : ∀ j d, ∃ r : ℝ, Wk j d = r)
    (hbk : ∀ j, ∃ r : ℝ, bk j = r) (hWv : ∀ j d, ∃ r : ℝ, Wv j d = r) (hbv : ∀ j, ∃ r : ℝ, bv j = r)
    (hinv : ∀ s t, ∃ r : ℝ, inv s t = r) (hdrop : ∀ b s t, ∃ r : ℝ, drop b s t = r) (hinv0 : ∀ s t, inv s t ≠ 0)
    (b : Fin 8) (s : Fin 2048) (e : Fin 768) :
    Cert.KSpec.kout x1 x2 x3 Wq bq Wk bk Wv bv inv drop b s e = Cert.Spec.out x1 x2 x3 Wq bq Wk bk Wv bv inv drop b s e := by
  -- the row of scores, the row of the mask and the column of the value rows, as real families
  choose sF hsF using fun t => real_score (Cert.Spec.proj x1 Wq bq) (Cert.Spec.proj x2 Wk bk) inv
    (real_proj x1 Wq bq h1 hWq hbq) (real_proj x2 Wk bk h2 hWk hbk) hinv hinv0 b s t
  choose dF hdF using fun t => hdrop b s t
  choose vF hvF using fun t => real_proj x3 Wv bv h3 hWv hbv b t e
  -- the specification is the plain softmax-weighted, masked sum of those families
  have hout : Cert.Spec.out x1 x2 x3 Wq bq Wk bk Wv bv inv drop b s e
      = OnlineSoftmax.softmaxRef2 (fun t => (sF t : EReal)) (fun t => (dF t : EReal)) (fun t => (vF t : EReal)) := by
    unfold Cert.Spec.out
    simp only [hsF, hdF, hvF]
    rfl
  -- the kernel's state after four tiles is the online run over the same families read tile by tile
  have hk : Cert.KSpec.kout x1 x2 x3 Wq bq Wk bk Wv bv inv drop b s e
      = Ideal.div
          (OnlineSoftmax.run2 (n := 4) (fun ki tt => ((sF (tix ki tt) : ℝ) : EReal)) (fun ki tt => ((dF (tix ki tt) : ℝ) : EReal))
            (fun ki tt => ((vF (tix ki tt) : ℝ) : EReal))).2.2
          (OnlineSoftmax.run2 (n := 4) (fun ki tt => ((sF (tix ki tt) : ℝ) : EReal)) (fun ki tt => ((dF (tix ki tt) : ℝ) : EReal))
            (fun ki tt => ((vF (tix ki tt) : ℝ) : EReal))).2.1 := by
    unfold kout
    rw [stateAt_eq_run2, projT_transpose]
    simp only [tscore_eq_score, hsF, hdF, hvF]
  rw [hk, hout]
  exact OnlineSoftmax.online2_eq_softmaxRef2_of tileEquiv (fun ki tt => sF (tix ki tt)) (fun ki tt => dF (tix ki tt))
    (fun ki tt => vF (tix ki tt)) sF dF vF (fun _ _ => rfl) (fun _ _ => rfl) (fun _ _ => rfl)

end Cert.KSpec

end
-- ==== Proof.RefIsSpec.lean ====
/-
  The reference's result, read at one index, is the specification.

  Each stage of the reference is read at an index built from its coordinates: the three projections, the divided score,
  the row maximum (a fold of max from −∞, once more against −∞), the exponentials and their sum, the masked quotient, and
  the last contraction against the value rows. Composed, the entry (b, s, e) of the result is Spec.out at (b, s, e).
-/
import proofs.«154501_j39676907887142_2_alg».proof.Proof.Gen.ReferenceIdeal.Read
import proofs.«154501_j39676907887142_2_alg».proof.Proof.Spec
import Idealize.ShloMosaic.Lib.ValueIdx
import Idealize.ShloMosaic.PureOps.Ideal.Laws
import Idealize.ShloMosaic.PureOps.Reduce

noncomputable section

namespace Cert.RefSpec

open Cert.ReferenceIdeal Cert.ReferenceIdeal.Gen Cert.ReferenceIdeal.Read Idealize.ShloMosaic Idealize.ShloMosaic.ValueIdx

/-! ## The projections -/

/-- The query projection at (b, s, j): row s of batch b of the first array against row j of Wq, plus bq j. -/
theorem q_apply (x0 : (⟨S8x2048x768, .f32⟩ : BufTy).Contents (Elt Ideal)) (x3 : (⟨S214x768, .f32⟩ : BufTy).Contents (Elt Ideal))
    (x4 : (⟨S214, .f32⟩ : BufTy).Contents (Elt Ideal)) (b : Fin 8) (s : Fin 2048) (j : Fin 214) :
    val_main_v3 (F := Ideal) x0 x3 x4 (ix3 b s j)
      = Cert.Spec.proj (fun b s d => x0 (ix3 b s d)) (fun j d => x3 (ix2 j d)) (fun j => x4 (ix1 j)) b s j := by
  rw [val_main_v3_apply, val_main_v0_apply, val_main_v2_apply, val_main_v1_apply, Ideal.addf_def]
  have el : ∀ k : Fin 768, lidx_main_v0 (ix3 b s j) k = ix3 b s k := fun k => funext fun a => Fin.ext (by
    match a with | ⟨0, _⟩ => rfl | ⟨1, _⟩ => rfl | ⟨2, _⟩ => rfl)
  have er : ∀ k : Fin 768, ridx_main_v0 (ix3 b s j) k = ix2 j k := fun k => funext fun a => Fin.ext (by
    match a with | ⟨0, _⟩ => rfl | ⟨1, _⟩ => rfl)
  have eb : idx_main_v1 (idx_main_v2 (ix3 b s j)) = ix1 j := funext fun a => Fin.ext (by
    match a with | ⟨0, _⟩ => rfl)
  simp only [el, er, eb]
  rfl

/-- The key projection at (b, t, j). -/
theorem k_apply (x1 : (⟨S8x2048x768, .f32⟩ : BufTy).Contents (Elt Ideal)) (x5 : (⟨S214x768, .f32⟩ : BufTy).Contents (Elt Ideal))
    (x6 : (⟨S214, .f32⟩ : BufTy).Contents (Elt Ideal)) (b : Fin 8) (t : Fin 2048) (j : Fin 214) :
    val_main_v7 (F := Ideal) x1 x5 x6 (ix3 b t j)
      = Cert.Spec.proj (fun b s d => x1 (ix3 b s d)) (fun j d => x5 (ix2 j d)) (fun j => x6 (ix1 j)) b t j := by
  rw [val_main_v7_apply, val_main_v4_apply, val_main_v6_apply, val_main_v5_apply, Ideal.addf_def]
  have el : ∀ k : Fin 768, lidx_main_v4 (ix3 b t j) k = ix3 b t k := fun k => funext fun a => Fin.ext (by
    match a with | ⟨0, _⟩ => rfl | ⟨1, _⟩ => rfl | ⟨2, _⟩ => rfl)
  have er : ∀ k : Fin 768, ridx_main_v4 (ix3 b t j) k = ix2 j k := fun k => funext fun a => Fin.ext (by
    match a with | ⟨0, _⟩ => rfl | ⟨1, _⟩ => rfl)
  have eb : idx_main_v5 (idx_main_v6 (ix3 b t j)) = ix1 j := funext fun a => Fin.ext (by
    match a with | ⟨0, _⟩ => rfl)
  simp only [el, er, eb]
  rfl

/-- The value projection at (b, t, e). -/
theorem v_apply (x2 : (⟨S8x2048x768, .f32⟩ : BufTy).Contents (Elt Ideal)) (x7 : (⟨S768x768, .f32⟩ : BufTy).Contents (Elt Ideal))
    (x8 : (⟨S768, .f32⟩ : BufTy).Contents (Elt Ideal)) (b : Fin 8) (t : Fin 2048) (e : Fin 768) :
    val_main_v11 (F := Ideal) x2 x7 x8 (ix3 b t e)
      = Cert.Spec.proj (fun b s d => x2 (ix3 b s d)) (fun e d => x7 (ix2 e d)) (fun e => x8 (ix1 e)) b t e := by
  rw [val_main_v11_apply, val_main_v8_apply, val_main_v10_apply, val_main_v9_apply, Ideal.addf_def]
  have el : ∀ k : Fin 768, lidx_main_v8 (ix3 b t e) k = ix3 b t k := fun k => funext fun a => Fin.ext (by
    match a with | ⟨0, _⟩ => rfl | ⟨1, _⟩ => rfl | ⟨2, _⟩ => rfl)
  have er : ∀ k : Fin 768, ridx_main_v8 (ix3 b t e) k = ix2 e k := fun k => funext fun a => Fin.ext (by
    match a with | ⟨0, _⟩ => rfl | ⟨1, _⟩ => rfl)
  have eb : idx_main_v9 (idx_main_v10 (ix3 b t e)) = ix1 e := funext fun a => Fin.ext (by
    match a with | ⟨0, _⟩ => rfl)
  simp only [el, er, eb]
  rfl

/-! ## The divided score -/

/-- The score of query row s against key row t of batch b, divided by the divisor's entry (s, t). -/
theorem score_apply (x0 x1 : (⟨S8x2048x768, .f32⟩ : BufTy).Contents (Elt Ideal)) (x3 : (⟨S214x768, .f32⟩ : BufTy).Contents (Elt Ideal))
    (x4 : (⟨S214, .f32⟩ : BufTy).Contents (Elt Ideal)) (x5 : (⟨S214x768, .f32⟩ : BufTy).Contents (Elt Ideal))
    (x6 : (⟨S214, .f32⟩ : BufTy).Contents (Elt Ideal)) (x9 : (⟨S2048x2048, .f32⟩ : BufTy).Contents (Elt Ideal))
    (b : Fin 8) (s t : Fin 2048) :
    val_main_v15 (F := Ideal) x0 x1 x3 x4 x5 x6 x9 (ix3 b s t)
      = Cert.Spec.score (Cert.Spec.proj (fun b s d => x0 (ix3 b s d)) (fun j d => x3 (ix2 j d)) (fun j => x4 (ix1 j)))
          (Cert.Spec.proj (fun b s d => x1 (ix3 b s d)) (fun j d => x5 (ix2 j d)) (fun j => x6 (ix1 j)))
          (fun s t => x9 (ix2 s t)) b s t := by
  rw [val_main_v15_apply, val_main_v12_apply, val_main_v14_apply, val_main_v13_apply, Ideal.hostDivf_def]
  have el : ∀ k : Fin 214, lidx_main_v12 (ix3 b s t) k = ix3 b s k := fun k => funext fun a => Fin.ext (by
    match a with | ⟨0, _⟩ => rfl | ⟨1, _⟩ => rfl | ⟨2, _⟩ => rfl)
  have er : ∀ k : Fin 214, ridx_main_v12 (ix3 b s t) k = ix3 b t k := fun k => funext fun a => Fin.ext (by
    match a with | ⟨0, _⟩ => rfl | ⟨1, _⟩ => rfl | ⟨2, _⟩ => rfl)
  have eb : idx_main_v13 (idx_main_v14 (ix3 b s t)) = ix2 s t := funext fun a => Fin.ext (by
    match a with | ⟨0, _⟩ => rfl | ⟨1, _⟩ => rfl)
  simp only [el, er, eb, q_apply, k_apply]
  rfl

/-! ## The row maximum -/

/-- The reduced index (b, s) with the coordinate k put back on the last axis is (b, s, k). -/
theorem lift_ix2 (h : S8x2048x2048.Reduces [2] S8x2048) (b : Fin 8) (s : Fin 2048) (k : Fin (S8x2048x2048.size 2)) :
    h.lift (ix2 b s) k = ix3 b s (⟨k.val, k.isLt⟩ : Fin 2048) := by
  funext c; apply Fin.ext
  fin_cases c <;> rfl

/-- The maximum of row (b, s) of the divided scores: the fold of max from −∞ over the row, once more against −∞. -/
theorem rowMax_apply (x0 x1 : (⟨S8x2048x768, .f32⟩ : BufTy).Contents (Elt Ideal)) (x3 : (⟨S214x768, .f32⟩ : BufTy).Contents (Elt Ideal))
    (x4 : (⟨S214, .f32⟩ : BufTy).Contents (Elt Ideal)) (x5 : (⟨S214x768, .f32⟩ : BufTy).Contents (Elt Ideal))
    (x6 : (⟨S214, .f32⟩ : BufTy).Contents (Elt Ideal)) (x9 : (⟨S2048x2048, .f32⟩ : BufTy).Contents (Elt Ideal))
    (b : Fin 8) (s : Fin 2048) :
    val_main_v18 (F := Ideal) x0 x1 x3 x4 x5 x6 x9 (ix2 b s)
      = Cert.Spec.rowMax (fun t => val_main_v15 (F := Ideal) x0 x1 x3 x4 x5 x6 x9 (ix3 b s t)) := by
  have h : S8x2048x2048.Reduces [2] S8x2048 := by decide
  have hb : Ideal.ofBits .f32 0xFF800000#32 = ⊥ := by simp [Ideal.ofBits, Ideal.ieee]
  rw [val_main_v18_apply, val_main_v17_apply, val_main_cst_0_apply, Ideal.maximumf_def, Ideal.ofBits_def, hb]
  unfold val_main_v16
  rw [Host.reduce_eq_fold_single FloatOps.maximumf _ _ reducesTo_S8x2048x2048_S8x2048_d2 h h_S_, val_main_cst_apply,
    Ideal.ofBits_def, hb]
  have hf : (val_main_v15 (F := Ideal) x0 x1 x3 x4 x5 x6 x9 ∘ h.lift (ix2 b s))
      = fun t : Fin 2048 => val_main_v15 (F := Ideal) x0 x1 x3 x4 x5 x6 x9 (ix3 b s t) :=
    funext fun k => congrArg (val_main_v15 (F := Ideal) x0 x1 x3 x4 x5 x6 x9) (lift_ix2 h b s k)
  unfold Cert.Spec.rowMax
  exact congrArg (fun f => max (⊥ : EReal) (Finset.fold max (⊥ : EReal) f (Finset.univ : Finset (Fin 2048)))) hf

/-! ## The softmax entry -/

/-- The exponential at (b, s, t): of the divided score there less the maximum of its row. -/
theorem exp_apply (x0 x1 : (⟨S8x2048x768, .f32⟩ : BufTy).Contents (Elt Ideal)) (x3 : (⟨S214x768, .f32⟩ : BufTy).Contents (Elt Ideal))
    (x4 : (⟨S214, .f32⟩ : BufTy).Contents (Elt Ideal)) (x5 : (⟨S214x768, .f32⟩ : BufTy).Contents (Elt Ideal))
    (x6 : (⟨S214, .f32⟩ : BufTy).Contents (Elt Ideal)) (x9 : (⟨S2048x2048, .f32⟩ : BufTy).Contents (Elt Ideal))
    (b : Fin 8) (s t : Fin 2048) :
    val_main_v22 (F := Ideal) x0 x1 x3 x4 x5 x6 x9 (ix3 b s t)
      = Ideal.exp (val_main_v15 (F := Ideal) x0 x1 x3 x4 x5 x6 x9 (ix3 b s t)
          - Cert.Spec.rowMax (fun t' => val_main_v15 (F := Ideal) x0 x1 x3 x4 x5 x6 x9 (ix3 b s t'))) := by
  rw [val_main_v22_apply, val_main_v21_apply, val_main_v20_apply, val_main_v19_apply, Ideal.hostUnary_exp_def, Ideal.subf_def]
  have eb : idx_main_v19 (idx_main_v20 (ix3 b s t)) = ix2 b s := funext fun a => Fin.ext (by
    match a with | ⟨0, _⟩ => rfl | ⟨1, _⟩ => rfl)
  rw [eb, rowMax_apply]

/-- The sum of row (b, s) of the exponentials, from zero. -/
theorem sum_apply (x0 x1 : (⟨S8x2048x768, .f32⟩ : BufTy).Contents (Elt Ideal)) (x3 : (⟨S214x768, .f32⟩ : BufTy).Contents (Elt Ideal))
    (x4 : (⟨S214, .f32⟩ : BufTy).Contents (Elt Ideal)) (x5 : (⟨S214x768, .f32⟩ : BufTy).Contents (Elt Ideal))
    (x6 : (⟨S214, .f32⟩ : BufTy).Contents (Elt Ideal)) (x9 : (⟨S2048x2048, .f32⟩ : BufTy).Contents (Elt Ideal))
    (b : Fin 8) (s : Fin 2048) :
    val_main_v23 (F := Ideal) x0 x1 x3 x4 x5 x6 x9 (ix2 b s) = 0 + ∑ t : Fin 2048, val_main_v22 (F := Ideal) x0 x1 x3 x4 x5 x6 x9 (ix3 b s t) := by
  rw [val_main_v23_apply, val_main_cst_1_apply, Ideal.ofBits_def, Ideal.ofBits_zero_f32]
  have e : ∀ k : Fin 2048, idx_main_v23 (ix2 b s) k = ix3 b s k := fun k => funext fun a => Fin.ext (by
    match a with | ⟨0, _⟩ => rfl | ⟨1, _⟩ => rfl | ⟨2, _⟩ => rfl)
  simp only [e]

/-- The masked softmax weight at (b, s, t): the exponential over the row's sum, times the mask's entry. -/
theorem weight_apply (x0 x1 : (⟨S8x2048x768, .f32⟩ : BufTy).Contents (Elt Ideal)) (x3 : (⟨S214x768, .f32⟩ : BufTy).Contents (Elt Ideal))
    (x4 : (⟨S214, .f32⟩ : BufTy).Contents (Elt Ideal)) (x5 : (⟨S214x768, .f32⟩ : BufTy).Contents (Elt Ideal))
    (x6 : (⟨S214, .f32⟩ : BufTy).Contents (Elt Ideal)) (x9 : (⟨S2048x2048, .f32⟩ : BufTy).Contents (Elt Ideal))
    (x10 : (⟨S8x2048x2048, .f32⟩ : BufTy).Contents (Elt Ideal)) (b : Fin 8) (s t : Fin 2048) :
    val_main_v27 (F := Ideal) x0 x1 x3 x4 x5 x6 x9 x10 (ix3 b s t)
      = Ideal.div (val_main_v22 (F := Ideal) x0 x1 x3 x4 x5 x6 x9 (ix3 b s t)) (0 + ∑ t' : Fin 2048, val_main_v22 (F := Ideal) x0 x1 x3 x4 x5 x6 x9 (ix3 b s t')) * x10 (ix3 b s t) := by
  rw [val_main_v27_apply, val_main_v26_apply, val_main_v25_apply, val_main_v24_apply, Ideal.mulf_def, Ideal.hostDivf_def]
  have eb : idx_main_v24 (idx_main_v25 (ix3 b s t)) = ix2 b s := funext fun a => Fin.ext (by
    match a with | ⟨0, _⟩ => rfl | ⟨1, _⟩ => rfl)
  rw [eb, sum_apply]

/-! ## The result -/

/-- The reference's result at (b, s, e) is the specification there. -/
theorem ref_apply (x0 x1 x2 : (⟨S8x2048x768, .f32⟩ : BufTy).Contents (Elt Ideal)) (x3 : (⟨S214x768, .f32⟩ : BufTy).Contents (Elt Ideal))
    (x4 : (⟨S214, .f32⟩ : BufTy).Contents (Elt Ideal)) (x5 : (⟨S214x768, .f32⟩ : BufTy).Contents (Elt Ideal))
    (x6 : (⟨S214, .f32⟩ : BufTy).Contents (Elt Ideal)) (x7 : (⟨S768x768, .f32⟩ : BufTy).Contents (Elt Ideal))
    (x8 : (⟨S768, .f32⟩ : BufTy).Contents (Elt Ideal)) (x9 : (⟨S2048x2048, .f32⟩ : BufTy).Contents (Elt Ideal))
    (x10 : (⟨S8x2048x2048, .f32⟩ : BufTy).Contents (Elt Ideal)) (b : Fin 8) (s : Fin 2048) (e : Fin 768) :
    Cert.ReferenceIdeal.Read.val_main_v28 (F := Ideal) x0 x1 x2 x3 x4 x5 x6 x7 x8 x9 x10 (ValueIdx.ix3 b s e)
      = Cert.Spec.out (fun b s d => x0 (ValueIdx.ix3 b s d)) (fun b s d => x1 (ValueIdx.ix3 b s d))
          (fun b s d => x2 (ValueIdx.ix3 b s d)) (fun j d => x3 (ValueIdx.ix2 j d)) (fun j => x4 (ValueIdx.ix1 j))
          (fun j d => x5 (ValueIdx.ix2 j d)) (fun j => x6 (ValueIdx.ix1 j)) (fun e d => x7 (ValueIdx.ix2 e d))
          (fun e => x8 (ValueIdx.ix1 e)) (fun s t => x9 (ValueIdx.ix2 s t)) (fun b s t => x10 (ValueIdx.ix3 b s t)) b s e := by
  rw [val_main_v28_apply]
  have el : ∀ k : Fin 2048, lidx_main_v28 (ix3 b s e) k = ix3 b s k := fun k => funext fun a => Fin.ext (by
    match a with | ⟨0, _⟩ => rfl | ⟨1, _⟩ => rfl | ⟨2, _⟩ => rfl)
  have er : ∀ k : Fin 2048, ridx_main_v28 (ix3 b s e) k = ix3 b k e := fun k => funext fun a => Fin.ext (by
    match a with | ⟨0, _⟩ => rfl | ⟨1, _⟩ => rfl | ⟨2, _⟩ => rfl)
  simp only [el, er, weight_apply, exp_apply, score_apply, v_apply]
  rfl

end Cert.RefSpec

end
-- ==== Proof.Algebraic.lean ====
import proofs.«154501_j39676907887142_2_alg».proof.Defs
import proofs.«154501_j39676907887142_2_alg».proof.Proof.KernelIdealFrame
import proofs.«154501_j39676907887142_2_alg».proof.Proof.KernelIdealBlocks1
import proofs.«154501_j39676907887142_2_alg».proof.Proof.KernelIdealGlue0
import proofs.«154501_j39676907887142_2_alg».proof.Proof.KernelIdealArr1
import proofs.«154501_j39676907887142_2_alg».proof.Proof.KSpec
import proofs.«154501_j39676907887142_2_alg».proof.Proof.PreReal
import proofs.«154501_j39676907887142_2_alg».proof.Proof.KSpecMath
import proofs.«154501_j39676907887142_2_alg».proof.Proof.RefIsSpec
import proofs.«154501_j39676907887142_2_alg».proof.Proof.Gen.ReferenceIdeal.Run
import proofs.«154501_j39676907887142_2_alg».proof.Proof.Gen.ReferenceIdeal.Read
import proofs.«154501_j39676907887142_2_alg».proof.Proof.Gen.Pre_finite_inputs
import Idealize.ShloMosaic.Lib.ValueIdx

/-!
# The value claim: the kernel and the reference end with the same result array

Both programs are compared with one specification: scaled dot-product attention with an
elementwise divisor and a multiplicative mask after the softmax, over the eleven launch arrays read
at coordinates.

* The kernel: its second region leaves, at every index, the quotient of the online softmax
  recurrence's final numerator by its final denominator over the arrays its first region left;
  those are the padded, transposed projections of the launch arrays, and the divisor and the mask
  are as launched; so the result is the tile-by-tile form of the specification, which under the
  precondition (every entry real, the divisor nowhere zero) is the specification.
* The reference: its result term, read at an index, is the specification on its own launch arrays,
  which agree with the kernel's.
-/

set_option maxRecDepth 16384

noncomputable section

namespace Cert.Proof.Alg

open Idealize.ShloMosaic Idealize.ShloMosaic.TcCoe Idealize.ShloMosaic.ValueIdx Idealize.SL.Sem
open Cert.KernelIdeal.Hand

/-! ### The kernel's result is the tile-by-tile form of the specification -/

/-- (1) Under the hypothesis that the second region's output array is, index by index, the quotient of
    the online recurrence's final numerator by its final denominator over the first region's arrays,
    the kernel's result at (b, s, e) is the tile-by-tile form of the specification on the launch
    arrays: the first region's arrays are the padded, transposed projections, and the divisor and
    the mask are as launched. -/
theorem kernel_kout
    (harr : ∀ (V : (c : Dev Cert.KernelIdeal.nD) → (b : Ref Cert.KernelIdeal.sig .tc) →
        Buf (Elt Ideal) ((c : Thread Cert.KernelIdeal.nD Cert.KernelIdeal.τ).loc b)) (c) (b : Fin 8) (s : Fin 2048) (e : Fin 768),
      ((Cert.KernelIdeal.Hand.dat1 V c).arrAt 5 Cert.KernelIdeal.cfg1.N : Cert.KernelIdeal.S8x2048x768.Idx → EReal) (ix3 b s e)
        = Ideal.div (Cert.KSpec.stateAt (qOf V c) (kOf V c) (invOf V c) (dropOf V c) (vOf V c) b s e 4 (le_refl 4)).2.2
            (Cert.KSpec.stateAt (qOf V c) (kOf V c) (invOf V c) (dropOf V c) (vOf V c) b s e 4 (le_refl 4)).2.1)
    (m : (ℓ : Loc Cert.KernelIdeal.nD Cert.KernelIdeal.τ Cert.KernelIdeal.sig) → Buf (Elt Ideal) ℓ)
    (c : Dev Cert.KernelIdeal.nD) (b : Fin 8) (s : Fin 2048) (e : Fin 768) :
    ((Cert.KernelIdeal.Hand.dat1 (V10r m) c).arrAt 5 Cert.KernelIdeal.cfg1.N : Cert.KernelIdeal.S8x2048x768.Idx → EReal) (ix3 b s e)
      = Cert.KSpec.kout (X1 m c) (X2 m c) (X3 m c) (WQ m c) (BQ m c) (WK m c) (BK m c) (WV m c) (BV m c) (INV m c) (DROP m c) b s e := by
  have hq : qOf (V10r m) c = Cert.KSpec.projT (X1 m c) (Cert.KSpec.padW (WQ m c)) (Cert.KSpec.padB (BQ m c)) := by
    funext b s j; exact W10_q m c b s j
  have hk : kOf (V10r m) c = Cert.KSpec.projT (X2 m c) (Cert.KSpec.padW (WK m c)) (Cert.KSpec.padB (BK m c)) := by
    funext b s j; exact W10_k m c b s j
  have hv : vOf (V10r m) c = Cert.KSpec.projT (X3 m c) (fun d e => WV m c e d) (BV m c) := by
    funext b s e; exact W10_v m c b s e
  have hinv : invOf (V10r m) c = INV m c := by
    funext s t; exact congrFun (W10_inv m c) (ix2 s t)
  have hdrop : dropOf (V10r m) c = DROP m c := by
    funext b s t; exact congrFun (W10_drop m c) (ix3 b s t)
  rw [harr (V10r m) c b s e, hq, hk, hv, hinv, hdrop]
  rfl

/-- A function on a rank-3 index space that is known at every index built from coordinates is the
    function of the coordinates. -/
theorem eq_of_ix3 {n0 n1 n2 : ℕ} {α : Type} (f : (⟨3, ![n0, n1, n2]⟩ : Shape).Idx → α)
    (g : Fin n0 → Fin n1 → Fin n2 → α) (h : ∀ a b c, f (ix3 a b c) = g a b c) :
    f = fun i => g (i 0) (i 1) (i 2) :=
  funext fun i => (congrArg f (eq_ix3 i)).trans (h (i 0) (i 1) (i 2))

/-! ### Under the precondition the tile-by-tile form is the specification -/

/-- (2) Under the precondition every launch array has real entries and the divisor is nowhere zero,
    so the tile-by-tile form of the specification on the launch arrays is the specification. -/
theorem kout_eq_out_of_pre
    (m : (ℓ : Loc Cert.KernelIdeal.nD Cert.KernelIdeal.τ Cert.KernelIdeal.sig) → Buf (Elt Ideal) ℓ)
    (hpre : Cert.Pre_KernelIdeal m) (c : Dev Cert.KernelIdeal.nD) (b : Fin 8) (s : Fin 2048) (e : Fin 768) :
    Cert.KSpec.kout (X1 m c) (X2 m c) (X3 m c) (WQ m c) (BQ m c) (WK m c) (BK m c) (WV m c) (BV m c) (INV m c) (DROP m c) b s e
      = Cert.Spec.out (X1 m c) (X2 m c) (X3 m c) (WQ m c) (BQ m c) (WK m c) (BK m c) (WV m c) (BV m c) (INV m c) (DROP m c) b s e := by
  obtain ⟨h0, h1, h2, h3, h4, h5, h6, h7, h8, h9, h10, hne⟩ := Cert.PreReal.of_fn _ _ _ _ _ _ _ _ _ _ _ (hpre c)
  exact Cert.KSpec.kout_eq_out (X1 m c) (X2 m c) (X3 m c) (WQ m c) (BQ m c) (WK m c) (BK m c) (WV m c) (BV m c) (INV m c) (DROP m c)
    (fun b s d => h0 (ix3 b s d)) (fun b s d => h1 (ix3 b s d)) (fun b s d => h2 (ix3 b s d))
    (fun j d => h3 (ix2 j d)) (fun j => h4 (ix1 j)) (fun j d => h5 (ix2 j d)) (fun j => h6 (ix1 j))
    (fun e d => h7 (ix2 e d)) (fun e => h8 (ix1 e)) (fun s t => h9 (ix2 s t)) (fun b s t => h10 (ix3 b s t))
    (fun s t => hne (ix2 s t)) b s e

/-- (1) and (2): under the array hypothesis and the precondition, the kernel's result array is, index
    by index, the specification on the launch arrays. -/
theorem kernel_out
    (harr : ∀ (V : (c : Dev Cert.KernelIdeal.nD) → (b : Ref Cert.KernelIdeal.sig .tc) →
        Buf (Elt Ideal) ((c : Thread Cert.KernelIdeal.nD Cert.KernelIdeal.τ).loc b)) (c) (b : Fin 8) (s : Fin 2048) (e : Fin 768),
      ((Cert.KernelIdeal.Hand.dat1 V c).arrAt 5 Cert.KernelIdeal.cfg1.N : Cert.KernelIdeal.S8x2048x768.Idx → EReal) (ix3 b s e)
        = Ideal.div (Cert.KSpec.stateAt (qOf V c) (kOf V c) (invOf V c) (dropOf V c) (vOf V c) b s e 4 (le_refl 4)).2.2
            (Cert.KSpec.stateAt (qOf V c) (kOf V c) (invOf V c) (dropOf V c) (vOf V c) b s e 4 (le_refl 4)).2.1)
    (m : (ℓ : Loc Cert.KernelIdeal.nD Cert.KernelIdeal.τ Cert.KernelIdeal.sig) → Buf (Elt Ideal) ℓ)
    (hpre : Cert.Pre_KernelIdeal m) (c : Dev Cert.KernelIdeal.nD) :
    ((Cert.KernelIdeal.Hand.dat1 (V10r m) c).arrAt 5 Cert.KernelIdeal.cfg1.N : Cert.KernelIdeal.S8x2048x768.Idx → EReal)
      = fun i => Cert.Spec.out (X1 m c) (X2 m c) (X3 m c) (WQ m c) (BQ m c) (WK m c) (BK m c) (WV m c) (BV m c)
          (INV m c) (DROP m c) (i 0) (i 1) (i 2) := by
  exact eq_of_ix3 _ _ fun b s e => (kernel_kout harr m c b s e).trans (kout_eq_out_of_pre m hpre c b s e)

/-! ### The reference's result is the specification -/

/-- (3) The reference's result array is, index by index, the specification on its own launch
    arrays read at coordinates. -/
theorem reference_out
    (m' : (ℓ : Loc Cert.ReferenceIdeal.nD Cert.ReferenceIdeal.τ Cert.ReferenceIdeal.sig) → Buf (Elt Ideal) ℓ)
    (c : Dev Cert.ReferenceIdeal.nD) :
    (Cert.ReferenceIdeal.Value.res_main_v28 (F := Ideal) m' c : Cert.ReferenceIdeal.S8x2048x768.Idx → EReal)
      = fun i => Cert.Spec.out
          (fun b s d => (m' ((c.tc : Thread Cert.ReferenceIdeal.nD Cert.ReferenceIdeal.τ).loc Cert.ReferenceIdeal.main_arg0) : Cert.ReferenceIdeal.S8x2048x768.Idx → EReal) (ix3 b s d))
          (fun b s d => (m' ((c.tc : Thread Cert.ReferenceIdeal.nD Cert.ReferenceIdeal.τ).loc Cert.ReferenceIdeal.main_arg1) : Cert.ReferenceIdeal.S8x2048x768.Idx → EReal) (ix3 b s d))
          (fun b s d => (m' ((c.tc : Thread Cert.ReferenceIdeal.nD Cert.ReferenceIdeal.τ).loc Cert.ReferenceIdeal.main_arg2) : Cert.ReferenceIdeal.S8x2048x768.Idx → EReal) (ix3 b s d))
          (fun j d => (m' ((c.tc : Thread Cert.ReferenceIdeal.nD Cert.ReferenceIdeal.τ).loc Cert.ReferenceIdeal.main_arg3) : Cert.ReferenceIdeal.S214x768.Idx → EReal) (ix2 j d))
          (fun j => (m' ((c.tc : Thread Cert.ReferenceIdeal.nD Cert.ReferenceIdeal.τ).loc Cert.ReferenceIdeal.main_arg4) : Cert.ReferenceIdeal.S214.Idx → EReal) (ix1 j))
          (fun j d => (m' ((c.tc : Thread Cert.ReferenceIdeal.nD Cert.ReferenceIdeal.τ).loc Cert.ReferenceIdeal.main_arg5) : Cert.ReferenceIdeal.S214x768.Idx → EReal) (ix2 j d))
          (fun j => (m' ((c.tc : Thread Cert.ReferenceIdeal.nD Cert.ReferenceIdeal.τ).loc Cert.ReferenceIdeal.main_arg6) : Cert.ReferenceIdeal.S214.Idx → EReal) (ix1 j))
          (fun e d => (m' ((c.tc : Thread Cert.ReferenceIdeal.nD Cert.ReferenceIdeal.τ).loc Cert.ReferenceIdeal.main_arg7) : Cert.ReferenceIdeal.S768x768.Idx → EReal) (ix2 e d))
          (fun e => (m' ((c.tc : Thread Cert.ReferenceIdeal.nD Cert.ReferenceIdeal.τ).loc Cert.ReferenceIdeal.main_arg8) : Cert.ReferenceIdeal.S768.Idx → EReal) (ix1 e))
          (fun s t => (m' ((c.tc : Thread Cert.ReferenceIdeal.nD Cert.ReferenceIdeal.τ).loc Cert.ReferenceIdeal.main_arg9) : Cert.ReferenceIdeal.S2048x2048.Idx → EReal) (ix2 s t))
          (fun b s t => (m' ((c.tc : Thread Cert.ReferenceIdeal.nD Cert.ReferenceIdeal.τ).loc Cert.ReferenceIdeal.main_arg10) : Cert.ReferenceIdeal.S8x2048x2048.Idx → EReal) (ix3 b s t))
          (i 0) (i 1) (i 2) := by
  rw [Cert.ReferenceIdeal.Read.val_main_v28_eq]
  exact eq_of_ix3 _ _ fun b s e => Cert.RefSpec.ref_apply
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    b s e

/-! ### The assembly -/

/-- (4) The value claim, from the array hypothesis: both programs run, leave their arguments
    unchanged, and end with the same result array, the specification on the launch arrays. -/
theorem algebraic_of
    (harr : ∀ (V : (c : Dev Cert.KernelIdeal.nD) → (b : Ref Cert.KernelIdeal.sig .tc) →
        Buf (Elt Ideal) ((c : Thread Cert.KernelIdeal.nD Cert.KernelIdeal.τ).loc b)) (c) (b : Fin 8) (s : Fin 2048) (e : Fin 768),
      ((Cert.KernelIdeal.Hand.dat1 V c).arrAt 5 Cert.KernelIdeal.cfg1.N : Cert.KernelIdeal.S8x2048x768.Idx → EReal) (ix3 b s e)
        = Ideal.div (Cert.KSpec.stateAt (qOf V c) (kOf V c) (invOf V c) (dropOf V c) (vOf V c) b s e 4 (le_refl 4)).2.2
            (Cert.KSpec.stateAt (qOf V c) (kOf V c) (invOf V c) (dropOf V c) (vOf V c) b s e 4 (le_refl 4)).2.1) :
    Cert.algebraic_KernelIdeal_ReferenceIdeal := by
  intro m g m' g' hpre hagree
  refine ⟨fun c => (fun i => Cert.Spec.out (X1 m c) (X2 m c) (X3 m c) (WQ m c) (BQ m c) (WK m c) (BK m c) (WV m c) (BV m c)
      (INV m c) (DROP m c) (i 0) (i 1) (i 2) : Cert.KernelIdeal.S8x2048x768.Idx → EReal), ?_, ?_⟩
  · exact (θ_run (Cert.KernelIdeal.defs (F := Ideal)) _ _).mono
      (fun r h c => ⟨(h c).1.trans (kernel_out harr m hpre c), (h c).2⟩)
      (Cert.KernelIdeal.Hand.run (F := Ideal) m g)
  · refine (θ_run (Cert.ReferenceIdeal.defs (F := Ideal)) _ _).mono
      (fun r h c => ⟨(h c).1.trans ?_, (h c).2⟩)
      (Cert.ReferenceIdeal.Value.run (F := Ideal) m' g')
    refine (reference_out m' c).trans ?_
    obtain ⟨e0, e1, e2, e3, e4, e5, e6, e7, e8, e9, e10⟩ := hagree c
    rw [e0, e1, e2, e3, e4, e5, e6, e7, e8, e9, e10]
    rfl

/-- The value claim: the second region's output array is the online recurrence's quotient, so both
    programs end with the specification on the launch arrays. -/
theorem algebraic : Cert.algebraic_KernelIdeal_ReferenceIdeal :=
  algebraic_of (fun V c b s e => Cert.KernelIdeal.Hand.arr1_kout V c b s e)

end Cert.Proof.Alg

end
-- ==== Proof.lean ====
/-
  The five claims about the attention kernel and its reference.

  The kernel program runs its nine host stretches (zero-padding the two 214-wide projection weights and biases to width
  256, transposing the three weights, laying the biases out as rows), then two kernel regions: the first computes the
  query, key and value projections tile by tile; the second, for each batch entry and each tile of 1024 query rows,
  sweeps four tiles of 512 keys with a running maximum, a running sum of exponentials and a running weighted sum of
  value rows kept in three scratch buffers, and divides at the last tile. Both kernel programs' frames are that run with
  the result dropped; the reference's frame is its run read back. The kernel's idealization rewrote nothing, so it
  preserves the kernel trivially. At the ideal instance, when every input is a real number and the elementwise divisor
  has no zero entry, the sweep's result is the softmax-weighted masked sum of the value rows that the reference computes:
  the padded columns contribute nothing, and rescaling by the exponential of the difference of maxima makes the running
  sums the sums taken against the final maximum.
-/
import proofs.«154501_j39676907887142_2_alg».proof.Defs
import proofs.«154501_j39676907887142_2_alg».proof.Proof.Gen.Kernel
import proofs.«154501_j39676907887142_2_alg».proof.Proof.Gen.KernelIdeal
import proofs.«154501_j39676907887142_2_alg».proof.Proof.Gen.ReferenceIdeal
import proofs.«154501_j39676907887142_2_alg».proof.Proof.Gen.Pre_finite_inputs
import proofs.«154501_j39676907887142_2_alg».proof.Proof.KernelFrame
import proofs.«154501_j39676907887142_2_alg».proof.Proof.KernelIdealFrame
import proofs.«154501_j39676907887142_2_alg».proof.Proof.RefFrame
import proofs.«154501_j39676907887142_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ

theorem claim : Cert.Claim := ⟨Cert.Kernel.Gen.facts, Cert.KernelIdeal.Gen.facts, Cert.ReferenceIdeal.Gen.facts, Cert.Pre_finite_inputs.Gen.facts,
  frame_k, frame_ki, Cert.Proof.Ref.frame_ri, trivial, Cert.Proof.Alg.algebraic⟩

end Cert.Proof

end
